-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v177)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v177) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v359) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S6x128x128 : Shape := ⟨3, ![6, 128, 128]⟩
abbrev S6x128 : Shape := ⟨2, ![6, 128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S6x128x128 : S_.BroadcastsInDim S6x128x128 (![] : Fin 0 → Fin S6x128x128.rank)
  reducesTo_S6x128x128_S_d0_1_2 : S6x128x128.ReducesTo [0, 1, 2] S_
  bcast_S_S6x128 : S_.BroadcastsInDim S6x128 (![] : Fin 0 → Fin S6x128.rank)
  reducesTo_S6x128_S_d0_1 : S6x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S2 .f32) (main_v33 : IVec S_ 1) : IVec S_ 1 :=
  let main_v34 : FVec F S2 .f32 := Host.absf main_arg8
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg5 : FVec F S6x128x128 .f32) (main_arg6 : FVec F S6x128 .f32) (main_arg7 : FVec F S128x2 .f32) (main_arg8 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S6x128x128 .f32 := Host.absf main_arg5
  let main_cst_6 : FVec F S_ .f32 := constant S_ .f32 0x7F800000#32
  let main_v20 : FVec F S6x128x128 .f32 := broadcastInDim S6x128x128 ![] bcast_S_S6x128x128 main_cst_6
  let main_v21 : IVec S6x128x128 1 := cmpf .olt main_v19 main_v20
  let main_c_7 : IVec S_ 1 := constantI S_ 1 1#1
  let main_v22 : IVec S_ 1 := (fun x v => Host.reduce IntOp.andi x v reducesTo_S6x128x128_S_d0_1_2 h_S_) main_v21 main_c_7
  let main_v23 : IVec S_ 1 := andi main_v18 main_v22
  let main_v24 : FVec F S6x128 .f32 := Host.absf main_arg6
  let main_cst_8 : FVec F S_ .f32 := constant S_ .f32 0x7F800000#32
  let main_v25 : FVec F S6x128 .f32 := broadcastInDim S6x128 ![] bcast_S_S6x128 main_cst_8
  let main_v26 : IVec S6x128 1 := cmpf .olt main_v24 main_v25
  let main_c_9 : IVec S_ 1 := constantI S_ 1 1#1
  let main_v27 : IVec S_ 1 := (fun x v => Host.reduce IntOp.andi x v reducesTo_S6x128_S_d0_1 h_S_) main_v26 main_c_9
  let main_v28 : IVec S_ 1 := andi main_v23 main_v27
  let main_v29 : FVec F S128x2 .f32 := Host.absf main_arg7
  let main_cst_10 : FVec F S_ .f32 := constant S_ .f32 0x7F800000#32
  let main_v30 : FVec F S128x2 .f32 := broadcastInDim S128x2 ![] bcast_S_S128x2 main_cst_10
  let main_v31 : IVec S128x2 1 := cmpf .olt main_v29 main_v30
  let main_c_11 : IVec S_ 1 := constantI S_ 1 1#1
  let main_v32 : IVec S_ 1 := (fun x v => Host.reduce IntOp.andi x v reducesTo_S128x2_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S6x128x128 .f32) (main_arg6 : FVec F S6x128 .f32) (main_arg7 : FVec F S128x2 .f32) (main_arg8 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S6x128x128 : Shape := ⟨3, ![6, 128, 128]⟩
abbrev S6x128 : Shape := ⟨2, ![6, 128]⟩
abbrev S128x2 : Shape := ⟨2, ![128, 2]⟩
abbrev S2 : Shape := ⟨1, ![2]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128x128 : Shape := ⟨3, ![1, 128, 128]⟩
abbrev S1x128 : Shape := ⟨2, ![1, 128]⟩
abbrev S50000x2 : Shape := ⟨2, ![50000, 2]⟩
abbrev S5000x2 : Shape := ⟨2, ![5000, 2]⟩
abbrev S850000x2 : Shape := ⟨2, ![850000, 2]⟩
abbrev S1x2 : Shape := ⟨2, ![1, 2]⟩

abbrev nBuf : Space → Nat
  | .hbm => 221
  | .vmem => 47
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x128, .f32⟩
  | 4 => ⟨S128, .f32⟩
  | 5 => ⟨S6x128x128, .f32⟩
  | 6 => ⟨S6x128, .f32⟩
  | 7 => ⟨S128x2, .f32⟩
  | 8 => ⟨S2, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S50000, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S50000x128, .f32⟩
  | 52 => ⟨S850000x1, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x128, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S1x128x128, .f32⟩
  | 69 => ⟨S128x128, .f32⟩
  | 70 => ⟨S1x128, .f32⟩
  | 71 => ⟨S50000x128, .f32⟩
  | 72 => ⟨S850000x1, .f32⟩
  | 73 => ⟨S_, .i32⟩
  | 74 => ⟨S850000, .i32⟩
  | 75 => ⟨S850000, .i1⟩
  | 76 => ⟨S_, .i32⟩
  | 77 => ⟨S850000, .i32⟩
  | 78 => ⟨S850000, .i32⟩
  | 79 => ⟨S850000, .i32⟩
  | 80 => ⟨S850000x1, .i32⟩
  | 81 => ⟨S850000x128, .f32⟩
  | 82 => ⟨S850000x128, .f32⟩
  | 83 => ⟨S850000x128, .f32⟩
  | 84 => ⟨S_, .f32⟩
  | 85 => ⟨S50000x128, .f32⟩
  | 86 => ⟨S850000x1, .i32⟩
  | 87 => ⟨S50000x128, .f32⟩
  | 88 => ⟨S1x128, .f32⟩
  | 89 => ⟨S128, .f32⟩
  | 90 => ⟨S1x128x128, .f32⟩
  | 91 => ⟨S128x128, .f32⟩
  | 92 => ⟨S1x128, .f32⟩
  | 93 => ⟨S50000x128, .f32⟩
  | 94 => ⟨S850000x1, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000x128, .f32⟩
  | 104 => ⟨S850000x128, .f32⟩
  | 105 => ⟨S850000x128, .f32⟩
  | 106 => ⟨S_, .f32⟩
  | 107 => ⟨S50000x128, .f32⟩
  | 108 => ⟨S850000x1, .i32⟩
  | 109 => ⟨S50000x128, .f32⟩
  | 110 => ⟨S1x128, .f32⟩
  | 111 => ⟨S128, .f32⟩
  | 112 => ⟨S1x128x128, .f32⟩
  | 113 => ⟨S128x128, .f32⟩
  | 114 => ⟨S1x128, .f32⟩
  | 115 => ⟨S50000x128, .f32⟩
  | 116 => ⟨S850000x1, .f32⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000x128, .f32⟩
  | 126 => ⟨S850000x128, .f32⟩
  | 127 => ⟨S850000x128, .f32⟩
  | _ => ⟨S50000x128, .f32⟩

abbrev hbmTy0_1 (i : Nat) : BufTy := match i % 128 with
  | 0 => ⟨S_, .f32⟩
  | 1 => ⟨S50000x128, .f32⟩
  | 2 => ⟨S850000x1, .i32⟩
  | 3 => ⟨S50000x128, .f32⟩
  | 4 => ⟨S1x128, .f32⟩
  | 5 => ⟨S128, .f32⟩
  | 6 => ⟨S1x128x128, .f32⟩
  | 7 => ⟨S128x128, .f32⟩
  | 8 => ⟨S1x128, .f32⟩
  | 9 => ⟨S50000x128, .f32⟩
  | 10 => ⟨S850000x1, .f32⟩
  | 11 => ⟨S_, .i32⟩
  | 12 => ⟨S850000, .i32⟩
  | 13 => ⟨S850000, .i1⟩
  | 14 => ⟨S_, .i32⟩
  | 15 => ⟨S850000, .i32⟩
  | 16 => ⟨S850000, .i32⟩
  | 17 => ⟨S850000, .i32⟩
  | 18 => ⟨S850000x1, .i32⟩
  | 19 => ⟨S850000x128, .f32⟩
  | 20 => ⟨S850000x128, .f32⟩
  | 21 => ⟨S850000x128, .f32⟩
  | 22 => ⟨S_, .f32⟩
  | 23 => ⟨S50000x128, .f32⟩
  | 24 => ⟨S850000x1, .i32⟩
  | 25 => ⟨S50000x128, .f32⟩
  | 26 => ⟨S1x128, .f32⟩
  | 27 => ⟨S128, .f32⟩
  | 28 => ⟨S1x128x128, .f32⟩
  | 29 => ⟨S128x128, .f32⟩
  | 30 => ⟨S1x128, .f32⟩
  | 31 => ⟨S50000x128, .f32⟩
  | 32 => ⟨S850000x1, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000x128, .f32⟩
  | 42 => ⟨S850000x128, .f32⟩
  | 43 => ⟨S850000x128, .f32⟩
  | 44 => ⟨S_, .f32⟩
  | 45 => ⟨S50000x128, .f32⟩
  | 46 => ⟨S850000x1, .i32⟩
  | 47 => ⟨S50000x128, .f32⟩
  | 48 => ⟨S1x128, .f32⟩
  | 49 => ⟨S128, .f32⟩
  | 50 => ⟨S1x128x128, .f32⟩
  | 51 => ⟨S128x128, .f32⟩
  | 52 => ⟨S1x128, .f32⟩
  | 53 => ⟨S50000x128, .f32⟩
  | 54 => ⟨S850000x1, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000x128, .f32⟩
  | 64 => ⟨S850000x128, .f32⟩
  | 65 => ⟨S850000x128, .f32⟩
  | 66 => ⟨S_, .f32⟩
  | 67 => ⟨S50000x128, .f32⟩
  | 68 => ⟨S850000x1, .i32⟩
  | 69 => ⟨S50000x128, .f32⟩
  | 70 => ⟨S1x128, .f32⟩
  | 71 => ⟨S128, .f32⟩
  | 72 => ⟨S1x128, .f32⟩
  | 73 => ⟨S50000x2, .f32⟩
  | 74 => ⟨S850000x1, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000x2, .f32⟩
  | 84 => ⟨S850000x2, .f32⟩
  | 85 => ⟨S850000x2, .f32⟩
  | 86 => ⟨S_, .f32⟩
  | 87 => ⟨S50000x2, .f32⟩
  | 88 => ⟨S850000x1, .i32⟩
  | 89 => ⟨S50000x2, .f32⟩
  | 90 => ⟨S1x2, .f32⟩
  | 91 => ⟨S50000x2, .f32⟩
  | 92 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S1x128, .f32⟩
  | .local _ .vmem, ⟨26, _⟩ => ⟨S128x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S1x128, .f32⟩
  | .local _ .vmem, ⟨32, _⟩ => ⟨S128x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S1x128, .f32⟩
  | .local _ .vmem, ⟨38, _⟩ => ⟨S128x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S1x128, .f32⟩
  | .local _ .vmem, ⟨44, _⟩ => ⟨S128x2, .f32⟩
  | .local _ .vmem, ⟨45, _⟩ => ⟨S5000x2, .f32⟩
  | .local _ .vmem, ⟨46, _⟩ => ⟨S5000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_12 : Ref sig .tc := ⟨.hbm, 95, rfl⟩
abbrev main_v70 : Ref sig .tc := ⟨.hbm, 96, rfl⟩
abbrev main_v71 : Ref sig .tc := ⟨.hbm, 97, rfl⟩
abbrev main_c_13 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_14 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_c_15 : Ref sig .tc := ⟨.hbm, 117, rfl⟩
abbrev main_v89 : Ref sig .tc := ⟨.hbm, 118, rfl⟩
abbrev main_v90 : Ref sig .tc := ⟨.hbm, 119, rfl⟩
abbrev main_c_16 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_17 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_c_18 : Ref sig .tc := ⟨.hbm, 139, rfl⟩
abbrev main_v108 : Ref sig .tc := ⟨.hbm, 140, rfl⟩
abbrev main_v109 : Ref sig .tc := ⟨.hbm, 141, rfl⟩
abbrev main_c_19 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_20 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_c_21 : Ref sig .tc := ⟨.hbm, 161, rfl⟩
abbrev main_v127 : Ref sig .tc := ⟨.hbm, 162, rfl⟩
abbrev main_v128 : Ref sig .tc := ⟨.hbm, 163, rfl⟩
abbrev main_c_22 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_cst_23 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_c_24 : Ref sig .tc := ⟨.hbm, 183, rfl⟩
abbrev main_v146 : Ref sig .tc := ⟨.hbm, 184, rfl⟩
abbrev main_v147 : Ref sig .tc := ⟨.hbm, 185, rfl⟩
abbrev main_c_25 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_cst_26 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_c_27 : Ref sig .tc := ⟨.hbm, 203, rfl⟩
abbrev main_v163 : Ref sig .tc := ⟨.hbm, 204, rfl⟩
abbrev main_v164 : Ref sig .tc := ⟨.hbm, 205, rfl⟩
abbrev main_c_28 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_cst_29 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg3_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg3_1 : Ref sig .tc := ⟨.vmem, 34, rfl⟩
abbrev cc6_stg0_0 : Ref sig .tc := ⟨.vmem, 35, rfl⟩
abbrev cc6_stg0_1 : Ref sig .tc := ⟨.vmem, 36, rfl⟩
abbrev cc6_stg1_0 : Ref sig .tc := ⟨.vmem, 37, rfl⟩
abbrev cc6_stg2_0 : Ref sig .tc := ⟨.vmem, 38, rfl⟩
abbrev cc6_stg3_0 : Ref sig .tc := ⟨.vmem, 39, rfl⟩
abbrev cc6_stg3_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg2_0 : Ref sig .tc := ⟨.vmem, 44, rfl⟩
abbrev cc7_stg3_0 : Ref sig .tc := ⟨.vmem, 45, rfl⟩
abbrev cc7_stg3_1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem3_0 : DmaSem sig := 27
abbrev cc4_sem3_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem3_1 : DmaSem sig := 34
abbrev cc6_sem0_0 : DmaSem sig := 35
abbrev cc6_sem0_1 : DmaSem sig := 36
abbrev cc6_sem1_0 : DmaSem sig := 37
abbrev cc6_sem2_0 : DmaSem sig := 38
abbrev cc6_sem3_0 : DmaSem sig := 39
abbrev cc6_sem3_1 : DmaSem sig := 40
abbrev cc7_sem0_0 : DmaSem sig := 41
abbrev cc7_sem0_1 : DmaSem sig := 42
abbrev cc7_sem1_0 : DmaSem sig := 43
abbrev cc7_sem2_0 : DmaSem sig := 44
abbrev cc7_sem3_0 : DmaSem sig := 45
abbrev cc7_sem3_1 : DmaSem sig := 46

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S128x2 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x2 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S6x128x128_S1x128x128_0_0_0 : S6x128x128.Slices ![0, 0, 0] S1x128x128
  shapeCasts_S1x128x128_S128x128 : S1x128x128.ShapeCasts S128x128
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S128x128_S128x128 : S128x128.ShapeCasts S128x128
  slices_S6x128_S1x128_0_0 : S6x128.Slices ![0, 0] S1x128
  shapeCasts_S1x128_S128 : S1x128.ShapeCasts S128
  slices_S6x128x128_S1x128x128_1_0_0 : S6x128x128.Slices ![1, 0, 0] S1x128x128
  slices_S6x128_S1x128_1_0 : S6x128.Slices ![1, 0] S1x128
  slices_S6x128x128_S1x128x128_2_0_0 : S6x128x128.Slices ![2, 0, 0] S1x128x128
  slices_S6x128_S1x128_2_0 : S6x128.Slices ![2, 0] S1x128
  slices_S6x128x128_S1x128x128_3_0_0 : S6x128x128.Slices ![3, 0, 0] S1x128x128
  slices_S6x128_S1x128_3_0 : S6x128.Slices ![3, 0] S1x128
  slices_S6x128x128_S1x128x128_4_0_0 : S6x128x128.Slices ![4, 0, 0] S1x128x128
  slices_S6x128_S1x128_4_0 : S6x128.Slices ![4, 0] S1x128
  slices_S6x128x128_S1x128x128_5_0_0 : S6x128x128.Slices ![5, 0, 0] S1x128x128
  slices_S6x128_S1x128_5_0 : S6x128.Slices ![5, 0] S1x128
  inb_S128x2_S128x2_0_0 : ∀ a, (![0, 0] : Fin 2 → Nat) a + S128x2.size a ≤ S128x2.size a
  h_S128x2 : 0 < S128x2.numel
  inb_S5000x2_S5000x2_0_0 : ∀ a, (![0, 0] : Fin 2 → Nat) a + S5000x2.size a ≤ S5000x2.size a
  h_S5000x2 : 0 < S5000x2.numel
  bcast_S850000x1_S850000x2_0_1 : S850000x1.BroadcastsInDim S850000x2 (![0, 1] : Fin 2 → Fin S850000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x2_S5000x2_1_0_0_1_n_n_wf : DotDims.WF S5000x128 S128x2 S5000x2 [1] [0] [0] [1] [] []
  gather_S50000x2_S850000x1_S850000x2_1_0_n_n_0_1_12_wf : GatherDims.WF S50000x2 S850000x1 S850000x2 [1] [0] [] [0] [] 1 ![1, 2]
  scatter_S50000x2_S850000x1_S850000x2_1_0_0_1_wf : ScatterDims.WF S50000x2 S850000x1 S850000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S50000x128.size a
  hwx6_3 : ∀ i : grid6.Coords, EltTy.bits .f32 = 32 ∨ (Rect.block (s := S50000x128) S5000x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x2.size a ≤ S128x2.size a
  hwx7_2 : ∀ i : grid7.Coords, EltTy.bits .f32 = 32 ∨ (Rect.block (s := S128x2) S128x2.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x2.size a ≤ S50000x2.size a
  hwx7_3 : ∀ i : grid7.Coords, EltTy.bits .f32 = 32 ∨ (Rect.block (s := S50000x2) S5000x2.size (cc7_transform_3 i) (hinb7_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf
def gather_S50000x2_S850000x1_S850000x2_1_0_n_n_0_1_12 : GatherDims S50000x2 S850000x1 S850000x2 where
  offsetDims := [1]
  collapsedSliceDims := [0]
  operandBatchingDims := []
  startIndicesBatchingDims := []
  startIndexMap := [0]
  indexVectorDim := 1
  sliceSizes := ![1, 2]
  wf := gather_S50000x2_S850000x1_S850000x2_1_0_n_n_0_1_12_wf
def scatter_S50000x2_S850000x1_S850000x2_1_0_0_1 : ScatterDims S50000x2 S850000x1 S850000x2 where
  updateWindowDims := [1]
  insertedWindowDims := [0]
  scatterDimsToOperandDims := [0]
  indexVectorDim := 1
  wf := scatter_S50000x2_S850000x1_S850000x2_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v62) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v81) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v86) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v85) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v87) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v100) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v105) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v104) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v106) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v119) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v124) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v123) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v125) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v138) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v143) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v142) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v144) S5000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v157) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v160) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg7) S128x2.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v161) S5000x2.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S6x128x128 : Shape := ⟨3, ![6, 128, 128]⟩
abbrev S6x128 : Shape := ⟨2, ![6, 128]⟩
abbrev S128x2 : Shape := ⟨2, ![128, 2]⟩
abbrev S2 : Shape := ⟨1, ![2]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S1x128x128 : Shape := ⟨3, ![1, 128, 128]⟩
abbrev S50000x2 : Shape := ⟨2, ![50000, 2]⟩
abbrev S850000x2 : Shape := ⟨2, ![850000, 2]⟩
abbrev S1x2 : Shape := ⟨2, ![1, 2]⟩

abbrev nBuf : Space → Nat
  | .hbm => 480
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x128, .f32⟩
  | 4 => ⟨S128, .f32⟩
  | 5 => ⟨S6x128x128, .f32⟩
  | 6 => ⟨S6x128, .f32⟩
  | 7 => ⟨S128x2, .f32⟩
  | 8 => ⟨S2, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S50000, .f32⟩
  | 18 => ⟨S850000, .f32⟩
  | 19 => ⟨S50000x128, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S850000x1, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x128, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S1x128x128, .f32⟩
  | 75 => ⟨S128x128, .f32⟩
  | 76 => ⟨S1x128, .f32⟩
  | 77 => ⟨S128, .f32⟩
  | 78 => ⟨S50000x128, .f32⟩
  | 79 => ⟨S_, .f32⟩
  | 80 => ⟨S50000, .f32⟩
  | 81 => ⟨S850000x1, .i32⟩
  | 82 => ⟨S50000, .f32⟩
  | 83 => ⟨S_, .f32⟩
  | 84 => ⟨S50000, .f32⟩
  | 85 => ⟨S50000, .i1⟩
  | 86 => ⟨S50000, .f32⟩
  | 87 => ⟨S_, .f32⟩
  | 88 => ⟨S_, .f32⟩
  | 89 => ⟨S50000, .f32⟩
  | 90 => ⟨S50000, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000, .f32⟩
  | 100 => ⟨S850000, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000, .f32⟩
  | 110 => ⟨S850000, .f32⟩
  | 111 => ⟨S850000x1, .f32⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S850000x128, .f32⟩
  | 121 => ⟨S850000x128, .f32⟩
  | 122 => ⟨S850000x128, .f32⟩
  | 123 => ⟨S_, .f32⟩
  | 124 => ⟨S50000x128, .f32⟩
  | 125 => ⟨S850000x1, .i32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | 5 => ⟨S1x128x128, .f32⟩
  | 6 => ⟨S128x128, .f32⟩
  | 7 => ⟨S1x128, .f32⟩
  | 8 => ⟨S128, .f32⟩
  | 9 => ⟨S50000x128, .f32⟩
  | 10 => ⟨S_, .f32⟩
  | 11 => ⟨S50000, .f32⟩
  | 12 => ⟨S850000x1, .i32⟩
  | 13 => ⟨S50000, .f32⟩
  | 14 => ⟨S_, .f32⟩
  | 15 => ⟨S50000, .f32⟩
  | 16 => ⟨S50000, .i1⟩
  | 17 => ⟨S50000, .f32⟩
  | 18 => ⟨S_, .f32⟩
  | 19 => ⟨S_, .f32⟩
  | 20 => ⟨S50000, .f32⟩
  | 21 => ⟨S50000, .f32⟩
  | 22 => ⟨S_, .i32⟩
  | 23 => ⟨S850000, .i32⟩
  | 24 => ⟨S850000, .i1⟩
  | 25 => ⟨S_, .i32⟩
  | 26 => ⟨S850000, .i32⟩
  | 27 => ⟨S850000, .i32⟩
  | 28 => ⟨S850000, .i32⟩
  | 29 => ⟨S850000x1, .i32⟩
  | 30 => ⟨S850000, .f32⟩
  | 31 => ⟨S850000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S850000, .f32⟩
  | 42 => ⟨S850000x1, .f32⟩
  | 43 => ⟨S_, .i32⟩
  | 44 => ⟨S850000, .i32⟩
  | 45 => ⟨S850000, .i1⟩
  | 46 => ⟨S_, .i32⟩
  | 47 => ⟨S850000, .i32⟩
  | 48 => ⟨S850000, .i32⟩
  | 49 => ⟨S850000, .i32⟩
  | 50 => ⟨S850000x1, .i32⟩
  | 51 => ⟨S850000x128, .f32⟩
  | 52 => ⟨S850000x128, .f32⟩
  | 53 => ⟨S850000x128, .f32⟩
  | 54 => ⟨S_, .f32⟩
  | 55 => ⟨S50000x128, .f32⟩
  | 56 => ⟨S850000x1, .i32⟩
  | 57 => ⟨S50000x128, .f32⟩
  | 58 => ⟨S1x128, .f32⟩
  | 59 => ⟨S50000x128, .f32⟩
  | 60 => ⟨S50000x128, .f32⟩
  | 61 => ⟨S_, .f32⟩
  | 62 => ⟨S50000x128, .f32⟩
  | 63 => ⟨S50000x128, .f32⟩
  | 64 => ⟨S1x128x128, .f32⟩
  | 65 => ⟨S128x128, .f32⟩
  | 66 => ⟨S1x128, .f32⟩
  | 67 => ⟨S128, .f32⟩
  | 68 => ⟨S50000x128, .f32⟩
  | 69 => ⟨S_, .f32⟩
  | 70 => ⟨S50000, .f32⟩
  | 71 => ⟨S850000x1, .i32⟩
  | 72 => ⟨S50000, .f32⟩
  | 73 => ⟨S_, .f32⟩
  | 74 => ⟨S50000, .f32⟩
  | 75 => ⟨S50000, .i1⟩
  | 76 => ⟨S50000, .f32⟩
  | 77 => ⟨S_, .f32⟩
  | 78 => ⟨S_, .f32⟩
  | 79 => ⟨S50000, .f32⟩
  | 80 => ⟨S50000, .f32⟩
  | 81 => ⟨S_, .i32⟩
  | 82 => ⟨S850000, .i32⟩
  | 83 => ⟨S850000, .i1⟩
  | 84 => ⟨S_, .i32⟩
  | 85 => ⟨S850000, .i32⟩
  | 86 => ⟨S850000, .i32⟩
  | 87 => ⟨S850000, .i32⟩
  | 88 => ⟨S850000x1, .i32⟩
  | 89 => ⟨S850000, .f32⟩
  | 90 => ⟨S850000, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000, .f32⟩
  | 100 => ⟨S850000, .f32⟩
  | 101 => ⟨S850000x1, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000x128, .f32⟩
  | 111 => ⟨S850000x128, .f32⟩
  | 112 => ⟨S850000x128, .f32⟩
  | 113 => ⟨S_, .f32⟩
  | 114 => ⟨S50000x128, .f32⟩
  | 115 => ⟨S850000x1, .i32⟩
  | 116 => ⟨S50000x128, .f32⟩
  | 117 => ⟨S1x128, .f32⟩
  | 118 => ⟨S50000x128, .f32⟩
  | 119 => ⟨S50000x128, .f32⟩
  | 120 => ⟨S_, .f32⟩
  | 121 => ⟨S50000x128, .f32⟩
  | 122 => ⟨S50000x128, .f32⟩
  | 123 => ⟨S1x128x128, .f32⟩
  | 124 => ⟨S128x128, .f32⟩
  | 125 => ⟨S1x128, .f32⟩
  | 126 => ⟨S128, .f32⟩
  | 127 => ⟨S50000x128, .f32⟩
  | _ => ⟨S50000x128, .f32⟩

abbrev hbmTy0_2 (i : Nat) : BufTy := match i % 128 with
  | 0 => ⟨S_, .f32⟩
  | 1 => ⟨S50000, .f32⟩
  | 2 => ⟨S850000x1, .i32⟩
  | 3 => ⟨S50000, .f32⟩
  | 4 => ⟨S_, .f32⟩
  | 5 => ⟨S50000, .f32⟩
  | 6 => ⟨S50000, .i1⟩
  | 7 => ⟨S50000, .f32⟩
  | 8 => ⟨S_, .f32⟩
  | 9 => ⟨S_, .f32⟩
  | 10 => ⟨S50000, .f32⟩
  | 11 => ⟨S50000, .f32⟩
  | 12 => ⟨S_, .i32⟩
  | 13 => ⟨S850000, .i32⟩
  | 14 => ⟨S850000, .i1⟩
  | 15 => ⟨S_, .i32⟩
  | 16 => ⟨S850000, .i32⟩
  | 17 => ⟨S850000, .i32⟩
  | 18 => ⟨S850000, .i32⟩
  | 19 => ⟨S850000x1, .i32⟩
  | 20 => ⟨S850000, .f32⟩
  | 21 => ⟨S850000, .f32⟩
  | 22 => ⟨S_, .i32⟩
  | 23 => ⟨S850000, .i32⟩
  | 24 => ⟨S850000, .i1⟩
  | 25 => ⟨S_, .i32⟩
  | 26 => ⟨S850000, .i32⟩
  | 27 => ⟨S850000, .i32⟩
  | 28 => ⟨S850000, .i32⟩
  | 29 => ⟨S850000x1, .i32⟩
  | 30 => ⟨S850000, .f32⟩
  | 31 => ⟨S850000, .f32⟩
  | 32 => ⟨S850000x1, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000x128, .f32⟩
  | 42 => ⟨S850000x128, .f32⟩
  | 43 => ⟨S850000x128, .f32⟩
  | 44 => ⟨S_, .f32⟩
  | 45 => ⟨S50000x128, .f32⟩
  | 46 => ⟨S850000x1, .i32⟩
  | 47 => ⟨S50000x128, .f32⟩
  | 48 => ⟨S1x128, .f32⟩
  | 49 => ⟨S50000x128, .f32⟩
  | 50 => ⟨S50000x128, .f32⟩
  | 51 => ⟨S_, .f32⟩
  | 52 => ⟨S50000x128, .f32⟩
  | 53 => ⟨S50000x128, .f32⟩
  | 54 => ⟨S1x128x128, .f32⟩
  | 55 => ⟨S128x128, .f32⟩
  | 56 => ⟨S1x128, .f32⟩
  | 57 => ⟨S128, .f32⟩
  | 58 => ⟨S50000x128, .f32⟩
  | 59 => ⟨S_, .f32⟩
  | 60 => ⟨S50000, .f32⟩
  | 61 => ⟨S850000x1, .i32⟩
  | 62 => ⟨S50000, .f32⟩
  | 63 => ⟨S_, .f32⟩
  | 64 => ⟨S50000, .f32⟩
  | 65 => ⟨S50000, .i1⟩
  | 66 => ⟨S50000, .f32⟩
  | 67 => ⟨S_, .f32⟩
  | 68 => ⟨S_, .f32⟩
  | 69 => ⟨S50000, .f32⟩
  | 70 => ⟨S50000, .f32⟩
  | 71 => ⟨S_, .i32⟩
  | 72 => ⟨S850000, .i32⟩
  | 73 => ⟨S850000, .i1⟩
  | 74 => ⟨S_, .i32⟩
  | 75 => ⟨S850000, .i32⟩
  | 76 => ⟨S850000, .i32⟩
  | 77 => ⟨S850000, .i32⟩
  | 78 => ⟨S850000x1, .i32⟩
  | 79 => ⟨S850000, .f32⟩
  | 80 => ⟨S850000, .f32⟩
  | 81 => ⟨S_, .i32⟩
  | 82 => ⟨S850000, .i32⟩
  | 83 => ⟨S850000, .i1⟩
  | 84 => ⟨S_, .i32⟩
  | 85 => ⟨S850000, .i32⟩
  | 86 => ⟨S850000, .i32⟩
  | 87 => ⟨S850000, .i32⟩
  | 88 => ⟨S850000x1, .i32⟩
  | 89 => ⟨S850000, .f32⟩
  | 90 => ⟨S850000, .f32⟩
  | 91 => ⟨S850000x1, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000x128, .f32⟩
  | 101 => ⟨S850000x128, .f32⟩
  | 102 => ⟨S850000x128, .f32⟩
  | 103 => ⟨S_, .f32⟩
  | 104 => ⟨S50000x128, .f32⟩
  | 105 => ⟨S850000x1, .i32⟩
  | 106 => ⟨S50000x128, .f32⟩
  | 107 => ⟨S1x128, .f32⟩
  | 108 => ⟨S50000x128, .f32⟩
  | 109 => ⟨S50000x128, .f32⟩
  | 110 => ⟨S_, .f32⟩
  | 111 => ⟨S50000x128, .f32⟩
  | 112 => ⟨S50000x128, .f32⟩
  | 113 => ⟨S1x128x128, .f32⟩
  | 114 => ⟨S128x128, .f32⟩
  | 115 => ⟨S1x128, .f32⟩
  | 116 => ⟨S128, .f32⟩
  | 117 => ⟨S50000x128, .f32⟩
  | 118 => ⟨S_, .f32⟩
  | 119 => ⟨S50000, .f32⟩
  | 120 => ⟨S850000x1, .i32⟩
  | 121 => ⟨S50000, .f32⟩
  | 122 => ⟨S_, .f32⟩
  | 123 => ⟨S50000, .f32⟩
  | 124 => ⟨S50000, .i1⟩
  | 125 => ⟨S50000, .f32⟩
  | 126 => ⟨S_, .f32⟩
  | 127 => ⟨S_, .f32⟩
  | _ => ⟨S50000x128, .f32⟩

abbrev hbmTy0_3 (i : Nat) : BufTy := match i % 128 with
  | 0 => ⟨S50000, .f32⟩
  | 1 => ⟨S50000, .f32⟩
  | 2 => ⟨S_, .i32⟩
  | 3 => ⟨S850000, .i32⟩
  | 4 => ⟨S850000, .i1⟩
  | 5 => ⟨S_, .i32⟩
  | 6 => ⟨S850000, .i32⟩
  | 7 => ⟨S850000, .i32⟩
  | 8 => ⟨S850000, .i32⟩
  | 9 => ⟨S850000x1, .i32⟩
  | 10 => ⟨S850000, .f32⟩
  | 11 => ⟨S850000, .f32⟩
  | 12 => ⟨S_, .i32⟩
  | 13 => ⟨S850000, .i32⟩
  | 14 => ⟨S850000, .i1⟩
  | 15 => ⟨S_, .i32⟩
  | 16 => ⟨S850000, .i32⟩
  | 17 => ⟨S850000, .i32⟩
  | 18 => ⟨S850000, .i32⟩
  | 19 => ⟨S850000x1, .i32⟩
  | 20 => ⟨S850000, .f32⟩
  | 21 => ⟨S850000, .f32⟩
  | 22 => ⟨S850000x1, .f32⟩
  | 23 => ⟨S_, .i32⟩
  | 24 => ⟨S850000, .i32⟩
  | 25 => ⟨S850000, .i1⟩
  | 26 => ⟨S_, .i32⟩
  | 27 => ⟨S850000, .i32⟩
  | 28 => ⟨S850000, .i32⟩
  | 29 => ⟨S850000, .i32⟩
  | 30 => ⟨S850000x1, .i32⟩
  | 31 => ⟨S850000x128, .f32⟩
  | 32 => ⟨S850000x128, .f32⟩
  | 33 => ⟨S850000x128, .f32⟩
  | 34 => ⟨S_, .f32⟩
  | 35 => ⟨S50000x128, .f32⟩
  | 36 => ⟨S850000x1, .i32⟩
  | 37 => ⟨S50000x128, .f32⟩
  | 38 => ⟨S1x128, .f32⟩
  | 39 => ⟨S50000x128, .f32⟩
  | 40 => ⟨S50000x128, .f32⟩
  | 41 => ⟨S_, .f32⟩
  | 42 => ⟨S50000x128, .f32⟩
  | 43 => ⟨S50000x128, .f32⟩
  | 44 => ⟨S50000x2, .f32⟩
  | 45 => ⟨S_, .f32⟩
  | 46 => ⟨S50000, .f32⟩
  | 47 => ⟨S850000x1, .i32⟩
  | 48 => ⟨S50000, .f32⟩
  | 49 => ⟨S_, .f32⟩
  | 50 => ⟨S50000, .f32⟩
  | 51 => ⟨S50000, .i1⟩
  | 52 => ⟨S50000, .f32⟩
  | 53 => ⟨S_, .f32⟩
  | 54 => ⟨S_, .f32⟩
  | 55 => ⟨S50000, .f32⟩
  | 56 => ⟨S50000, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000, .f32⟩
  | 66 => ⟨S850000, .f32⟩
  | 67 => ⟨S_, .i32⟩
  | 68 => ⟨S850000, .i32⟩
  | 69 => ⟨S850000, .i1⟩
  | 70 => ⟨S_, .i32⟩
  | 71 => ⟨S850000, .i32⟩
  | 72 => ⟨S850000, .i32⟩
  | 73 => ⟨S850000, .i32⟩
  | 74 => ⟨S850000x1, .i32⟩
  | 75 => ⟨S850000, .f32⟩
  | 76 => ⟨S850000, .f32⟩
  | 77 => ⟨S850000x1, .f32⟩
  | 78 => ⟨S_, .i32⟩
  | 79 => ⟨S850000, .i32⟩
  | 80 => ⟨S850000, .i1⟩
  | 81 => ⟨S_, .i32⟩
  | 82 => ⟨S850000, .i32⟩
  | 83 => ⟨S850000, .i32⟩
  | 84 => ⟨S850000, .i32⟩
  | 85 => ⟨S850000x1, .i32⟩
  | 86 => ⟨S850000x2, .f32⟩
  | 87 => ⟨S850000x2, .f32⟩
  | 88 => ⟨S850000x2, .f32⟩
  | 89 => ⟨S_, .f32⟩
  | 90 => ⟨S50000x2, .f32⟩
  | 91 => ⟨S850000x1, .i32⟩
  | 92 => ⟨S50000x2, .f32⟩
  | 93 => ⟨S1x2, .f32⟩
  | 94 => ⟨S50000x2, .f32⟩
  | 95 => ⟨S50000x2, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_9 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_call2_v0 : Ref sig .tc := ⟨.hbm, 88, rfl⟩
abbrev main_call2_v1 : Ref sig .tc := ⟨.hbm, 89, rfl⟩
abbrev main_v61 : Ref sig .tc := ⟨.hbm, 90, rfl⟩
abbrev main_c_12 : Ref sig .tc := ⟨.hbm, 91, rfl⟩
abbrev main_v62 : Ref sig .tc := ⟨.hbm, 92, rfl⟩
abbrev main_v63 : Ref sig .tc := ⟨.hbm, 93, rfl⟩
abbrev main_c_13 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_14 : Ref sig .tc := ⟨.hbm, 101, rfl⟩
abbrev main_v70 : Ref sig .tc := ⟨.hbm, 102, rfl⟩
abbrev main_v71 : Ref sig .tc := ⟨.hbm, 103, rfl⟩
abbrev main_c_15 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_16 : Ref sig .tc := ⟨.hbm, 112, rfl⟩
abbrev main_v79 : Ref sig .tc := ⟨.hbm, 113, rfl⟩
abbrev main_v80 : Ref sig .tc := ⟨.hbm, 114, rfl⟩
abbrev main_c_17 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_18 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_call3_cst : Ref sig .tc := ⟨.hbm, 130, rfl⟩
abbrev main_call3_v0 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_19 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_20 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_21 : Ref sig .tc := ⟨.hbm, 146, rfl⟩
abbrev main_call4_v0 : Ref sig .tc := ⟨.hbm, 147, rfl⟩
abbrev main_call4_v1 : Ref sig .tc := ⟨.hbm, 148, rfl⟩
abbrev main_v106 : Ref sig .tc := ⟨.hbm, 149, rfl⟩
abbrev main_c_22 : Ref sig .tc := ⟨.hbm, 150, rfl⟩
abbrev main_v107 : Ref sig .tc := ⟨.hbm, 151, rfl⟩
abbrev main_v108 : Ref sig .tc := ⟨.hbm, 152, rfl⟩
abbrev main_c_23 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_c_24 : Ref sig .tc := ⟨.hbm, 160, rfl⟩
abbrev main_v115 : Ref sig .tc := ⟨.hbm, 161, rfl⟩
abbrev main_v116 : Ref sig .tc := ⟨.hbm, 162, rfl⟩
abbrev main_c_25 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_c_26 : Ref sig .tc := ⟨.hbm, 171, rfl⟩
abbrev main_v124 : Ref sig .tc := ⟨.hbm, 172, rfl⟩
abbrev main_v125 : Ref sig .tc := ⟨.hbm, 173, rfl⟩
abbrev main_c_27 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_cst_28 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_call5_cst : Ref sig .tc := ⟨.hbm, 189, rfl⟩
abbrev main_call5_v0 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_cst_29 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_cst_30 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_cst_31 : Ref sig .tc := ⟨.hbm, 205, rfl⟩
abbrev main_call6_v0 : Ref sig .tc := ⟨.hbm, 206, rfl⟩
abbrev main_call6_v1 : Ref sig .tc := ⟨.hbm, 207, rfl⟩
abbrev main_v151 : Ref sig .tc := ⟨.hbm, 208, rfl⟩
abbrev main_c_32 : Ref sig .tc := ⟨.hbm, 209, rfl⟩
abbrev main_v152 : Ref sig .tc := ⟨.hbm, 210, rfl⟩
abbrev main_v153 : Ref sig .tc := ⟨.hbm, 211, rfl⟩
abbrev main_c_33 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_c_34 : Ref sig .tc := ⟨.hbm, 219, rfl⟩
abbrev main_v160 : Ref sig .tc := ⟨.hbm, 220, rfl⟩
abbrev main_v161 : Ref sig .tc := ⟨.hbm, 221, rfl⟩
abbrev main_c_35 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_c_36 : Ref sig .tc := ⟨.hbm, 230, rfl⟩
abbrev main_v169 : Ref sig .tc := ⟨.hbm, 231, rfl⟩
abbrev main_v170 : Ref sig .tc := ⟨.hbm, 232, rfl⟩
abbrev main_c_37 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_cst_38 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_call7_cst : Ref sig .tc := ⟨.hbm, 248, rfl⟩
abbrev main_call7_v0 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_cst_39 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_cst_40 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_cst_41 : Ref sig .tc := ⟨.hbm, 264, rfl⟩
abbrev main_call8_v0 : Ref sig .tc := ⟨.hbm, 265, rfl⟩
abbrev main_call8_v1 : Ref sig .tc := ⟨.hbm, 266, rfl⟩
abbrev main_v196 : Ref sig .tc := ⟨.hbm, 267, rfl⟩
abbrev main_c_42 : Ref sig .tc := ⟨.hbm, 268, rfl⟩
abbrev main_v197 : Ref sig .tc := ⟨.hbm, 269, rfl⟩
abbrev main_v198 : Ref sig .tc := ⟨.hbm, 270, rfl⟩
abbrev main_c_43 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_c_44 : Ref sig .tc := ⟨.hbm, 278, rfl⟩
abbrev main_v205 : Ref sig .tc := ⟨.hbm, 279, rfl⟩
abbrev main_v206 : Ref sig .tc := ⟨.hbm, 280, rfl⟩
abbrev main_c_45 : Ref sig .tc := ⟨.hbm, 281, rfl⟩
abbrev main_v207 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_v211 : Ref sig .tc := ⟨.hbm, 286, rfl⟩
abbrev main_v212 : Ref sig .tc := ⟨.hbm, 287, rfl⟩
abbrev main_v213 : Ref sig .tc := ⟨.hbm, 288, rfl⟩
abbrev main_c_46 : Ref sig .tc := ⟨.hbm, 289, rfl⟩
abbrev main_v214 : Ref sig .tc := ⟨.hbm, 290, rfl⟩
abbrev main_v215 : Ref sig .tc := ⟨.hbm, 291, rfl⟩
abbrev main_c_47 : Ref sig .tc := ⟨.hbm, 292, rfl⟩
abbrev main_v216 : Ref sig .tc := ⟨.hbm, 293, rfl⟩
abbrev main_v217 : Ref sig .tc := ⟨.hbm, 294, rfl⟩
abbrev main_v218 : Ref sig .tc := ⟨.hbm, 295, rfl⟩
abbrev main_v219 : Ref sig .tc := ⟨.hbm, 296, rfl⟩
abbrev main_v220 : Ref sig .tc := ⟨.hbm, 297, rfl⟩
abbrev main_v221 : Ref sig .tc := ⟨.hbm, 298, rfl⟩
abbrev main_v222 : Ref sig .tc := ⟨.hbm, 299, rfl⟩
abbrev main_cst_48 : Ref sig .tc := ⟨.hbm, 300, rfl⟩
abbrev main_v223 : Ref sig .tc := ⟨.hbm, 301, rfl⟩
abbrev main_v224 : Ref sig .tc := ⟨.hbm, 302, rfl⟩
abbrev main_v225 : Ref sig .tc := ⟨.hbm, 303, rfl⟩
abbrev main_v226 : Ref sig .tc := ⟨.hbm, 304, rfl⟩
abbrev main_v227 : Ref sig .tc := ⟨.hbm, 305, rfl⟩
abbrev main_v228 : Ref sig .tc := ⟨.hbm, 306, rfl⟩
abbrev main_call9_cst : Ref sig .tc := ⟨.hbm, 307, rfl⟩
abbrev main_call9_v0 : Ref sig .tc := ⟨.hbm, 308, rfl⟩
abbrev main_v229 : Ref sig .tc := ⟨.hbm, 309, rfl⟩
abbrev main_v230 : Ref sig .tc := ⟨.hbm, 310, rfl⟩
abbrev main_v231 : Ref sig .tc := ⟨.hbm, 311, rfl⟩
abbrev main_v232 : Ref sig .tc := ⟨.hbm, 312, rfl⟩
abbrev main_v233 : Ref sig .tc := ⟨.hbm, 313, rfl⟩
abbrev main_v234 : Ref sig .tc := ⟨.hbm, 314, rfl⟩
abbrev main_cst_49 : Ref sig .tc := ⟨.hbm, 315, rfl⟩
abbrev main_v235 : Ref sig .tc := ⟨.hbm, 316, rfl⟩
abbrev main_v236 : Ref sig .tc := ⟨.hbm, 317, rfl⟩
abbrev main_v237 : Ref sig .tc := ⟨.hbm, 318, rfl⟩
abbrev main_cst_50 : Ref sig .tc := ⟨.hbm, 319, rfl⟩
abbrev main_v238 : Ref sig .tc := ⟨.hbm, 320, rfl⟩
abbrev main_v239 : Ref sig .tc := ⟨.hbm, 321, rfl⟩
abbrev main_v240 : Ref sig .tc := ⟨.hbm, 322, rfl⟩
abbrev main_cst_51 : Ref sig .tc := ⟨.hbm, 323, rfl⟩
abbrev main_call10_v0 : Ref sig .tc := ⟨.hbm, 324, rfl⟩
abbrev main_call10_v1 : Ref sig .tc := ⟨.hbm, 325, rfl⟩
abbrev main_v241 : Ref sig .tc := ⟨.hbm, 326, rfl⟩
abbrev main_c_52 : Ref sig .tc := ⟨.hbm, 327, rfl⟩
abbrev main_v242 : Ref sig .tc := ⟨.hbm, 328, rfl⟩
abbrev main_v243 : Ref sig .tc := ⟨.hbm, 329, rfl⟩
abbrev main_c_53 : Ref sig .tc := ⟨.hbm, 330, rfl⟩
abbrev main_v244 : Ref sig .tc := ⟨.hbm, 331, rfl⟩
abbrev main_v245 : Ref sig .tc := ⟨.hbm, 332, rfl⟩
abbrev main_v246 : Ref sig .tc := ⟨.hbm, 333, rfl⟩
abbrev main_v247 : Ref sig .tc := ⟨.hbm, 334, rfl⟩
abbrev main_v248 : Ref sig .tc := ⟨.hbm, 335, rfl⟩
abbrev main_v249 : Ref sig .tc := ⟨.hbm, 336, rfl⟩
abbrev main_c_54 : Ref sig .tc := ⟨.hbm, 337, rfl⟩
abbrev main_v250 : Ref sig .tc := ⟨.hbm, 338, rfl⟩
abbrev main_v251 : Ref sig .tc := ⟨.hbm, 339, rfl⟩
abbrev main_c_55 : Ref sig .tc := ⟨.hbm, 340, rfl⟩
abbrev main_v252 : Ref sig .tc := ⟨.hbm, 341, rfl⟩
abbrev main_v253 : Ref sig .tc := ⟨.hbm, 342, rfl⟩
abbrev main_v254 : Ref sig .tc := ⟨.hbm, 343, rfl⟩
abbrev main_v255 : Ref sig .tc := ⟨.hbm, 344, rfl⟩
abbrev main_v256 : Ref sig .tc := ⟨.hbm, 345, rfl⟩
abbrev main_v257 : Ref sig .tc := ⟨.hbm, 346, rfl⟩
abbrev main_v258 : Ref sig .tc := ⟨.hbm, 347, rfl⟩
abbrev main_c_56 : Ref sig .tc := ⟨.hbm, 348, rfl⟩
abbrev main_v259 : Ref sig .tc := ⟨.hbm, 349, rfl⟩
abbrev main_v260 : Ref sig .tc := ⟨.hbm, 350, rfl⟩
abbrev main_c_57 : Ref sig .tc := ⟨.hbm, 351, rfl⟩
abbrev main_v261 : Ref sig .tc := ⟨.hbm, 352, rfl⟩
abbrev main_v262 : Ref sig .tc := ⟨.hbm, 353, rfl⟩
abbrev main_v263 : Ref sig .tc := ⟨.hbm, 354, rfl⟩
abbrev main_v264 : Ref sig .tc := ⟨.hbm, 355, rfl⟩
abbrev main_v265 : Ref sig .tc := ⟨.hbm, 356, rfl⟩
abbrev main_v266 : Ref sig .tc := ⟨.hbm, 357, rfl⟩
abbrev main_v267 : Ref sig .tc := ⟨.hbm, 358, rfl⟩
abbrev main_cst_58 : Ref sig .tc := ⟨.hbm, 359, rfl⟩
abbrev main_v268 : Ref sig .tc := ⟨.hbm, 360, rfl⟩
abbrev main_v269 : Ref sig .tc := ⟨.hbm, 361, rfl⟩
abbrev main_v270 : Ref sig .tc := ⟨.hbm, 362, rfl⟩
abbrev main_v271 : Ref sig .tc := ⟨.hbm, 363, rfl⟩
abbrev main_v272 : Ref sig .tc := ⟨.hbm, 364, rfl⟩
abbrev main_v273 : Ref sig .tc := ⟨.hbm, 365, rfl⟩
abbrev main_call11_cst : Ref sig .tc := ⟨.hbm, 366, rfl⟩
abbrev main_call11_v0 : Ref sig .tc := ⟨.hbm, 367, rfl⟩
abbrev main_v274 : Ref sig .tc := ⟨.hbm, 368, rfl⟩
abbrev main_v275 : Ref sig .tc := ⟨.hbm, 369, rfl⟩
abbrev main_v276 : Ref sig .tc := ⟨.hbm, 370, rfl⟩
abbrev main_v277 : Ref sig .tc := ⟨.hbm, 371, rfl⟩
abbrev main_v278 : Ref sig .tc := ⟨.hbm, 372, rfl⟩
abbrev main_v279 : Ref sig .tc := ⟨.hbm, 373, rfl⟩
abbrev main_cst_59 : Ref sig .tc := ⟨.hbm, 374, rfl⟩
abbrev main_v280 : Ref sig .tc := ⟨.hbm, 375, rfl⟩
abbrev main_v281 : Ref sig .tc := ⟨.hbm, 376, rfl⟩
abbrev main_v282 : Ref sig .tc := ⟨.hbm, 377, rfl⟩
abbrev main_cst_60 : Ref sig .tc := ⟨.hbm, 378, rfl⟩
abbrev main_v283 : Ref sig .tc := ⟨.hbm, 379, rfl⟩
abbrev main_v284 : Ref sig .tc := ⟨.hbm, 380, rfl⟩
abbrev main_v285 : Ref sig .tc := ⟨.hbm, 381, rfl⟩
abbrev main_cst_61 : Ref sig .tc := ⟨.hbm, 382, rfl⟩
abbrev main_call12_v0 : Ref sig .tc := ⟨.hbm, 383, rfl⟩
abbrev main_call12_v1 : Ref sig .tc := ⟨.hbm, 384, rfl⟩
abbrev main_v286 : Ref sig .tc := ⟨.hbm, 385, rfl⟩
abbrev main_c_62 : Ref sig .tc := ⟨.hbm, 386, rfl⟩
abbrev main_v287 : Ref sig .tc := ⟨.hbm, 387, rfl⟩
abbrev main_v288 : Ref sig .tc := ⟨.hbm, 388, rfl⟩
abbrev main_c_63 : Ref sig .tc := ⟨.hbm, 389, rfl⟩
abbrev main_v289 : Ref sig .tc := ⟨.hbm, 390, rfl⟩
abbrev main_v290 : Ref sig .tc := ⟨.hbm, 391, rfl⟩
abbrev main_v291 : Ref sig .tc := ⟨.hbm, 392, rfl⟩
abbrev main_v292 : Ref sig .tc := ⟨.hbm, 393, rfl⟩
abbrev main_v293 : Ref sig .tc := ⟨.hbm, 394, rfl⟩
abbrev main_v294 : Ref sig .tc := ⟨.hbm, 395, rfl⟩
abbrev main_c_64 : Ref sig .tc := ⟨.hbm, 396, rfl⟩
abbrev main_v295 : Ref sig .tc := ⟨.hbm, 397, rfl⟩
abbrev main_v296 : Ref sig .tc := ⟨.hbm, 398, rfl⟩
abbrev main_c_65 : Ref sig .tc := ⟨.hbm, 399, rfl⟩
abbrev main_v297 : Ref sig .tc := ⟨.hbm, 400, rfl⟩
abbrev main_v298 : Ref sig .tc := ⟨.hbm, 401, rfl⟩
abbrev main_v299 : Ref sig .tc := ⟨.hbm, 402, rfl⟩
abbrev main_v300 : Ref sig .tc := ⟨.hbm, 403, rfl⟩
abbrev main_v301 : Ref sig .tc := ⟨.hbm, 404, rfl⟩
abbrev main_v302 : Ref sig .tc := ⟨.hbm, 405, rfl⟩
abbrev main_v303 : Ref sig .tc := ⟨.hbm, 406, rfl⟩
abbrev main_c_66 : Ref sig .tc := ⟨.hbm, 407, rfl⟩
abbrev main_v304 : Ref sig .tc := ⟨.hbm, 408, rfl⟩
abbrev main_v305 : Ref sig .tc := ⟨.hbm, 409, rfl⟩
abbrev main_c_67 : Ref sig .tc := ⟨.hbm, 410, rfl⟩
abbrev main_v306 : Ref sig .tc := ⟨.hbm, 411, rfl⟩
abbrev main_v307 : Ref sig .tc := ⟨.hbm, 412, rfl⟩
abbrev main_v308 : Ref sig .tc := ⟨.hbm, 413, rfl⟩
abbrev main_v309 : Ref sig .tc := ⟨.hbm, 414, rfl⟩
abbrev main_v310 : Ref sig .tc := ⟨.hbm, 415, rfl⟩
abbrev main_v311 : Ref sig .tc := ⟨.hbm, 416, rfl⟩
abbrev main_v312 : Ref sig .tc := ⟨.hbm, 417, rfl⟩
abbrev main_cst_68 : Ref sig .tc := ⟨.hbm, 418, rfl⟩
abbrev main_v313 : Ref sig .tc := ⟨.hbm, 419, rfl⟩
abbrev main_v314 : Ref sig .tc := ⟨.hbm, 420, rfl⟩
abbrev main_v315 : Ref sig .tc := ⟨.hbm, 421, rfl⟩
abbrev main_v316 : Ref sig .tc := ⟨.hbm, 422, rfl⟩
abbrev main_v317 : Ref sig .tc := ⟨.hbm, 423, rfl⟩
abbrev main_v318 : Ref sig .tc := ⟨.hbm, 424, rfl⟩
abbrev main_call13_cst : Ref sig .tc := ⟨.hbm, 425, rfl⟩
abbrev main_call13_v0 : Ref sig .tc := ⟨.hbm, 426, rfl⟩
abbrev main_v319 : Ref sig .tc := ⟨.hbm, 427, rfl⟩
abbrev main_v320 : Ref sig .tc := ⟨.hbm, 428, rfl⟩
abbrev main_cst_69 : Ref sig .tc := ⟨.hbm, 429, rfl⟩
abbrev main_v321 : Ref sig .tc := ⟨.hbm, 430, rfl⟩
abbrev main_v322 : Ref sig .tc := ⟨.hbm, 431, rfl⟩
abbrev main_v323 : Ref sig .tc := ⟨.hbm, 432, rfl⟩
abbrev main_cst_70 : Ref sig .tc := ⟨.hbm, 433, rfl⟩
abbrev main_v324 : Ref sig .tc := ⟨.hbm, 434, rfl⟩
abbrev main_v325 : Ref sig .tc := ⟨.hbm, 435, rfl⟩
abbrev main_v326 : Ref sig .tc := ⟨.hbm, 436, rfl⟩
abbrev main_cst_71 : Ref sig .tc := ⟨.hbm, 437, rfl⟩
abbrev main_call14_v0 : Ref sig .tc := ⟨.hbm, 438, rfl⟩
abbrev main_call14_v1 : Ref sig .tc := ⟨.hbm, 439, rfl⟩
abbrev main_v327 : Ref sig .tc := ⟨.hbm, 440, rfl⟩
abbrev main_c_72 : Ref sig .tc := ⟨.hbm, 441, rfl⟩
abbrev main_v328 : Ref sig .tc := ⟨.hbm, 442, rfl⟩
abbrev main_v329 : Ref sig .tc := ⟨.hbm, 443, rfl⟩
abbrev main_c_73 : Ref sig .tc := ⟨.hbm, 444, rfl⟩
abbrev main_v330 : Ref sig .tc := ⟨.hbm, 445, rfl⟩
abbrev main_v331 : Ref sig .tc := ⟨.hbm, 446, rfl⟩
abbrev main_v332 : Ref sig .tc := ⟨.hbm, 447, rfl⟩
abbrev main_v333 : Ref sig .tc := ⟨.hbm, 448, rfl⟩
abbrev main_v334 : Ref sig .tc := ⟨.hbm, 449, rfl⟩
abbrev main_v335 : Ref sig .tc := ⟨.hbm, 450, rfl⟩
abbrev main_c_74 : Ref sig .tc := ⟨.hbm, 451, rfl⟩
abbrev main_v336 : Ref sig .tc := ⟨.hbm, 452, rfl⟩
abbrev main_v337 : Ref sig .tc := ⟨.hbm, 453, rfl⟩
abbrev main_c_75 : Ref sig .tc := ⟨.hbm, 454, rfl⟩
abbrev main_v338 : Ref sig .tc := ⟨.hbm, 455, rfl⟩
abbrev main_v339 : Ref sig .tc := ⟨.hbm, 456, rfl⟩
abbrev main_v340 : Ref sig .tc := ⟨.hbm, 457, rfl⟩
abbrev main_v341 : Ref sig .tc := ⟨.hbm, 458, rfl⟩
abbrev main_v342 : Ref sig .tc := ⟨.hbm, 459, rfl⟩
abbrev main_v343 : Ref sig .tc := ⟨.hbm, 460, rfl⟩
abbrev main_v344 : Ref sig .tc := ⟨.hbm, 461, rfl⟩
abbrev main_c_76 : Ref sig .tc := ⟨.hbm, 462, rfl⟩
abbrev main_v345 : Ref sig .tc := ⟨.hbm, 463, rfl⟩
abbrev main_v346 : Ref sig .tc := ⟨.hbm, 464, rfl⟩
abbrev main_c_77 : Ref sig .tc := ⟨.hbm, 465, rfl⟩
abbrev main_v347 : Ref sig .tc := ⟨.hbm, 466, rfl⟩
abbrev main_v348 : Ref sig .tc := ⟨.hbm, 467, rfl⟩
abbrev main_v349 : Ref sig .tc := ⟨.hbm, 468, rfl⟩
abbrev main_v350 : Ref sig .tc := ⟨.hbm, 469, rfl⟩
abbrev main_v351 : Ref sig .tc := ⟨.hbm, 470, rfl⟩
abbrev main_v352 : Ref sig .tc := ⟨.hbm, 471, rfl⟩
abbrev main_v353 : Ref sig .tc := ⟨.hbm, 472, rfl⟩
abbrev main_cst_78 : Ref sig .tc := ⟨.hbm, 473, rfl⟩
abbrev main_v354 : Ref sig .tc := ⟨.hbm, 474, rfl⟩
abbrev main_v355 : Ref sig .tc := ⟨.hbm, 475, rfl⟩
abbrev main_v356 : Ref sig .tc := ⟨.hbm, 476, rfl⟩
abbrev main_v357 : Ref sig .tc := ⟨.hbm, 477, rfl⟩
abbrev main_v358 : Ref sig .tc := ⟨.hbm, 478, rfl⟩
abbrev main_v359 : Ref sig .tc := ⟨.hbm, 479, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S6x128x128_S1x128x128_0_0_0 : S6x128x128.Slices ![0, 0, 0] S1x128x128
  shapeCasts_S1x128x128_S128x128 : S1x128x128.ShapeCasts S128x128
  slices_S6x128_S1x128_0_0 : S6x128.Slices ![0, 0] S1x128
  shapeCasts_S1x128_S128 : S1x128.ShapeCasts S128
  slices_S6x128x128_S1x128x128_1_0_0 : S6x128x128.Slices ![1, 0, 0] S1x128x128
  slices_S6x128_S1x128_1_0 : S6x128.Slices ![1, 0] S1x128
  slices_S6x128x128_S1x128x128_2_0_0 : S6x128x128.Slices ![2, 0, 0] S1x128x128
  slices_S6x128_S1x128_2_0 : S6x128.Slices ![2, 0] S1x128
  slices_S6x128x128_S1x128x128_3_0_0 : S6x128x128.Slices ![3, 0, 0] S1x128x128
  slices_S6x128_S1x128_3_0 : S6x128.Slices ![3, 0] S1x128
  slices_S6x128x128_S1x128x128_4_0_0 : S6x128x128.Slices ![4, 0, 0] S1x128x128
  slices_S6x128_S1x128_4_0 : S6x128.Slices ![4, 0] S1x128
  slices_S6x128x128_S1x128x128_5_0_0 : S6x128x128.Slices ![5, 0, 0] S1x128x128
  slices_S6x128_S1x128_5_0 : S6x128.Slices ![5, 0] S1x128
  bcast_S850000x1_S850000x2_0_1 : S850000x1.BroadcastsInDim S850000x2 (![0, 1] : Fin 2 → Fin S850000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x2_S50000x2_1_0_0_1_n_n_wf : DotDims.WF S50000x128 S128x2 S50000x2 [1] [0] [0] [1] [] []
  gather_S50000x2_S850000x1_S850000x2_1_0_n_n_0_1_12_wf : GatherDims.WF S50000x2 S850000x1 S850000x2 [1] [0] [] [0] [] 1 ![1, 2]
  scatter_S50000x2_S850000x1_S850000x2_1_0_0_1_wf : ScatterDims.WF S50000x2 S850000x1 S850000x2 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf
def gather_S50000x2_S850000x1_S850000x2_1_0_n_n_0_1_12 : GatherDims S50000x2 S850000x1 S850000x2 where
  offsetDims := [1]
  collapsedSliceDims := [0]
  operandBatchingDims := []
  startIndicesBatchingDims := []
  startIndexMap := [0]
  indexVectorDim := 1
  sliceSizes := ![1, 2]
  wf := gather_S50000x2_S850000x1_S850000x2_1_0_n_n_0_1_12_wf
def scatter_S50000x2_S850000x1_S850000x2_1_0_0_1 : ScatterDims S50000x2 S850000x1 S850000x2 where
  updateWindowDims := [1]
  insertedWindowDims := [0]
  scatterDimsToOperandDims := [0]
  indexVectorDim := 1
  wf := scatter_S50000x2_S850000x1_S850000x2_1_0_0_1_wf

class Facts : Prop extends Facts₀ where

variable [Facts]
-- ==== Proof.KernelRun.lean ====
/-
  The idealized kernel program's run with its result read.

  @main is nineteen segments: three stretches of host operations, then eight times a pipelined region followed by a
  stretch of host operations. The contents of the TensorCore's buffers at the segment boundaries are a fold from the
  launch memory: a stretch rewrites the buffers its operations write, a region leaves each of its output arrays at
  what its ten points flushed and every other buffer as it found it. `run_all` is the run over those segments with
  EVERY unscoped buffer read at the last boundary's contents; `run_result` keeps the result buffer and the arguments.
-/
import proofs.«116386_j10213432230582_1_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, and every
    unscoped buffer of every core ends at the last boundary's contents `W19`: the launch over the nineteen segments,
    the last thread state read against the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h => h)

/-- The same run with the result buffer and the nine arguments read: the result holds the last boundary's contents
    at its buffer, and no segment writes an argument. -/
theorem run_result : θ_run defs (onTc (τ := τ) (main (F := F))) ⟨m, fun _ => 0, ρ⟩ (fun r => ∀ c : Dev nD,
      r.2.mem ((c.tc : Thread nD τ).loc main_v177) = W19 m ρ c (Proc.devRef .tc main_v177)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨h c _ (mem_uc main_v177 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c)⟩)
    (run_all m ρ)

end Cert.KernelIdeal.RunAll

end
-- ==== Proof.Spec.lean ====
/-
  The dense stages of the network as whole-array functions of their operands, over the literal shapes of this
  program (50000 nodes, 128 hidden features, 2 output features).

  * `mm x w`: the product of the node features with a weight matrix, `(x · w)[n, j] = ∑ₖ x[n, k] · w[k, j]`.
  * `act a b`: the activation `max (a[n, k] + b[k], 0)` of an aggregated array `a` and a bias row `b` spread over
    the nodes.
  * `fused a b w = mm (act a b) w` and `fused2`, the same into two output features.

  They are spelt with the host operations (a `dot_general` contracted on the left operand's columns and the right
  operand's rows, two broadcasts of the bias, a maximum with the broadcast zero), so that a program that computes a
  stage with those operations has it by unfolding, and one that computes it block by block has it index by index.
-/
import proofs.«116386_j10213432230582_1_alg».proof.Proof.Gen.ReferenceIdeal

noncomputable section

namespace Cert.Spec

open Idealize.ShloMosaic Cert.ReferenceIdeal Cert.ReferenceIdeal.Gen

variable {F : FTy → Type} [FloatOps F]

/-- The product of the node features with a 128 × 128 weight matrix. -/
def mm (x : (⟨S50000x128, .f32⟩ : BufTy).Contents (Elt F)) (w : (⟨S128x128, .f32⟩ : BufTy).Contents (Elt F)) :
    (⟨S50000x128, .f32⟩ : BufTy).Contents (Elt F) :=
  Host.dotGeneral dot_S50000x128_S128x128_S50000x128_1_0_0_1_n_n none x w

/-- The activation of an aggregated array and a bias row: `max (a[n, k] + b[k], 0)`. -/
def act (a : (⟨S50000x128, .f32⟩ : BufTy).Contents (Elt F)) (b : (⟨S128, .f32⟩ : BufTy).Contents (Elt F)) :
    (⟨S50000x128, .f32⟩ : BufTy).Contents (Elt F) :=
  maximumf (addf a (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- The activation followed by the product with a 128 × 128 weight matrix. -/
def fused (a : (⟨S50000x128, .f32⟩ : BufTy).Contents (Elt F)) (b : (⟨S128, .f32⟩ : BufTy).Contents (Elt F))
    (w : (⟨S128x128, .f32⟩ : BufTy).Contents (Elt F)) : (⟨S50000x128, .f32⟩ : BufTy).Contents (Elt F) :=
  Host.dotGeneral dot_S50000x128_S128x128_S50000x128_1_0_0_1_n_n none (act a b) w

/-- The activation followed by the product with the 128 × 2 output weight matrix. -/
def fused2 (a : (⟨S50000x128, .f32⟩ : BufTy).Contents (Elt F)) (b : (⟨S128, .f32⟩ : BufTy).Contents (Elt F))
    (w : (⟨S128x2, .f32⟩ : BufTy).Contents (Elt F)) : (⟨S50000x2, .f32⟩ : BufTy).Contents (Elt F) :=
  Host.dotGeneral dot_S50000x128_S128x2_S50000x2_1_0_0_1_n_n none (act a b) w

end Cert.Spec

end
-- ==== Proof.Layers.lean ====
/-
  The network of this program as ONE function of its nine arguments, built from named pieces.

  The graph has 800000 edges and 50000 nodes; every node gets a self loop of weight one, so the edge lists have
  850000 entries: `srcv` / `dstv` are the source and target node of each entry (a row of the edge-index array, then
  0 … 49999) and `ewv` its weight (the edge attributes, then ones). `wrap` moves a negative node number up by 50000 and
  turns the list into a column of start indices. `degv` is the weighted in-degree (the weights summed at their
  targets), `disv` its inverse square root where it is positive and zero elsewhere, and `normv` the normalized weight
  `dis[src] · w · dis[dst]` of each entry. One propagation `agg xw` gathers the rows `xw[src]`, scales each by its
  entry's normalized weight and sums them at the targets (`agg2`: the same over two features). `wmid i` / `bmid i` are
  the i-th hidden weight matrix and bias row. The network is eight layers: a dense stage (Spec.lean: `mm`, `fused`,
  `fused2`) followed by a propagation, and the last bias added at the end.
-/
import proofs.«116386_j10213432230582_1_alg».proof.Proof.Spec

noncomputable section

namespace Cert.Layers

open Idealize.ShloMosaic Cert.ReferenceIdeal Cert.ReferenceIdeal.Gen Cert.Spec

variable {F : FTy → Type} [FloatOps F]

/-- The source node of each of the 850000 entries: the first row of the edge-index array, then every node once. -/
def srcv (x1 : (⟨S2x800000, .i32⟩ : BufTy).Contents (Elt F)) : (⟨S850000, .i32⟩ : BufTy).Contents (Elt F) :=
  concatenate S850000 0 [⟨S800000, (shapeCast S800000 (extractStridedSlice S1x800000 ![0, 0] x1 slices_S2x800000_S1x800000_0_0) shapeCasts_S1x800000_S800000)⟩, ⟨S50000, (iotaInDim S50000 32 0)⟩] concatenates_S800000_S50000_S850000_d0

/-- The target node of each entry: the second row of the edge-index array, then every node once. -/
def dstv (x1 : (⟨S2x800000, .i32⟩ : BufTy).Contents (Elt F)) : (⟨S850000, .i32⟩ : BufTy).Contents (Elt F) :=
  concatenate S850000 0 [⟨S800000, (shapeCast S800000 (extractStridedSlice S1x800000 ![1, 0] x1 slices_S2x800000_S1x800000_1_0) shapeCasts_S1x800000_S800000)⟩, ⟨S50000, (iotaInDim S50000 32 0)⟩] concatenates_S800000_S50000_S850000_d0

/-- The weight of each entry: the edge attributes, then a one per self loop. -/
def ewv (x2 : (⟨S800000, .f32⟩ : BufTy).Contents (Elt F)) : (⟨S850000, .f32⟩ : BufTy).Contents (Elt F) :=
  concatenate S850000 0 [⟨S800000, x2⟩, ⟨S50000, (broadcastInDim S50000 ![] bcast_S_S50000 (constant S_ .f32 0x3F800000#32))⟩] concatenates_S800000_S50000_S850000_d0

/-- A list of node numbers as a column of start indices, a negative number moved up by the number of nodes. -/
def wrap (s : (⟨S850000, .i32⟩ : BufTy).Contents (Elt F)) : (⟨S850000x1, .i32⟩ : BufTy).Contents (Elt F) :=
  broadcastInDim S850000x1 ![0] bcast_S850000_S850000x1_0 (select (cmpi .slt s (broadcastInDim S850000 ![] bcast_S_S850000 (constantI S_ 32 0#32))) (addi s (broadcastInDim S850000 ![] bcast_S_S850000 (constantI S_ 32 50000#32))) s)

/-- The weighted in-degree of each node: the entries' weights summed at their targets. -/
def degv (x1 : (⟨S2x800000, .i32⟩ : BufTy).Contents (Elt F)) (x2 : (⟨S800000, .f32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 (dstv x1)) (ewv x2)

/-- The inverse square root of the degree where the degree is positive, zero elsewhere. -/
def disv (x1 : (⟨S2x800000, .i32⟩ : BufTy).Contents (Elt F)) (x2 : (⟨S800000, .f32⟩ : BufTy).Contents (Elt F)) : (⟨S50000, .f32⟩ : BufTy).Contents (Elt F) :=
  select (cmpf .ogt (degv x1 x2) (broadcastInDim S50000 ![] bcast_S_S50000 (constant S_ .f32 0x00000000#32))) (Host.rsqrt (degv x1 x2)) (broadcastInDim S50000 ![] bcast_S_S50000 (id (constant S_ .f32 0x00000000#32)))

/-- The normalized weight of each entry: `dis[src] · w · dis[dst]`. -/
def normv (x1 : (⟨S2x800000, .i32⟩ : BufTy).Contents (Elt F)) (x2 : (⟨S800000, .f32⟩ : BufTy).Contents (Elt F)) : (⟨S850000, .f32⟩ : BufTy).Contents (Elt F) :=
  mulf (mulf (Host.gather gather_S50000_S850000x1_S850000_n_0_n_n_0_1_1 (disv x1 x2) (wrap (srcv x1))) (ewv x2)) (Host.gather gather_S50000_S850000x1_S850000_n_0_n_n_0_1_1 (disv x1 x2) (wrap (dstv x1)))

/-- One propagation over 128 features, from the three lists it needs (target nodes, normalized weights, source
    nodes): the rows `xw[src]` scaled by their entry's normalized weight and summed at the targets. -/
def aggOf (d : (⟨S850000, .i32⟩ : BufTy).Contents (Elt F)) (nw : (⟨S850000, .f32⟩ : BufTy).Contents (Elt F)) (s : (⟨S850000, .i32⟩ : BufTy).Contents (Elt F))
    (xw : (⟨S50000x128, .f32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 d) (mulf (broadcastInDim S850000x128 ![0, 1] bcast_S850000x1_S850000x128_0_1 (broadcastInDim S850000x1 ![0] bcast_S850000_S850000x1_0 nw)) (Host.gather gather_S50000x128_S850000x1_S850000x128_1_0_n_n_0_1_1128 xw (wrap s)))

/-- The same over the two output features. -/
def aggOf2 (d : (⟨S850000, .i32⟩ : BufTy).Contents (Elt F)) (nw : (⟨S850000, .f32⟩ : BufTy).Contents (Elt F)) (s : (⟨S850000, .i32⟩ : BufTy).Contents (Elt F))
    (xw : (⟨S50000x2, .f32⟩ : BufTy).Contents (Elt F)) : (⟨S50000x2, .f32⟩ : BufTy).Contents (Elt F) :=
  Host.scatterAdd scatter_S50000x2_S850000x1_S850000x2_1_0_0_1 (broadcastInDim S50000x2 ![] bcast_S_S50000x2 (constant S_ .f32 0x00000000#32)) (broadcastInDim S850000x1 ![0] bcast_S850000_S850000x1_0 d) (mulf (broadcastInDim S850000x2 ![0, 1] bcast_S850000x1_S850000x2_0_1 (broadcastInDim S850000x1 ![0] bcast_S850000_S850000x1_0 nw)) (Host.gather gather_S50000x2_S850000x1_S850000x2_1_0_n_n_0_1_12 xw (wrap s)))

/-- One propagation of this graph over 128 features. -/
def agg (x1 : (⟨S2x800000, .i32⟩ : BufTy).Contents (Elt F)) (x2 : (⟨S800000, .f32⟩ : BufTy).Contents (Elt F)) (xw : (⟨S50000x128, .f32⟩ : BufTy).Contents (Elt F)) :
    (⟨S50000x128, .f32⟩ : BufTy).Contents (Elt F) := aggOf (dstv x1) (normv x1 x2) (srcv x1) xw

/-- One propagation of this graph over the two output features. -/
def agg2 (x1 : (⟨S2x800000, .i32⟩ : BufTy).Contents (Elt F)) (x2 : (⟨S800000, .f32⟩ : BufTy).Contents (Elt F)) (xw : (⟨S50000x2, .f32⟩ : BufTy).Contents (Elt F)) :
    (⟨S50000x2, .f32⟩ : BufTy).Contents (Elt F) := aggOf2 (dstv x1) (normv x1 x2) (srcv x1) xw

/-- Hidden weight matrix 0. -/
def wmid0 (x5 : (⟨S6x128x128, .f32⟩ : BufTy).Contents (Elt F)) : (⟨S128x128, .f32⟩ : BufTy).Contents (Elt F) :=
  shapeCast S128x128 (extractStridedSlice S1x128x128 ![0, 0, 0] x5 slices_S6x128x128_S1x128x128_0_0_0) shapeCasts_S1x128x128_S128x128
/-- Hidden bias row 0. -/
def bmid0 (x6 : (⟨S6x128, .f32⟩ : BufTy).Contents (Elt F)) : (⟨S128, .f32⟩ : BufTy).Contents (Elt F) :=
  shapeCast S128 (extractStridedSlice S1x128 ![0, 0] x6 slices_S6x128_S1x128_0_0) shapeCasts_S1x128_S128

/-- Hidden weight matrix 1. -/
def wmid1 (x5 : (⟨S6x128x128, .f32⟩ : BufTy).Contents (Elt F)) : (⟨S128x128, .f32⟩ : BufTy).Contents (Elt F) :=
  shapeCast S128x128 (extractStridedSlice S1x128x128 ![1, 0, 0] x5 slices_S6x128x128_S1x128x128_1_0_0) shapeCasts_S1x128x128_S128x128
/-- Hidden bias row 1. -/
def bmid1 (x6 : (⟨S6x128, .f32⟩ : BufTy).Contents (Elt F)) : (⟨S128, .f32⟩ : BufTy).Contents (Elt F) :=
  shapeCast S128 (extractStridedSlice S1x128 ![1, 0] x6 slices_S6x128_S1x128_1_0) shapeCasts_S1x128_S128

/-- Hidden weight matrix 2. -/
def wmid2 (x5 : (⟨S6x128x128, .f32⟩ : BufTy).Contents (Elt F)) : (⟨S128x128, .f32⟩ : BufTy).Contents (Elt F) :=
  shapeCast S128x128 (extractStridedSlice S1x128x128 ![2, 0, 0] x5 slices_S6x128x128_S1x128x128_2_0_0) shapeCasts_S1x128x128_S128x128
/-- Hidden bias row 2. -/
def bmid2 (x6 : (⟨S6x128, .f32⟩ : BufTy).Contents (Elt F)) : (⟨S128, .f32⟩ : BufTy).Contents (Elt F) :=
  shapeCast S128 (extractStridedSlice S1x128 ![2, 0] x6 slices_S6x128_S1x128_2_0) shapeCasts_S1x128_S128

/-- Hidden weight matrix 3. -/
def wmid3 (x5 : (⟨S6x128x128, .f32⟩ : BufTy).Contents (Elt F)) : (⟨S128x128, .f32⟩ : BufTy).Contents (Elt F) :=
  shapeCast S128x128 (extractStridedSlice S1x128x128 ![3, 0, 0] x5 slices_S6x128x128_S1x128x128_3_0_0) shapeCasts_S1x128x128_S128x128
/-- Hidden bias row 3. -/
def bmid3 (x6 : (⟨S6x128, .f32⟩ : BufTy).Contents (Elt F)) : (⟨S128, .f32⟩ : BufTy).Contents (Elt F) :=
  shapeCast S128 (extractStridedSlice S1x128 ![3, 0] x6 slices_S6x128_S1x128_3_0) shapeCasts_S1x128_S128

/-- Hidden weight matrix 4. -/
def wmid4 (x5 : (⟨S6x128x128, .f32⟩ : BufTy).Contents (Elt F)) : (⟨S128x128, .f32⟩ : BufTy).Contents (Elt F) :=
  shapeCast S128x128 (extractStridedSlice S1x128x128 ![4, 0, 0] x5 slices_S6x128x128_S1x128x128_4_0_0) shapeCasts_S1x128x128_S128x128
/-- Hidden bias row 4. -/
def bmid4 (x6 : (⟨S6x128, .f32⟩ : BufTy).Contents (Elt F)) : (⟨S128, .f32⟩ : BufTy).Contents (Elt F) :=
  shapeCast S128 (extractStridedSlice S1x128 ![4, 0] x6 slices_S6x128_S1x128_4_0) shapeCasts_S1x128_S128

/-- Hidden weight matrix 5. -/
def wmid5 (x5 : (⟨S6x128x128, .f32⟩ : BufTy).Contents (Elt F)) : (⟨S128x128, .f32⟩ : BufTy).Contents (Elt F) :=
  shapeCast S128x128 (extractStridedSlice S1x128x128 ![5, 0, 0] x5 slices_S6x128x128_S1x128x128_5_0_0) shapeCasts_S1x128x128_S128x128
/-- Hidden bias row 5. -/
def bmid5 (x6 : (⟨S6x128, .f32⟩ : BufTy).Contents (Elt F)) : (⟨S128, .f32⟩ : BufTy).Contents (Elt F) :=
  shapeCast S128 (extractStridedSlice S1x128 ![5, 0] x6 slices_S6x128_S1x128_5_0) shapeCasts_S1x128_S128

/-- The last bias spread over the nodes. -/
def bout (x8 : (⟨S2, .f32⟩ : BufTy).Contents (Elt F)) : (⟨S50000x2, .f32⟩ : BufTy).Contents (Elt F) :=
  broadcastInDim S50000x2 ![0, 1] bcast_S1x2_S50000x2_0_1 (broadcastInDim S1x2 ![1] bcast_S2_S1x2_1 x8)

section Net
variable (x0 : (⟨S50000x128, .f32⟩ : BufTy).Contents (Elt F)) (x1 : (⟨S2x800000, .i32⟩ : BufTy).Contents (Elt F)) (x2 : (⟨S800000, .f32⟩ : BufTy).Contents (Elt F))
  (x3 : (⟨S128x128, .f32⟩ : BufTy).Contents (Elt F)) (x4 : (⟨S128, .f32⟩ : BufTy).Contents (Elt F)) (x5 : (⟨S6x128x128, .f32⟩ : BufTy).Contents (Elt F)) (x6 : (⟨S6x128, .f32⟩ : BufTy).Contents (Elt F))
  (x7 : (⟨S128x2, .f32⟩ : BufTy).Contents (Elt F)) (x8 : (⟨S2, .f32⟩ : BufTy).Contents (Elt F))

/-- The features after the first dense stage and its propagation. -/
def h1 : (⟨S50000x128, .f32⟩ : BufTy).Contents (Elt F) := agg x1 x2 (mm x0 x3)
/-- … after layers two to seven: the activation with the previous bias, the hidden weight matrix, the propagation. -/
def h2 : (⟨S50000x128, .f32⟩ : BufTy).Contents (Elt F) := agg x1 x2 (fused (h1 x0 x1 x2 x3) x4 (wmid0 x5))
def h3 : (⟨S50000x128, .f32⟩ : BufTy).Contents (Elt F) := agg x1 x2 (fused (h2 x0 x1 x2 x3 x4 x5) (bmid0 x6) (wmid1 x5))
def h4 : (⟨S50000x128, .f32⟩ : BufTy).Contents (Elt F) := agg x1 x2 (fused (h3 x0 x1 x2 x3 x4 x5 x6) (bmid1 x6) (wmid2 x5))
def h5 : (⟨S50000x128, .f32⟩ : BufTy).Contents (Elt F) := agg x1 x2 (fused (h4 x0 x1 x2 x3 x4 x5 x6) (bmid2 x6) (wmid3 x5))
def h6 : (⟨S50000x128, .f32⟩ : BufTy).Contents (Elt F) := agg x1 x2 (fused (h5 x0 x1 x2 x3 x4 x5 x6) (bmid3 x6) (wmid4 x5))
def h7 : (⟨S50000x128, .f32⟩ : BufTy).Contents (Elt F) := agg x1 x2 (fused (h6 x0 x1 x2 x3 x4 x5 x6) (bmid4 x6) (wmid5 x5))
/-- The network's result: the eighth layer into two features, and the last bias. -/
def out : (⟨S50000x2, .f32⟩ : BufTy).Contents (Elt F) :=
  addf (agg2 x1 x2 (fused2 (h7 x0 x1 x2 x3 x4 x5 x6) (bmid5 x6) x7)) (bout x8)

/-- Each layer, spelt with the three lists: a propagation of the dense stage of the previous layer's features. -/
theorem h1_eq : h1 x0 x1 x2 x3 = aggOf (dstv x1) (normv x1 x2) (srcv x1) (mm x0 x3) := rfl
theorem h2_eq : h2 x0 x1 x2 x3 x4 x5 = aggOf (dstv x1) (normv x1 x2) (srcv x1) (fused (h1 x0 x1 x2 x3) x4 (wmid0 x5)) := rfl
theorem h3_eq : h3 x0 x1 x2 x3 x4 x5 x6 = aggOf (dstv x1) (normv x1 x2) (srcv x1) (fused (h2 x0 x1 x2 x3 x4 x5) (bmid0 x6) (wmid1 x5)) := rfl
theorem h4_eq : h4 x0 x1 x2 x3 x4 x5 x6 = aggOf (dstv x1) (normv x1 x2) (srcv x1) (fused (h3 x0 x1 x2 x3 x4 x5 x6) (bmid1 x6) (wmid2 x5)) := rfl
theorem h5_eq : h5 x0 x1 x2 x3 x4 x5 x6 = aggOf (dstv x1) (normv x1 x2) (srcv x1) (fused (h4 x0 x1 x2 x3 x4 x5 x6) (bmid2 x6) (wmid3 x5)) := rfl
theorem h6_eq : h6 x0 x1 x2 x3 x4 x5 x6 = aggOf (dstv x1) (normv x1 x2) (srcv x1) (fused (h5 x0 x1 x2 x3 x4 x5 x6) (bmid3 x6) (wmid4 x5)) := rfl
theorem h7_eq : h7 x0 x1 x2 x3 x4 x5 x6 = aggOf (dstv x1) (normv x1 x2) (srcv x1) (fused (h6 x0 x1 x2 x3 x4 x5 x6) (bmid4 x6) (wmid5 x5)) := rfl
theorem out_eq : out x0 x1 x2 x3 x4 x5 x6 x7 x8
    = addf (aggOf2 (dstv x1) (normv x1 x2) (srcv x1) (fused2 (h7 x0 x1 x2 x3 x4 x5 x6) (bmid5 x6) x7)) (bout x8) := rfl
end Net

end Cert.Layers

end
-- ==== Proof.Stretches.lean ====
/-
  What each stretch of host operations of the idealized kernel program leaves in the buffers the later segments
  read, as a function of the contents the stretch starts from.

  Before the first region the host builds, from the edge-index array and the edge attributes, the source list, the
  target list and the normalized weight of each of the 850000 entries (Layers.lean: `srcv`, `dstv`, `normv`). The
  stretch before each later region propagates the previous region's output over the graph (`aggOf`), cuts the next
  hidden weight matrix and bias row out of the stacked arguments, and lays the bias row out as a 1 × 128 array. The
  stretch after the last region propagates the two output features and adds the last bias. No stretch writes the
  lists, the normalized weights or an argument.
-/
import proofs.«116386_j10213432230582_1_alg».proof.Proof.Gen.KernelIdeal.Launch
import proofs.«116386_j10213432230582_1_alg».proof.Proof.Layers
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.Stretches

open Cert.KernelIdeal Cert.KernelIdeal.Gen
open Idealize.ShloMosaic Idealize.ShloMosaic.TcCoe Idealize.ShloMosaic.StableHlo Idealize.ShloMosaic.ValueIdx

/-- A row of 128 laid out as a 1 × 128 array reads, at (0, k), the row at k: the unit axis adds nothing to the
    row-major position. -/
theorem row_of_cast {α : Type} (b : (⟨1, ![128]⟩ : Shape).Idx → α) (h : (⟨1, ![128]⟩ : Shape).ShapeCasts ⟨2, ![1, 128]⟩)
    (k : Fin 128) : shapeCast ⟨2, ![1, 128]⟩ b h (ix2 (0 : Fin 1) k) = b (ix1 k) :=
  shapeCast_apply b h _ _ (by
    rw [Shape.rowMajor_val_two, Shape.rowMajor_val_one]
    show k.val = (0 : Fin 1).val * 128 + k.val
    simp)

/-! ## The stretches of host operations, each from arbitrary contents `W`

What a stretch leaves in a buffer is its operations' term of the contents it read; a buffer it does not write keeps its
contents. Before the first region the three stretches build the edge lists and the normalized weights. -/

section Stretches
variable {F : FTy → Type} [FloatOps F] (W : Valuation τ sig (Elt F))

set_option maxHeartbeats 4000000 in
/-- The source list, the target list and the normalized weights are built before the first region from the
    edge-index array and the edge attributes. -/
theorem pre_src : StableHlo.after hostOps0_2 (StableHlo.after hostOps0_1 (StableHlo.after hostOps0 W)) (Proc.devRef .tc main_v3) = Cert.Layers.srcv (W (Proc.devRef .tc main_arg1)) := by
  after_results_simp; rfl
set_option maxHeartbeats 4000000 in
theorem pre_dst : StableHlo.after hostOps0_2 (StableHlo.after hostOps0_1 (StableHlo.after hostOps0 W)) (Proc.devRef .tc main_v6) = Cert.Layers.dstv (W (Proc.devRef .tc main_arg1)) := by
  after_results_simp; rfl
set_option maxHeartbeats 4000000 in
theorem pre_norm : StableHlo.after hostOps0_2 (StableHlo.after hostOps0_1 (StableHlo.after hostOps0 W)) (Proc.devRef .tc main_v31) = Cert.Layers.normv (W (Proc.devRef .tc main_arg1)) (W (Proc.devRef .tc main_arg2)) := by
  after_results_simp; rfl
set_option maxHeartbeats 4000000 in
/-- No operation before the first region writes an argument. -/
theorem pre_args : StableHlo.after hostOps0_2 (StableHlo.after hostOps0_1 (StableHlo.after hostOps0 W)) (Proc.devRef .tc main_arg0) = W (Proc.devRef .tc main_arg0)
    ∧ StableHlo.after hostOps0_2 (StableHlo.after hostOps0_1 (StableHlo.after hostOps0 W)) (Proc.devRef .tc main_arg3) = W (Proc.devRef .tc main_arg3)
    ∧ StableHlo.after hostOps0_2 (StableHlo.after hostOps0_1 (StableHlo.after hostOps0 W)) (Proc.devRef .tc main_arg4) = W (Proc.devRef .tc main_arg4)
    ∧ StableHlo.after hostOps0_2 (StableHlo.after hostOps0_1 (StableHlo.after hostOps0 W)) (Proc.devRef .tc main_arg5) = W (Proc.devRef .tc main_arg5)
    ∧ StableHlo.after hostOps0_2 (StableHlo.after hostOps0_1 (StableHlo.after hostOps0 W)) (Proc.devRef .tc main_arg6) = W (Proc.devRef .tc main_arg6)
    ∧ StableHlo.after hostOps0_2 (StableHlo.after hostOps0_1 (StableHlo.after hostOps0 W)) (Proc.devRef .tc main_arg7) = W (Proc.devRef .tc main_arg7)
    ∧ StableHlo.after hostOps0_2 (StableHlo.after hostOps0_1 (StableHlo.after hostOps0 W)) (Proc.devRef .tc main_arg8) = W (Proc.devRef .tc main_arg8) := by
  refine ⟨?_, ?_, ?_, ?_, ?_, ?_, ?_⟩ <;> after_results_simp

/-! ### The stretch before region 1 -/

set_option maxHeartbeats 1000000 in
/-- It propagates the previous region's output: the rows gathered at the sources, scaled, summed at the targets. -/
theorem s1_agg : StableHlo.after hostOps1 W (Proc.devRef .tc main_v45)
    = Cert.Layers.aggOf (W (Proc.devRef .tc main_v6)) (W (Proc.devRef .tc main_v31)) (W (Proc.devRef .tc main_v3)) (W (Proc.devRef .tc main_v32)) := by
  after_results_simp; rfl
set_option maxHeartbeats 1000000 in
/-- It cuts hidden weight matrix 0 out of the stacked weights. -/
theorem s1_w : StableHlo.after hostOps1 W (Proc.devRef .tc main_v47) = Cert.Layers.wmid0 (W (Proc.devRef .tc main_arg5)) := by
  after_results_simp; rfl
set_option maxHeartbeats 1000000 in
/-- The bias row it hands the region is the first bias laid out as one row of 128. -/
theorem s1_b (k : Fin 128) : StableHlo.after hostOps1 W (Proc.devRef .tc main_v48) (ix2 (0 : Fin 1) k) = (W (Proc.devRef .tc main_arg4)) (ix1 k) := by
  have e : StableHlo.after hostOps1 W (Proc.devRef .tc main_v48) = fun i => shapeCast S1x128 (W (Proc.devRef .tc main_arg4)) shapeCasts_S128_S1x128 i := by
    after_results_simp; rfl
  rw [e]; exact row_of_cast _ _ k
set_option maxHeartbeats 1000000 in
/-- It writes none of the lists, the normalized weights or the arguments read later. -/
theorem s1_keep : StableHlo.after hostOps1 W (Proc.devRef .tc main_v3) = W (Proc.devRef .tc main_v3)
    ∧ StableHlo.after hostOps1 W (Proc.devRef .tc main_v6) = W (Proc.devRef .tc main_v6)
    ∧ StableHlo.after hostOps1 W (Proc.devRef .tc main_v31) = W (Proc.devRef .tc main_v31)
    ∧ StableHlo.after hostOps1 W (Proc.devRef .tc main_arg4) = W (Proc.devRef .tc main_arg4)
    ∧ StableHlo.after hostOps1 W (Proc.devRef .tc main_arg5) = W (Proc.devRef .tc main_arg5)
    ∧ StableHlo.after hostOps1 W (Proc.devRef .tc main_arg6) = W (Proc.devRef .tc main_arg6)
    ∧ StableHlo.after hostOps1 W (Proc.devRef .tc main_arg7) = W (Proc.devRef .tc main_arg7)
    ∧ StableHlo.after hostOps1 W (Proc.devRef .tc main_arg8) = W (Proc.devRef .tc main_arg8) := by
  refine ⟨?_, ?_, ?_, ?_, ?_, ?_, ?_, ?_⟩ <;> after_results_simp

/-! ### The stretch before region 2 -/

set_option maxHeartbeats 1000000 in
/-- It propagates the previous region's output: the rows gathered at the sources, scaled, summed at the targets. -/
theorem s2_agg : StableHlo.after hostOps2 W (Proc.devRef .tc main_v62)
    = Cert.Layers.aggOf (W (Proc.devRef .tc main_v6)) (W (Proc.devRef .tc main_v31)) (W (Proc.devRef .tc main_v3)) (W (Proc.devRef .tc main_v49)) := by
  after_results_simp; rfl
set_option maxHeartbeats 1000000 in
/-- It cuts hidden weight matrix 1 out of the stacked weights. -/
theorem s2_w : StableHlo.after hostOps2 W (Proc.devRef .tc main_v66) = Cert.Layers.wmid1 (W (Proc.devRef .tc main_arg5)) := by
  after_results_simp; rfl
set_option maxHeartbeats 1000000 in
/-- The bias row it hands the region is hidden bias row 0 laid out as one row of 128. -/
theorem s2_b (k : Fin 128) : StableHlo.after hostOps2 W (Proc.devRef .tc main_v67) (ix2 (0 : Fin 1) k) = (Cert.Layers.bmid0 (W (Proc.devRef .tc main_arg6))) (ix1 k) := by
  have e : StableHlo.after hostOps2 W (Proc.devRef .tc main_v67) = fun i => shapeCast S1x128 (Cert.Layers.bmid0 (W (Proc.devRef .tc main_arg6))) shapeCasts_S128_S1x128 i := by
    after_results_simp; rfl
  rw [e]; exact row_of_cast _ _ k
set_option maxHeartbeats 1000000 in
/-- It writes none of the lists, the normalized weights or the arguments read later. -/
theorem s2_keep : StableHlo.after hostOps2 W (Proc.devRef .tc main_v3) = W (Proc.devRef .tc main_v3)
    ∧ StableHlo.after hostOps2 W (Proc.devRef .tc main_v6) = W (Proc.devRef .tc main_v6)
    ∧ StableHlo.after hostOps2 W (Proc.devRef .tc main_v31) = W (Proc.devRef .tc main_v31)
    ∧ StableHlo.after hostOps2 W (Proc.devRef .tc main_arg4) = W (Proc.devRef .tc main_arg4)
    ∧ StableHlo.after hostOps2 W (Proc.devRef .tc main_arg5) = W (Proc.devRef .tc main_arg5)
    ∧ StableHlo.after hostOps2 W (Proc.devRef .tc main_arg6) = W (Proc.devRef .tc main_arg6)
    ∧ StableHlo.after hostOps2 W (Proc.devRef .tc main_arg7) = W (Proc.devRef .tc main_arg7)
    ∧ StableHlo.after hostOps2 W (Proc.devRef .tc main_arg8) = W (Proc.devRef .tc main_arg8) := by
  refine ⟨?_, ?_, ?_, ?_, ?_, ?_, ?_, ?_⟩ <;> after_results_simp

/-! ### The stretch before region 3 -/

set_option maxHeartbeats 1000000 in
/-- It propagates the previous region's output: the rows gathered at the sources, scaled, summed at the targets. -/
theorem s3_agg : StableHlo.after hostOps3 W (Proc.devRef .tc main_v81)
    = Cert.Layers.aggOf (W (Proc.devRef .tc main_v6)) (W (Proc.devRef .tc main_v31)) (W (Proc.devRef .tc main_v3)) (W (Proc.devRef .tc main_v68)) := by
  after_results_simp; rfl
set_option maxHeartbeats 1000000 in
/-- It cuts hidden weight matrix 2 out of the stacked weights. -/
theorem s3_w : StableHlo.after hostOps3 W (Proc.devRef .tc main_v85) = Cert.Layers.wmid2 (W (Proc.devRef .tc main_arg5)) := by
  after_results_simp; rfl
set_option maxHeartbeats 1000000 in
/-- The bias row it hands the region is hidden bias row 1 laid out as one row of 128. -/
theorem s3_b (k : Fin 128) : StableHlo.after hostOps3 W (Proc.devRef .tc main_v86) (ix2 (0 : Fin 1) k) = (Cert.Layers.bmid1 (W (Proc.devRef .tc main_arg6))) (ix1 k) := by
  have e : StableHlo.after hostOps3 W (Proc.devRef .tc main_v86) = fun i => shapeCast S1x128 (Cert.Layers.bmid1 (W (Proc.devRef .tc main_arg6))) shapeCasts_S128_S1x128 i := by
    after_results_simp; rfl
  rw [e]; exact row_of_cast _ _ k
set_option maxHeartbeats 1000000 in
/-- It writes none of the lists, the normalized weights or the arguments read later. -/
theorem s3_keep : StableHlo.after hostOps3 W (Proc.devRef .tc main_v3) = W (Proc.devRef .tc main_v3)
    ∧ StableHlo.after hostOps3 W (Proc.devRef .tc main_v6) = W (Proc.devRef .tc main_v6)
    ∧ StableHlo.after hostOps3 W (Proc.devRef .tc main_v31) = W (Proc.devRef .tc main_v31)
    ∧ StableHlo.after hostOps3 W (Proc.devRef .tc main_arg4) = W (Proc.devRef .tc main_arg4)
    ∧ StableHlo.after hostOps3 W (Proc.devRef .tc main_arg5) = W (Proc.devRef .tc main_arg5)
    ∧ StableHlo.after hostOps3 W (Proc.devRef .tc main_arg6) = W (Proc.devRef .tc main_arg6)
    ∧ StableHlo.after hostOps3 W (Proc.devRef .tc main_arg7) = W (Proc.devRef .tc main_arg7)
    ∧ StableHlo.after hostOps3 W (Proc.devRef .tc main_arg8) = W (Proc.devRef .tc main_arg8) := by
  refine ⟨?_, ?_, ?_, ?_, ?_, ?_, ?_, ?_⟩ <;> after_results_simp

/-! ### The stretch before region 4 -/

set_option maxHeartbeats 1000000 in
/-- It propagates the previous region's output: the rows gathered at the sources, scaled, summed at the targets. -/
theorem s4_agg : StableHlo.after hostOps4 W (Proc.devRef .tc main_v100)
    = Cert.Layers.aggOf (W (Proc.devRef .tc main_v6)) (W (Proc.devRef .tc main_v31)) (W (Proc.devRef .tc main_v3)) (W (Proc.devRef .tc main_v87)) := by
  after_results_simp; rfl
set_option maxHeartbeats 1000000 in
/-- It cuts hidden weight matrix 3 out of the stacked weights. -/
theorem s4_w : StableHlo.after hostOps4 W (Proc.devRef .tc main_v104) = Cert.Layers.wmid3 (W (Proc.devRef .tc main_arg5)) := by
  after_results_simp; rfl
set_option maxHeartbeats 1000000 in
/-- The bias row it hands the region is hidden bias row 2 laid out as one row of 128. -/
theorem s4_b (k : Fin 128) : StableHlo.after hostOps4 W (Proc.devRef .tc main_v105) (ix2 (0 : Fin 1) k) = (Cert.Layers.bmid2 (W (Proc.devRef .tc main_arg6))) (ix1 k) := by
  have e : StableHlo.after hostOps4 W (Proc.devRef .tc main_v105) = fun i => shapeCast S1x128 (Cert.Layers.bmid2 (W (Proc.devRef .tc main_arg6))) shapeCasts_S128_S1x128 i := by
    after_results_simp; rfl
  rw [e]; exact row_of_cast _ _ k
set_option maxHeartbeats 1000000 in
/-- It writes none of the lists, the normalized weights or the arguments read later. -/
theorem s4_keep : StableHlo.after hostOps4 W (Proc.devRef .tc main_v3) = W (Proc.devRef .tc main_v3)
    ∧ StableHlo.after hostOps4 W (Proc.devRef .tc main_v6) = W (Proc.devRef .tc main_v6)
    ∧ StableHlo.after hostOps4 W (Proc.devRef .tc main_v31) = W (Proc.devRef .tc main_v31)
    ∧ StableHlo.after hostOps4 W (Proc.devRef .tc main_arg4) = W (Proc.devRef .tc main_arg4)
    ∧ StableHlo.after hostOps4 W (Proc.devRef .tc main_arg5) = W (Proc.devRef .tc main_arg5)
    ∧ StableHlo.after hostOps4 W (Proc.devRef .tc main_arg6) = W (Proc.devRef .tc main_arg6)
    ∧ StableHlo.after hostOps4 W (Proc.devRef .tc main_arg7) = W (Proc.devRef .tc main_arg7)
    ∧ StableHlo.after hostOps4 W (Proc.devRef .tc main_arg8) = W (Proc.devRef .tc main_arg8) := by
  refine ⟨?_, ?_, ?_, ?_, ?_, ?_, ?_, ?_⟩ <;> after_results_simp

/-! ### The stretch before region 5 -/

set_option maxHeartbeats 1000000 in
/-- It propagates the previous region's output: the rows gathered at the sources, scaled, summed at the targets. -/
theorem s5_agg : StableHlo.after hostOps5 W (Proc.devRef .tc main_v119)
    = Cert.Layers.aggOf (W (Proc.devRef .tc main_v6)) (W (Proc.devRef .tc main_v31)) (W (Proc.devRef .tc main_v3)) (W (Proc.devRef .tc main_v106)) := by
  after_results_simp; rfl
set_option maxHeartbeats 1000000 in
/-- It cuts hidden weight matrix 4 out of the stacked weights. -/
theorem s5_w : StableHlo.after hostOps5 W (Proc.devRef .tc main_v123) = Cert.Layers.wmid4 (W (Proc.devRef .tc main_arg5)) := by
  after_results_simp; rfl
set_option maxHeartbeats 1000000 in
/-- The bias row it hands the region is hidden bias row 3 laid out as one row of 128. -/
theorem s5_b (k : Fin 128) : StableHlo.after hostOps5 W (Proc.devRef .tc main_v124) (ix2 (0 : Fin 1) k) = (Cert.Layers.bmid3 (W (Proc.devRef .tc main_arg6))) (ix1 k) := by
  have e : StableHlo.after hostOps5 W (Proc.devRef .tc main_v124) = fun i => shapeCast S1x128 (Cert.Layers.bmid3 (W (Proc.devRef .tc main_arg6))) shapeCasts_S128_S1x128 i := by
    after_results_simp; rfl
  rw [e]; exact row_of_cast _ _ k
set_option maxHeartbeats 1000000 in
/-- It writes none of the lists, the normalized weights or the arguments read later. -/
theorem s5_keep : StableHlo.after hostOps5 W (Proc.devRef .tc main_v3) = W (Proc.devRef .tc main_v3)
    ∧ StableHlo.after hostOps5 W (Proc.devRef .tc main_v6) = W (Proc.devRef .tc main_v6)
    ∧ StableHlo.after hostOps5 W (Proc.devRef .tc main_v31) = W (Proc.devRef .tc main_v31)
    ∧ StableHlo.after hostOps5 W (Proc.devRef .tc main_arg4) = W (Proc.devRef .tc main_arg4)
    ∧ StableHlo.after hostOps5 W (Proc.devRef .tc main_arg5) = W (Proc.devRef .tc main_arg5)
    ∧ StableHlo.after hostOps5 W (Proc.devRef .tc main_arg6) = W (Proc.devRef .tc main_arg6)
    ∧ StableHlo.after hostOps5 W (Proc.devRef .tc main_arg7) = W (Proc.devRef .tc main_arg7)
    ∧ StableHlo.after hostOps5 W (Proc.devRef .tc main_arg8) = W (Proc.devRef .tc main_arg8) := by
  refine ⟨?_, ?_, ?_, ?_, ?_, ?_, ?_, ?_⟩ <;> after_results_simp

/-! ### The stretch before region 6 -/

set_option maxHeartbeats 1000000 in
/-- It propagates the previous region's output: the rows gathered at the sources, scaled, summed at the targets. -/
theorem s6_agg : StableHlo.after hostOps6 W (Proc.devRef .tc main_v138)
    = Cert.Layers.aggOf (W (Proc.devRef .tc main_v6)) (W (Proc.devRef .tc main_v31)) (W (Proc.devRef .tc main_v3)) (W (Proc.devRef .tc main_v125)) := by
  after_results_simp; rfl
set_option maxHeartbeats 1000000 in
/-- It cuts hidden weight matrix 5 out of the stacked weights. -/
theorem s6_w : StableHlo.after hostOps6 W (Proc.devRef .tc main_v142) = Cert.Layers.wmid5 (W (Proc.devRef .tc main_arg5)) := by
  after_results_simp; rfl
set_option maxHeartbeats 1000000 in
/-- The bias row it hands the region is hidden bias row 4 laid out as one row of 128. -/
theorem s6_b (k : Fin 128) : StableHlo.after hostOps6 W (Proc.devRef .tc main_v143) (ix2 (0 : Fin 1) k) = (Cert.Layers.bmid4 (W (Proc.devRef .tc main_arg6))) (ix1 k) := by
  have e : StableHlo.after hostOps6 W (Proc.devRef .tc main_v143) = fun i => shapeCast S1x128 (Cert.Layers.bmid4 (W (Proc.devRef .tc main_arg6))) shapeCasts_S128_S1x128 i := by
    after_results_simp; rfl
  rw [e]; exact row_of_cast _ _ k
set_option maxHeartbeats 1000000 in
/-- It writes none of the lists, the normalized weights or the arguments read later. -/
theorem s6_keep : StableHlo.after hostOps6 W (Proc.devRef .tc main_v3) = W (Proc.devRef .tc main_v3)
    ∧ StableHlo.after hostOps6 W (Proc.devRef .tc main_v6) = W (Proc.devRef .tc main_v6)
    ∧ StableHlo.after hostOps6 W (Proc.devRef .tc main_v31) = W (Proc.devRef .tc main_v31)
    ∧ StableHlo.after hostOps6 W (Proc.devRef .tc main_arg4) = W (Proc.devRef .tc main_arg4)
    ∧ StableHlo.after hostOps6 W (Proc.devRef .tc main_arg5) = W (Proc.devRef .tc main_arg5)
    ∧ StableHlo.after hostOps6 W (Proc.devRef .tc main_arg6) = W (Proc.devRef .tc main_arg6)
    ∧ StableHlo.after hostOps6 W (Proc.devRef .tc main_arg7) = W (Proc.devRef .tc main_arg7)
    ∧ StableHlo.after hostOps6 W (Proc.devRef .tc main_arg8) = W (Proc.devRef .tc main_arg8) := by
  refine ⟨?_, ?_, ?_, ?_, ?_, ?_, ?_, ?_⟩ <;> after_results_simp

/-! ### The stretch before region 7 -/

set_option maxHeartbeats 1000000 in
/-- It propagates the previous region's output: the rows gathered at the sources, scaled, summed at the targets. -/
theorem s7_agg : StableHlo.after hostOps7 W (Proc.devRef .tc main_v157)
    = Cert.Layers.aggOf (W (Proc.devRef .tc main_v6)) (W (Proc.devRef .tc main_v31)) (W (Proc.devRef .tc main_v3)) (W (Proc.devRef .tc main_v144)) := by
  after_results_simp; rfl
set_option maxHeartbeats 1000000 in
/-- The bias row it hands the region is hidden bias row 5 laid out as one row of 128. -/
theorem s7_b (k : Fin 128) : StableHlo.after hostOps7 W (Proc.devRef .tc main_v160) (ix2 (0 : Fin 1) k) = (Cert.Layers.bmid5 (W (Proc.devRef .tc main_arg6))) (ix1 k) := by
  have e : StableHlo.after hostOps7 W (Proc.devRef .tc main_v160) = fun i => shapeCast S1x128 (Cert.Layers.bmid5 (W (Proc.devRef .tc main_arg6))) shapeCasts_S128_S1x128 i := by
    after_results_simp; rfl
  rw [e]; exact row_of_cast _ _ k
set_option maxHeartbeats 1000000 in
/-- It writes none of the lists, the normalized weights or the arguments read later. -/
theorem s7_keep : StableHlo.after hostOps7 W (Proc.devRef .tc main_v3) = W (Proc.devRef .tc main_v3)
    ∧ StableHlo.after hostOps7 W (Proc.devRef .tc main_v6) = W (Proc.devRef .tc main_v6)
    ∧ StableHlo.after hostOps7 W (Proc.devRef .tc main_v31) = W (Proc.devRef .tc main_v31)
    ∧ StableHlo.after hostOps7 W (Proc.devRef .tc main_arg4) = W (Proc.devRef .tc main_arg4)
    ∧ StableHlo.after hostOps7 W (Proc.devRef .tc main_arg5) = W (Proc.devRef .tc main_arg5)
    ∧ StableHlo.after hostOps7 W (Proc.devRef .tc main_arg6) = W (Proc.devRef .tc main_arg6)
    ∧ StableHlo.after hostOps7 W (Proc.devRef .tc main_arg7) = W (Proc.devRef .tc main_arg7)
    ∧ StableHlo.after hostOps7 W (Proc.devRef .tc main_arg8) = W (Proc.devRef .tc main_arg8) := by
  refine ⟨?_, ?_, ?_, ?_, ?_, ?_, ?_, ?_⟩ <;> after_results_simp

/-! ### The stretch after the last region -/

set_option maxHeartbeats 1000000 in
/-- It propagates the last region's two features and adds the last bias. -/
theorem s8_out : StableHlo.after hostOps8 W (Proc.devRef .tc main_v177)
    = addf (Cert.Layers.aggOf2 (W (Proc.devRef .tc main_v6)) (W (Proc.devRef .tc main_v31)) (W (Proc.devRef .tc main_v3)) (W (Proc.devRef .tc main_v161))) (Cert.Layers.bout (W (Proc.devRef .tc main_arg8))) := by
  after_results_simp; rfl
set_option maxHeartbeats 1000000 in
/-- It writes none of the lists, the normalized weights or the arguments read later. -/
theorem s8_keep : StableHlo.after hostOps8 W (Proc.devRef .tc main_v3) = W (Proc.devRef .tc main_v3)
    ∧ StableHlo.after hostOps8 W (Proc.devRef .tc main_v6) = W (Proc.devRef .tc main_v6)
    ∧ StableHlo.after hostOps8 W (Proc.devRef .tc main_v31) = W (Proc.devRef .tc main_v31)
    ∧ StableHlo.after hostOps8 W (Proc.devRef .tc main_arg4) = W (Proc.devRef .tc main_arg4)
    ∧ StableHlo.after hostOps8 W (Proc.devRef .tc main_arg5) = W (Proc.devRef .tc main_arg5)
    ∧ StableHlo.after hostOps8 W (Proc.devRef .tc main_arg6) = W (Proc.devRef .tc main_arg6)
    ∧ StableHlo.after hostOps8 W (Proc.devRef .tc main_arg7) = W (Proc.devRef .tc main_arg7)
    ∧ StableHlo.after hostOps8 W (Proc.devRef .tc main_arg8) = W (Proc.devRef .tc main_arg8) := by
  refine ⟨?_, ?_, ?_, ?_, ?_, ?_, ?_, ?_⟩ <;> after_results_simp

end Stretches

end Cert.KernelIdeal.Stretches

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.RegionEnds.lean ====
/-
  The first and the last dense stage of the network, each as one whole-array function of its operands.

  Both stages run block by block: point t of a ten-point grid reads rows 5000 t … 5000 t + 4999 of its first operand
  and the whole of its other operands, and writes rows 5000 t … 5000 t + 4999 of the output.

  * Region 0 multiplies the block of node features with the 128 × 128 weight matrix, so the whole output is the
    product of the two arrays: `out[n, j] = ∑ₖ x[n, k] · w[k, j]` (`region0`).
  * Region 7 adds the bias row to every row of the block, takes the maximum with zero, and multiplies with the
    128 × 2 output weight matrix: `out[n, j] = ∑ₖ max (a[n, k] + b[k], 0) · w[k, j]` (`region7`).

  Each proof has the same four steps. (1) The body's payload read at a row p and a column q of the block is the sum
  over the shared axis (the product into the zero accumulator is the plain sum; the narrowing of the operands is the
  identity on extended reals; the bias row broadcast over the rows reads its one row). (2) The whole-array function
  read at a row n and a column j is the same sum over the rows and columns of the whole arrays. (3) What point t
  writes back is block t of the whole-array function: an input block's entry (p, k) is the array's entry
  (5000 t + p, k), a whole operand's entry is the array's own, and the output block's entry (p, q) sits at
  (5000 t + p, q). (4) Row n lies in the block of point n / 5000, so the ten blocks cover the array and the array
  ends as the function.
-/
import proofs.«116386_j10213432230582_1_alg».proof.Proof.Gen.KernelIdeal.Frame
import proofs.«116386_j10213432230582_1_alg».proof.Proof.Spec
import proofs.«116386_j10213432230582_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

-- membership facts over the 50000-row shapes recurse once per coordinate of the long axis
set_option maxRecDepth 16384

noncomputable section

namespace Cert.KernelIdeal.RegionEnds

open Idealize.ShloMosaic Idealize.ShloMosaic.TcCoe Idealize.ShloMosaic.ValueIdx
open Idealize.SL Idealize.SL.Sem
open Idealize.ShloMosaic.Pipeline (Dat Cfg Window)
open Cert.LibPlainMatmul
open scoped BigOperators

-- the buffer contents when a region is entered: the parameter both regions are stated at
variable (V : (c : Dev nD) → (b : Ref sig .tc) → Buf (Elt Ideal) ((c : Thread nD τ).loc b))

/-! ## Shared facts -/

/-- The zero offsets of a load or store through a whole buffer, as the constant function. -/
theorem zero_offsets : (![0, 0] : Fin 2 → Nat) = fun _ => 0 := funext fun a => by fin_cases a <;> rfl

/-- Region 0's payload at a row and a column of the block: the sum over the shared axis of the products of the row
    of the left block and the column of the matrix. -/
theorem pay0_apply (x0 : Vec Ideal S5000x128 .f32) (x1 : Vec Ideal S128x128 .f32) (p : Fin 5000) (q : Fin 128) :
    Gen.k0_pay1 (F := Ideal) x0 x1 (ix2 p q) = ∑ k : Fin 128, x0 (ix2 p k) * x1 (ix2 k q) := by
  unfold Gen.k0_pay1
  refine (matmul_zero_plain _ _ _ p q).trans ?_
  rfl

/-- A plain rows-by-columns host product (the left operand contracted on its columns, the right on its rows, no batch
    axis) reads, at (p, q), the sum over the shared axis of the products of row p of the left operand and column q of
    the right. -/
theorem dotGeneral_plain {m k n : Nat} (wf : DotDims.WF (⟨2, ![m, k]⟩ : Shape) ⟨2, ![k, n]⟩ ⟨2, ![m, n]⟩ [1] [0] [0] [1] [] [])
    {φ₁ φ₂ : FTy} (prec : Option ContractPrecision) (sched : HostSchedule)
    (l : FVec Ideal ⟨2, ![m, k]⟩ φ₁) (r : FVec Ideal ⟨2, ![k, n]⟩ φ₂) (p : Fin m) (q : Fin n) :
    FloatOps.dotGeneral (plainDims wf) prec sched l r (ix2 p q) = ∑ c : Fin k, l (ix2 p c) * r (ix2 c q) := by
  rw [Ideal.dotGeneral_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

/-! ## The whole-array functions of the stages, read at a row and a column -/

/-- The product of two whole arrays at a row and a column: the sum over the shared axis. -/
theorem mm_apply (x : S50000x128.Idx → EReal) (w : S128x128.Idx → EReal) (n : Fin 50000) (j : Fin 128) :
    Cert.Spec.mm (F := Ideal) x w (ix2 n j) = ∑ k : Fin 128, x (ix2 n k) * w (ix2 k j) := by
  unfold Cert.Spec.mm
  exact dotGeneral_plain _ _ _ _ _ n j

/-- The activation at a row and a column: the bias entry of the column added, and the maximum with zero. -/
theorem act_apply (a : S50000x128.Idx → EReal) (b : S128.Idx → EReal) (n : Fin 50000) (k : Fin 128) :
    Cert.Spec.act (F := Ideal) a b (ix2 n k) = max (a (ix2 n k) + b (ix1 k)) 0 := by
  unfold Cert.Spec.act
  refine congrArg₂ max (congrArg (a (ix2 n k) + ·) ?_) ?_
  · refine (broadcastInDim_apply _ _ _ (ix2 n k) (ix2 (0 : Fin 1) k) fun ax => ?_).trans
      (broadcastInDim_apply _ _ _ (ix2 (0 : Fin 1) k) (ix1 k) fun ax => ?_)
    · match ax with
      | ⟨0, _⟩ => rfl
      | ⟨1, _⟩ => rfl
    · match ax with
      | ⟨0, _⟩ => rfl
  · exact (broadcastInDim_apply _ _ _ (ix2 n k) ix0 fun ax => ax.elim0).trans Ideal.ofBits_zero_f32

/-- The activation times the 128 × 2 matrix at a row and a column. -/
theorem fused2_apply (a : S50000x128.Idx → EReal) (b : S128.Idx → EReal) (w : S128x2.Idx → EReal) (n : Fin 50000) (j : Fin 2) :
    Cert.Spec.fused2 (F := Ideal) a b w (ix2 n j) = ∑ k : Fin 128, max (a (ix2 n k) + b (ix1 k)) 0 * w (ix2 k j) := by
  unfold Cert.Spec.fused2
  refine (dotGeneral_plain _ _ _ _ _ n j).trans ?_
  exact Finset.sum_congr rfl fun k _ => congrArg (· * w (ix2 k j)) (act_apply a b n k)

/-! ## Region 0: the product of the node features with a 128 × 128 matrix -/

/-- The index maps of region 0 over its grid: the row block of windows 0 and 2 is the point's number, every other block
    index is zero. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Window 0's block at point t is rows 5000 t … 5000 t + 4999 of its array. -/
theorem iblk0_0_apply (c : Dev nD) (t : Fin cfg0.N) (x : S5000x128.Idx) (i : S50000x128.Idx)
    (h0 : (i 0).val = 5000 * t.val + (x 0).val) (h1 : (i 1).val = (x 1).val) :
    (Gen.iblk0 (F := Ideal) V c 0 t : Vec Ideal S5000x128 .f32) x = (V c main_arg0 : S50000x128.Idx → EReal) i := by
  obtain ⟨e0, e1, -, -, -, -⟩ := index_facts0 t
  unfold Gen.iblk0
  rw [View.read_apply]
  show (V c main_arg0 : S50000x128.Idx → EReal) _ = V c main_arg0 _
  congr 1
  funext a
  apply Fin.ext
  match a with
  | ⟨0, _⟩ => show win0_0.index t (0 : Fin 2) * 5000 + 1 * (x 0).val = (i 0).val; omega
  | ⟨1, _⟩ => show win0_0.index t (1 : Fin 2) * 128 + 1 * (x 1).val = (i 1).val; omega

/-- Window 1's block at every point is its whole array. -/
theorem iblk0_1_apply (c : Dev nD) (t : Fin cfg0.N) (x : S128x128.Idx) :
    (Gen.iblk0 (F := Ideal) V c 1 t : Vec Ideal S128x128 .f32) x = (V c main_arg3 : S128x128.Idx → EReal) x := by
  obtain ⟨-, -, e0, e1, -, -⟩ := index_facts0 t
  unfold Gen.iblk0
  rw [View.read_apply]
  show (V c main_arg3 : S128x128.Idx → EReal) _ = V c main_arg3 _
  congr 1
  funext a
  apply Fin.ext
  match a with
  | ⟨0, _⟩ => show win0_1.index t (0 : Fin 2) * 128 + 1 * (x 0).val = (x 0).val; omega
  | ⟨1, _⟩ => show win0_1.index t (1 : Fin 2) * 128 + 1 * (x 1).val = (x 1).val; omega

/-- The rows-by-columns product of two whole arrays, index by index. -/
abbrev prod0 (x : S50000x128.Idx → EReal) (w : S128x128.Idx → EReal) : S50000x128.Idx → EReal :=
  fun i => ∑ k : Fin 128, x (ix2 (i 0) k) * w (ix2 k (i 1))

/-- What point t writes back is block t of the product of the two arrays as the region finds them. -/
theorem flushed0 (c : Dev nD) (t : Fin cfg0.N) :
    (Gen.dat0 (F := Ideal) V c).flushed 2 t
      = ((cfg0.win 2).blk t).view.read (Elt Ideal) (prod0 (V c main_arg0) (V c main_arg3)) := by
  show (cfg0.win 2).cut (grid0.coords t) ((Gen.dat0 (F := Ideal) V c).after 2 t) = _
  rw [Gen.after0_2]
  unfold Gen.out0_2
  rw [View.canon_unit_zero zero_offsets]
  simp only [View.ld_unit_zero (S := S5000x128) zero_offsets, View.ld_unit_zero (S := S128x128) zero_offsets]
  obtain ⟨-, -, -, -, e0, e1⟩ := index_facts0 t
  funext j
  show Gen.k0_pay1 (F := Ideal) (Gen.iblk0 V c 0 t) (Gen.iblk0 V c 1 t) j
      = prod0 (V c main_arg0) (V c main_arg3) (((cfg0.win 2).blk t).view.emb j)
  have h0 : ((((cfg0.win 2).blk t).view.emb j) 0).val = 5000 * t.val + (j 0).val := by
    show win0_2.index t (0 : Fin 2) * 5000 + 1 * (j 0).val = _
    omega
  have h1 : ((((cfg0.win 2).blk t).view.emb j) 1 : Fin 128) = j 1 := Fin.ext (by
    show win0_2.index t (1 : Fin 2) * 128 + 1 * (j 1).val = _
    omega)
  refine ((congrArg (Gen.k0_pay1 (F := Ideal) (Gen.iblk0 V c 0 t) (Gen.iblk0 V c 1 t)) (eq_ix2 (n0 := 5000) (n1 := 128) j)).trans
    (pay0_apply _ _ (j 0) (j 1))).trans ?_
  refine Finset.sum_congr rfl fun k _ => ?_
  exact congrArg₂ (· * ·) (iblk0_0_apply V c t _ _ h0 rfl)
    ((iblk0_1_apply V c t _).trans (congrArg (fun q => (V c main_arg3 : S128x128.Idx → EReal) (ix2 k q)) h1.symm))

/-- An index of the array is in point t's block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Every row lies in the block of the point its row number divided by 5000 names. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have ht : (i 0).val / 5000 < cfg0.N := by show _ < 10; omega
  obtain ⟨-, -, -, -, e0, e1⟩ := index_facts0 ⟨(i 0).val / 5000, ht⟩
  refine ⟨⟨(i 0).val / 5000, ht⟩, Gen.flush0_2 _, ?_⟩
  rw [mem_blk0]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e1]
    omega

/-- The output array after region 0 is the product, index by index. -/
theorem region0_prod (c : Dev nD) :
    (Gen.dat0 (F := Ideal) V c).arrAt 2 cfg0.N = prod0 (V c main_arg0) (V c main_arg3) :=
  (Gen.dat0 (F := Ideal) V c).arrAt_eq_of_cover 2 _ (fun t _ => flushed0 V c t) cover0

/-- REGION 0. The whole output array after the region is the product of the node features with the weight matrix,
    both as the region finds them: `out[n, j] = ∑ₖ x[n, k] · w[k, j]`. -/
theorem region0 (c : Dev nD) :
    (Gen.dat0 (F := Ideal) V c).arrAt 2 cfg0.N = Cert.Spec.mm (F := Ideal) (V c main_arg0) (V c main_arg3) :=
  (region0_prod V c).trans (funext fun i =>
    ((congrArg (Cert.Spec.mm (F := Ideal) (V c main_arg0) (V c main_arg3)) (eq_ix2 (n0 := 50000) (n1 := 128) i)).trans
      (mm_apply _ _ (i 0) (i 1))).symm)

/-! ## Region 7: the activation of an array and a bias row, times a 128 × 2 matrix -/

/-- A [1, c] array broadcast to [a, c] reads, at (p, s), the operand at (0, s). -/
theorem broadcastTo_1c_ac_apply {α : Type} {a c : ℕ} (x : (⟨2, ![1, c]⟩ : Shape).Idx → α)
    (h : (⟨2, ![1, c]⟩ : Shape).Broadcasts ⟨2, ![a, c]⟩) (p : Fin a) (s : Fin c) :
    broadcastTo ⟨2, ![a, c]⟩ x h (ix2 p s) = x (ix2 (0 : Fin 1) s) := by
  refine broadcastTo_apply x h (ix2 p s) (ix2 (0 : Fin 1) s) fun ax => ?_
  match ax with
  | ⟨0, _⟩ => rfl
  | ⟨1, _⟩ =>
    show s.val = if c = 1 then 0 else s.val
    split
    · have := s.isLt; omega
    · rfl

/-- The body's payload at a row and a column: the bias row added to the row of the block, the maximum with zero,
    and the sum over the shared axis of the products with the column of the matrix. -/
theorem pay7_apply (x0 : Vec Ideal S5000x128 .f32) (x1 : Vec Ideal S1x128 .f32) (x2 : Vec Ideal S128x2 .f32)
    (p : Fin 5000) (q : Fin 2) :
    Gen.k7_pay1 (F := Ideal) x0 x1 x2 (ix2 p q)
      = ∑ k : Fin 128, max (x0 (ix2 p k) + x1 (ix2 (0 : Fin 1) k)) 0 * x2 (ix2 k q) := by
  unfold Gen.k7_pay1
  refine (matmul_zero_plain _ _ _ p q).trans ?_
  refine Finset.sum_congr rfl fun k _ => ?_
  show max (shapeCast S5000x128 x0 Gen.shapeCasts_S5000x128_S5000x128 (ix2 p k)
        + broadcastTo S5000x128 (shapeCast S1x128 x1 Gen.shapeCasts_S1x128_S1x128) Gen.broadcasts_S1x128_S5000x128 (ix2 p k))
      (Ideal.ofBits .f32 0x00000000#32) * x2 (ix2 k q) = _
  rw [shapeCast_self, shapeCast_self, Ideal.ofBits_zero_f32, broadcastTo_1c_ac_apply]

/-- The index maps of region 7 over its grid: the row block of windows 0 and 3 is the point's number, every other block
    index is zero. -/
theorem index_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- Window 0's block at point t is rows 5000 t … 5000 t + 4999 of its array. -/
theorem iblk7_0_apply (c : Dev nD) (t : Fin cfg7.N) (x : S5000x128.Idx) (i : S50000x128.Idx)
    (h0 : (i 0).val = 5000 * t.val + (x 0).val) (h1 : (i 1).val = (x 1).val) :
    (Gen.iblk7 (F := Ideal) V c 0 t : Vec Ideal S5000x128 .f32) x = (V c main_v157 : S50000x128.Idx → EReal) i := by
  obtain ⟨e0, e1, -, -, -, -, -, -⟩ := index_facts7 t
  unfold Gen.iblk7
  rw [View.read_apply]
  show (V c main_v157 : S50000x128.Idx → EReal) _ = V c main_v157 _
  congr 1
  funext a
  apply Fin.ext
  match a with
  | ⟨0, _⟩ => show win7_0.index t (0 : Fin 2) * 5000 + 1 * (x 0).val = (i 0).val; omega
  | ⟨1, _⟩ => show win7_0.index t (1 : Fin 2) * 128 + 1 * (x 1).val = (i 1).val; omega

/-- Window 1's block at every point is its whole array, the bias row. -/
theorem iblk7_1_apply (c : Dev nD) (t : Fin cfg7.N) (x : S1x128.Idx) :
    (Gen.iblk7 (F := Ideal) V c 1 t : Vec Ideal S1x128 .f32) x = (V c main_v160 : S1x128.Idx → EReal) x := by
  obtain ⟨-, -, e0, e1, -, -, -, -⟩ := index_facts7 t
  unfold Gen.iblk7
  rw [View.read_apply]
  show (V c main_v160 : S1x128.Idx → EReal) _ = V c main_v160 _
  congr 1
  funext a
  apply Fin.ext
  match a with
  | ⟨0, _⟩ => show win7_1.index t (0 : Fin 2) * 1 + 1 * (x 0).val = (x 0).val; omega
  | ⟨1, _⟩ => show win7_1.index t (1 : Fin 2) * 128 + 1 * (x 1).val = (x 1).val; omega

/-- Window 2's block at every point is its whole array, the matrix. -/
theorem iblk7_2_apply (c : Dev nD) (t : Fin cfg7.N) (x : S128x2.Idx) :
    (Gen.iblk7 (F := Ideal) V c 2 t : Vec Ideal S128x2 .f32) x = (V c main_arg7 : S128x2.Idx → EReal) x := by
  obtain ⟨-, -, -, -, e0, e1, -, -⟩ := index_facts7 t
  unfold Gen.iblk7
  rw [View.read_apply]
  show (V c main_arg7 : S128x2.Idx → EReal) _ = V c main_arg7 _
  congr 1
  funext a
  apply Fin.ext
  match a with
  | ⟨0, _⟩ => show win7_2.index t (0 : Fin 2) * 128 + 1 * (x 0).val = (x 0).val; omega
  | ⟨1, _⟩ => show win7_2.index t (1 : Fin 2) * 2 + 1 * (x 1).val = (x 1).val; omega

/-- The activation of an array and a bias row times a matrix, index by index. -/
abbrev actProd7 (a : S50000x128.Idx → EReal) (b : S128.Idx → EReal) (w : S128x2.Idx → EReal) : S50000x2.Idx → EReal :=
  fun i => ∑ k : Fin 128, max (a (ix2 (i 0) k) + b (ix1 k)) 0 * w (ix2 k (i 1))

/-- What point t writes back is block t of that function of the three arrays as the region finds them. -/
theorem flushed7 (c : Dev nD) (b : S128.Idx → EReal)
    (hb : ∀ k : Fin 128, (V c main_v160 : S1x128.Idx → EReal) (ix2 (0 : Fin 1) k) = b (ix1 k)) (t : Fin cfg7.N) :
    (Gen.dat7 (F := Ideal) V c).flushed 3 t
      = ((cfg7.win 3).blk t).view.read (Elt Ideal) (actProd7 (V c main_v157) b (V c main_arg7)) := by
  show (cfg7.win 3).cut (grid7.coords t) ((Gen.dat7 (F := Ideal) V c).after 3 t) = _
  rw [Gen.after7_3]
  unfold Gen.out7_3
  rw [View.canon_unit_zero zero_offsets]
  simp only [View.ld_unit_zero (S := S5000x128) zero_offsets, View.ld_unit_zero (S := S1x128) zero_offsets,
    View.ld_unit_zero (S := S128x2) zero_offsets]
  obtain ⟨-, -, -, -, -, -, e0, e1⟩ := index_facts7 t
  funext j
  show Gen.k7_pay1 (F := Ideal) (Gen.iblk7 V c 0 t) (Gen.iblk7 V c 1 t) (Gen.iblk7 V c 2 t) j
      = actProd7 (V c main_v157) b (V c main_arg7) (((cfg7.win 3).blk t).view.emb j)
  have h0 : ((((cfg7.win 3).blk t).view.emb j) 0).val = 5000 * t.val + (j 0).val := by
    show win7_3.index t (0 : Fin 2) * 5000 + 1 * (j 0).val = _
    omega
  have h1 : ((((cfg7.win 3).blk t).view.emb j) 1 : Fin 2) = j 1 := Fin.ext (by
    show win7_3.index t (1 : Fin 2) * 2 + 1 * (j 1).val = _
    omega)
  refine ((congrArg (Gen.k7_pay1 (F := Ideal) (Gen.iblk7 V c 0 t) (Gen.iblk7 V c 1 t) (Gen.iblk7 V c 2 t))
    (eq_ix2 (n0 := 5000) (n1 := 2) j)).trans (pay7_apply _ _ _ (j 0) (j 1))).trans ?_
  refine Finset.sum_congr rfl fun k _ => ?_
  refine congrArg₂ (· * ·) (congrArg (max · (0 : EReal)) (congrArg₂ (· + ·) (iblk7_0_apply V c t _ _ h0 rfl) ((iblk7_1_apply V c t _).trans (hb k))))
    ((iblk7_2_apply V c t _).trans (congrArg (fun q => (V c main_arg7 : S128x2.Idx → EReal) (ix2 k q)) h1.symm))

/-- An index of the array is in point t's block iff each coordinate is in the block's range on its axis. -/
theorem mem_blk7 (t : Fin cfg7.N) (i : S50000x2.Idx) :
    i ∈ ((cfg7.win 3).blk t).view.set ↔ ∀ a : Fin 2, win7_3.index t a * S5000x2.size a ≤ (i a).val ∧ (i a).val < win7_3.index t a * S5000x2.size a + S5000x2.size a := by
  show i ∈ ((View.whole main_v161).slice (win7_3.rect t)).set ↔ _
  rw [View.set_slice_whole, Rect.mem_set_unit]
  exact Iff.rfl

/-- Every row lies in the block of the point its row number divided by 5000 names. -/
theorem cover7 (i : S50000x2.Idx) : ∃ t : Fin cfg7.N, (cfg7.win 3).flush t = true ∧ i ∈ ((cfg7.win 3).blk t).view.set := by
  have hi0 : (i 0).val < 50000 := (i 0).isLt
  have hi1 : (i 1).val < 2 := (i 1).isLt
  have ht : (i 0).val / 5000 < cfg7.N := by show _ < 10; omega
  obtain ⟨-, -, -, -, -, -, e0, e1⟩ := index_facts7 ⟨(i 0).val / 5000, ht⟩
  refine ⟨⟨(i 0).val / 5000, ht⟩, Gen.flush7_3 _, ?_⟩
  rw [mem_blk7]
  intro a
  match a with
  | ⟨0, _⟩ =>
    show win7_3.index ⟨(i 0).val / 5000, ht⟩ (0 : Fin 2) * 5000 ≤ (i 0).val ∧ (i 0).val < win7_3.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win7_3.index ⟨(i 0).val / 5000, ht⟩ (1 : Fin 2) * 2 ≤ (i 1).val ∧ (i 1).val < win7_3.index ⟨(i 0).val / 5000, ht⟩ (1 : Fin 2) * 2 + 2
    rw [e1]
    omega

/-- The output array after region 7 is that function, index by index. -/
theorem region7_actProd (c : Dev nD) (b : S128.Idx → EReal)
    (hb : ∀ k : Fin 128, (V c main_v160 : S1x128.Idx → EReal) (ix2 (0 : Fin 1) k) = b (ix1 k)) :
    (Gen.dat7 (F := Ideal) V c).arrAt 3 cfg7.N = actProd7 (V c main_v157) b (V c main_arg7) :=
  (Gen.dat7 (F := Ideal) V c).arrAt_eq_of_cover 3 _ (fun t _ => flushed7 V c b hb t) cover7

/-- REGION 7. The whole output array after the region is the activation of the aggregated array and the bias row,
    times the 128 × 2 output weight matrix, all as the region finds them:
    `out[n, j] = ∑ₖ max (a[n, k] + b[k], 0) · w[k, j]`, where the bias row `b` is the one row of the region's
    1 × 128 operand. -/
theorem region7 (c : Dev nD) (b : (⟨S128, .f32⟩ : BufTy).Contents (Elt Ideal))
    (hb : ∀ k : Fin 128, V c main_v160 (ix2 (0 : Fin 1) k) = b (ix1 k)) :
    (Gen.dat7 (F := Ideal) V c).arrAt 3 cfg7.N = Cert.Spec.fused2 (F := Ideal) (V c main_v157) b (V c main_arg7) :=
  (region7_actProd V c b hb).trans (funext fun i =>
    ((congrArg (Cert.Spec.fused2 (F := Ideal) (V c main_v157) b (V c main_arg7)) (eq_ix2 (n0 := 50000) (n1 := 2) i)).trans
      (fused2_apply _ _ _ (i 0) (i 1))).symm)

end Cert.KernelIdeal.RegionEnds

end
-- ==== Proof.RegionFused.lean ====
/-
  The six fused dense stages of the network, each as one whole-array equation.

  Stage K (K = 1 … 6) runs over ten points; point t works on the rows [5000·t, 5000·t + 5000) of the 50000-row
  aggregated array: it loads that row block, the whole 1 × 128 bias row and the whole 128 × 128 weight matrix, and
  stores the row block  max (block + bias row spread over the rows, 0) · weights  of the output array.

  Proved here, per stage: the output array after the stage is the specification's fused stage
  (activation of the aggregated array against the bias, then the product with the weights) of the operand arrays as
  the stage finds them. The road is index by index:

  * both sides at an index are the same sum over the shared axis k of  max (a[n, k] + b[k], 0) · w[k, j]  — the body's
    result block at (p, q) over its loaded blocks, and the specification's host product at (n, j);
  * what point t writes back is block t of that index form, because row p of the aggregated array's block t is row
    5000·t + p of the array, which is the row of entry (p, q) of the output's block t, while the bias row and the
    weights are read whole;
  * the ten output blocks cover the array: row n lies in the block of the point n / 5000.
-/
import proofs.«116386_j10213432230582_1_alg».proof.Proof.Gen.KernelIdeal.Frame
import proofs.«116386_j10213432230582_1_alg».proof.Proof.Spec
import proofs.«116386_j10213432230582_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The two sides at an index -/

/-- The offsets of an access to a whole staging buffer are zero on both axes. -/
theorem zero_offsets : (![0, 0] : Fin 2 → Nat) = fun _ => 0 := funext fun a => by fin_cases a <;> rfl

/-- The fused stage index by index: entry (n, j) is the sum over k of max (a[n, k] + b[k], 0) · w[k, j]. -/
def fusedAt (a : S50000x128.Idx → EReal) (b : S128.Idx → EReal) (w : S128x128.Idx → EReal) : S50000x128.Idx → EReal :=
  fun i => ∑ k : Fin 128, max (a (ix2 (i 0) k) + b (ix1 k)) 0 * w (ix2 k (i 1))

/-- The body's result block at (p, q): row p of the loaded block plus the loaded bias row, clamped below at zero,
    multiplied into column q of the loaded weights. The shape casts are identities, the row broadcast reads the
    bias row at its only row, the narrowing of the product's operands is exact over the extended reals, and the
    product into the zero accumulator is the plain sum over the shared axis. -/
theorem payload_apply (x0 : Vec Ideal S5000x128 .f32) (x1 : Vec Ideal S1x128 .f32) (x2 : Vec Ideal S128x128 .f32)
    (p : Fin 5000) (q : Fin 128) :
    k1_pay1 (F := Ideal) x0 x1 x2 (ix2 p q)
      = ∑ k : Fin 128, max (x0 (ix2 p k) + x1 (ix2 (0 : Fin 1) k)) 0 * x2 (ix2 k q) := by
  unfold k1_pay1
  refine (Cert.LibPlainMatmul.matmul_zero_plain _ _ _ p q).trans ?_
  refine Finset.sum_congr rfl fun k _ => ?_
  show max (shapeCast S5000x128 x0 shapeCasts_S5000x128_S5000x128 (ix2 p k)
        + broadcastTo S5000x128 (shapeCast S1x128 x1 shapeCasts_S1x128_S1x128) broadcasts_S1x128_S5000x128 (ix2 p k))
        (Ideal.ofBits .f32 0x00000000#32)
      * shapeCast S128x128 x2 shapeCasts_S128x128_S128x128 (ix2 k q) = _
  rw [shapeCast_self, shapeCast_self, shapeCast_self, Ideal.ofBits_zero_f32]
  rw [broadcastTo_apply x1 broadcasts_S1x128_S5000x128 (ix2 p k) (ix2 (0 : Fin 1) k) (fun a => by
    match a with
    | ⟨0, _⟩ => rfl
    | ⟨1, _⟩ => rfl)]

/-- Stage 2 runs the same body as stage 1: the same tree of operations of its three loaded blocks. -/
theorem pay2_eq {F : FTy → Type} [FloatOps F] : k2_pay1 (F := F) = k1_pay1 := rfl
/-- Stage 3 runs the same body as stage 1: the same tree of operations of its three loaded blocks. -/
theorem pay3_eq {F : FTy → Type} [FloatOps F] : k3_pay1 (F := F) = k1_pay1 := rfl
/-- Stage 4 runs the same body as stage 1: the same tree of operations of its three loaded blocks. -/
theorem pay4_eq {F : FTy → Type} [FloatOps F] : k4_pay1 (F := F) = k1_pay1 := rfl
/-- Stage 5 runs the same body as stage 1: the same tree of operations of its three loaded blocks. -/
theorem pay5_eq {F : FTy → Type} [FloatOps F] : k5_pay1 (F := F) = k1_pay1 := rfl
/-- Stage 6 runs the same body as stage 1: the same tree of operations of its three loaded blocks. -/
theorem pay6_eq {F : FTy → Type} [FloatOps F] : k6_pay1 (F := F) = k1_pay1 := rfl

/-- The bias row, given a unit row axis and then spread over the nodes, reads at (n, k) the bias at k. -/
theorem bias_spread_apply {α : Type} (b : Cert.ReferenceIdeal.S128.Idx → α) (n : Fin 50000) (k : Fin 128) :
    broadcastInDim Cert.ReferenceIdeal.S50000x128 ![0, 1] Cert.ReferenceIdeal.Gen.bcast_S1x128_S50000x128_0_1
      (broadcastInDim Cert.ReferenceIdeal.S1x128 ![1] Cert.ReferenceIdeal.Gen.bcast_S128_S1x128_1 b) (ix2 n k) = b (ix1 k) :=
  (broadcastInDim_apply ![0, 1] _ _ (ix2 n k) (ix2 (0 : Fin 1) k) (fun a => by
      match a with
      | ⟨0, _⟩ => rfl
      | ⟨1, _⟩ => rfl)).trans
    (broadcastInDim_apply ![1] _ b (ix2 (0 : Fin 1) k) (ix1 k) (fun a => by
      match a with
      | ⟨0, _⟩ => rfl))

/-- The activation at (n, k), over any float operations: the maximum of a[n, k] + b[k] and the zero constant. -/
theorem act_apply {F : FTy → Type} [FloatOps F] (a : (⟨Cert.ReferenceIdeal.S50000x128, .f32⟩ : BufTy).Contents (Elt F))
    (b : (⟨Cert.ReferenceIdeal.S128, .f32⟩ : BufTy).Contents (Elt F)) (n : Fin 50000) (k : Fin 128) :
    Cert.Spec.act (F := F) a b (ix2 n k)
      = FloatOps.maximumf (FloatOps.addf (a (ix2 n k)) (b (ix1 k))) (FloatOps.ofBits .f32 0x00000000#32) := by
  unfold Cert.Spec.act
  show FloatOps.maximumf (FloatOps.addf (a (ix2 n k))
      (broadcastInDim Cert.ReferenceIdeal.S50000x128 ![0, 1] Cert.ReferenceIdeal.Gen.bcast_S1x128_S50000x128_0_1
        (broadcastInDim Cert.ReferenceIdeal.S1x128 ![1] Cert.ReferenceIdeal.Gen.bcast_S128_S1x128_1 b) (ix2 n k)))
      (FloatOps.ofBits .f32 0x00000000#32) = _
  rw [bias_spread_apply]

/-- The fused stage of the specification at (n, j), over the extended reals: the host product is the plain sum over
    the shared axis (the same sum as a product into the zero accumulator), of the activation at (n, k) times w[k, j]. -/
theorem fused_apply (a : (⟨Cert.ReferenceIdeal.S50000x128, .f32⟩ : BufTy).Contents (Elt Ideal))
    (b : (⟨Cert.ReferenceIdeal.S128, .f32⟩ : BufTy).Contents (Elt Ideal))
    (w : (⟨Cert.ReferenceIdeal.S128x128, .f32⟩ : BufTy).Contents (Elt Ideal)) (n : Fin 50000) (j : Fin 128) :
    Cert.Spec.fused (F := Ideal) a b w (ix2 n j) = ∑ k : Fin 128, max (a (ix2 n k) + b (ix1 k)) 0 * w (ix2 k j) := by
  unfold Cert.Spec.fused
  refine ((Ideal.dotGeneral_apply _ none .single _ _ _).trans (Ideal.matmul_constant_zero_apply _ none _ _ _).symm).trans ?_
  refine (Cert.LibPlainMatmul.matmul_zero_plain _ _ _ n j).trans ?_
  refine Finset.sum_congr rfl fun k _ => ?_
  rw [act_apply]
  show max (a (ix2 n k) + b (ix1 k)) (Ideal.ofBits .f32 0x00000000#32) * w (ix2 k j) = _
  rw [Ideal.ofBits_zero_f32]

/-- The specification's fused stage is the index form, entry by entry. -/
theorem fused_eq_fusedAt (a : (⟨Cert.ReferenceIdeal.S50000x128, .f32⟩ : BufTy).Contents (Elt Ideal))
    (b : (⟨Cert.ReferenceIdeal.S128, .f32⟩ : BufTy).Contents (Elt Ideal))
    (w : (⟨Cert.ReferenceIdeal.S128x128, .f32⟩ : BufTy).Contents (Elt Ideal)) :
    Cert.Spec.fused (F := Ideal) a b w = fusedAt a b w :=
  funext fun i => (congrArg (Cert.Spec.fused (F := Ideal) a b w) (eq_ix2 i)).trans (fused_apply a b w (i 0) (i 1))

variable (V : (c : Dev nD) → (b : Ref sig .tc) → Buf (Elt Ideal) ((c : Thread nD τ).loc b))

/-! ## Stage 1: rows [5000·t, 5000·t + 5000) at point t -/

/-- The index maps over the ten points: the row block of the aggregated array and of the output is the point's
    number and their column block is zero; the bias row and the weights are always block (0, 0). -/
theorem index_facts1 : ∀ t : Fin cfg1.N,
      win1_3.index t (0 : Fin 2) = t.val ∧ win1_3.index t (1 : Fin 2) = 0
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- What point t writes back is block t of the index form of the stage's operand arrays: entry (p, q) of the body's
    result reads row p of the aggregated array's block t — row 5000·t + p of the array —, the bias row (b by hb) and
    column q of the whole weight matrix, and entry (p, q) of the output's block t is entry (5000·t + p, q) of the array. -/
theorem flushed1_eq (c : Dev nD) (t : Fin cfg1.N) (b : (⟨S128, .f32⟩ : BufTy).Contents (Elt Ideal))
    (hb : ∀ k : Fin 128, V c main_v48 (ix2 (0 : Fin 1) k) = b (ix1 k)) :
    (dat1 (F := Ideal) V c).flushed 3 t
      = ((cfg1.win 3).blk t).view.read (Elt Ideal) (fusedAt (V c main_v45) b (V c main_v47)) := by
  show (cfg1.win 3).cut (grid1.coords t) ((dat1 V c).after 3 t) = _
  rw [after1_3]
  unfold out1_3
  rw [View.canon_unit_zero zero_offsets]
  simp only [View.ld_unit_zero (S := S5000x128) zero_offsets, View.ld_unit_zero (S := S1x128) zero_offsets,
    View.ld_unit_zero (S := S128x128) zero_offsets]
  funext j
  show k1_pay1 (iblk1 V c 0 t) (iblk1 V c 1 t) (iblk1 V c 2 t) ((win1 3).xinj (grid1.coords t) j)
    = fusedAt (V c main_v45) b (V c main_v47) (((cfg1.win 3).blk t).view.emb j)
  obtain ⟨e30, e31, e00, e01, e10, e11, e20, e21⟩ := index_facts1 t
  have hj0 : (j 0).val < 5000 := (j 0).isLt
  have hj1 : (j 1).val < 128 := (j 1).isLt
  have hx : (win1 3).xinj (grid1.coords t) j = ix2 (⟨(j 0).val, hj0⟩ : Fin 5000) (⟨(j 1).val, hj1⟩ : Fin 128) := by
    funext a; match a with | ⟨0, _⟩ => rfl | ⟨1, _⟩ => rfl
  refine (congrArg (k1_pay1 (iblk1 V c 0 t) (iblk1 V c 1 t) (iblk1 V c 2 t)) hx).trans ?_
  refine (payload_apply _ _ _ _ _).trans ?_
  unfold fusedAt
  refine Finset.sum_congr rfl fun k _ => ?_
  -- the aggregated array: block row p at point t is array row 5000·t + p, the output block's row
  have h0 : iblk1 V c 0 t (ix2 (⟨(j 0).val, hj0⟩ : Fin 5000) k)
      = V c main_v45 (ix2 ((((cfg1.win 3).blk t).view.emb j) 0) k) := by
    show V c main_v45 (((cfg1.win 0).blk t).view.emb (ix2 (⟨(j 0).val, hj0⟩ : Fin 5000) k)) = _
    refine congrArg _ (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  -- the bias row: its only block is the whole row
  have h1 : iblk1 V c 1 t (ix2 (0 : Fin 1) k) = b (ix1 k) := by
    refine Eq.trans ?_ (hb k)
    show V c main_v48 (((cfg1.win 1).blk t).view.emb (ix2 (0 : Fin 1) k)) = _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  -- the weights: their only block is the whole matrix, and the output block's column is the array's
  have h2 : iblk1 V c 2 t (ix2 k (⟨(j 1).val, hj1⟩ : Fin 128))
      = V c main_v47 (ix2 k ((((cfg1.win 3).blk t).view.emb j) 1)) := by
    show V c main_v47 (((cfg1.win 2).blk t).view.emb (ix2 k (⟨(j 1).val, hj1⟩ : Fin 128))) = _
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * (j 1).val = win1_3.index t (1 : Fin 2) * 128 + 1 * (j 1).val; omega
  rw [h0, h1, h2]

/-- An index of the output array is in point t's block iff each coordinate is in the block's range on its axis. -/
theorem mem_blk1 (t : Fin cfg1.N) (i : S50000x128.Idx) :
    i ∈ ((cfg1.win 3).blk t).view.set
      ↔ ∀ a : Fin 2, win1_3.index t a * S5000x128.size a ≤ (i a).val
          ∧ (i a).val < win1_3.index t a * S5000x128.size a + S5000x128.size a := by
  show i ∈ ((View.whole main_v49).slice (win1_3.rect t)).set ↔ _
  rw [View.set_slice_whole, Rect.mem_set_unit]
  exact Iff.rfl

/-- Every index of the output array lies in the block of the point that is its row divided by 5000, and every point
    writes its block back. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have ht : (i 0).val / 5000 < cfg1.N := by show (i 0).val / 5000 < 10; omega
  refine ⟨⟨(i 0).val / 5000, ht⟩, flush1_3 _, ?_⟩
  rw [mem_blk1]
  obtain ⟨e30, e31, -⟩ := index_facts1 ⟨(i 0).val / 5000, ht⟩
  intro a
  match a with
  | ⟨0, _⟩ =>
    show win1_3.index _ (0 : Fin 2) * 5000 ≤ (i 0).val ∧ (i 0).val < win1_3.index _ (0 : Fin 2) * 5000 + 5000
    rw [e30]
    show (i 0).val / 5000 * 5000 ≤ (i 0).val ∧ (i 0).val < (i 0).val / 5000 * 5000 + 5000
    omega
  | ⟨1, _⟩ =>
    show win1_3.index _ (1 : Fin 2) * 128 ≤ (i 1).val ∧ (i 1).val < win1_3.index _ (1 : Fin 2) * 128 + 128
    rw [e31]
    omega

/-- Stage 1's output array after the region, index by index. -/
theorem region1_at (c : Dev nD) (b : (⟨S128, .f32⟩ : BufTy).Contents (Elt Ideal))
    (hb : ∀ k : Fin 128, V c main_v48 (ix2 (0 : Fin 1) k) = b (ix1 k)) :
    (dat1 (F := Ideal) V c).arrAt 3 cfg1.N = fusedAt (V c main_v45) b (V c main_v47) :=
  (dat1 V c).arrAt_eq_of_cover 3 _ (fun t _ => flushed1_eq V c t b hb) cover1

/-- STAGE 1. The whole output array after the region is the fused stage of the specification — the activation of the
    aggregated array against the bias, times the weights — of the operand arrays as the region finds them, for any
    bias vector b that the region's bias row buffer holds. -/
theorem region1 (c : Dev nD) (b : (⟨S128, .f32⟩ : BufTy).Contents (Elt Ideal))
    (hb : ∀ k : Fin 128, V c main_v48 (ix2 (0 : Fin 1) k) = b (ix1 k)) :
    (Gen.dat1 (F := Ideal) V c).arrAt 3 cfg1.N = Cert.Spec.fused (F := Ideal) (V c main_v45) b (V c main_v47) :=
  (region1_at V c b hb).trans (fused_eq_fusedAt _ _ _).symm

/-! ## Stage 2: rows [5000·t, 5000·t + 5000) at point t -/

/-- The index maps over the ten points: the row block of the aggregated array and of the output is the point's
    number and their column block is zero; the bias row and the weights are always block (0, 0). -/
theorem index_facts2 : ∀ t : Fin cfg2.N,
      win2_3.index t (0 : Fin 2) = t.val ∧ win2_3.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- What point t writes back is block t of the index form of the stage's operand arrays: entry (p, q) of the body's
    result reads row p of the aggregated array's block t — row 5000·t + p of the array —, the bias row (b by hb) and
    column q of the whole weight matrix, and entry (p, q) of the output's block t is entry (5000·t + p, q) of the array. -/
theorem flushed2_eq (c : Dev nD) (t : Fin cfg2.N) (b : (⟨S128, .f32⟩ : BufTy).Contents (Elt Ideal))
    (hb : ∀ k : Fin 128, V c main_v67 (ix2 (0 : Fin 1) k) = b (ix1 k)) :
    (dat2 (F := Ideal) V c).flushed 3 t
      = ((cfg2.win 3).blk t).view.read (Elt Ideal) (fusedAt (V c main_v62) b (V c main_v66)) := by
  show (cfg2.win 3).cut (grid2.coords t) ((dat2 V c).after 3 t) = _
  rw [after2_3]
  unfold out2_3
  rw [View.canon_unit_zero zero_offsets]
  simp only [View.ld_unit_zero (S := S5000x128) zero_offsets, View.ld_unit_zero (S := S1x128) zero_offsets,
    View.ld_unit_zero (S := S128x128) zero_offsets]
  funext j
  show k2_pay1 (iblk2 V c 0 t) (iblk2 V c 1 t) (iblk2 V c 2 t) ((win2 3).xinj (grid2.coords t) j)
    = fusedAt (V c main_v62) b (V c main_v66) (((cfg2.win 3).blk t).view.emb j)
  obtain ⟨e30, e31, e00, e01, e10, e11, e20, e21⟩ := index_facts2 t
  have hj0 : (j 0).val < 5000 := (j 0).isLt
  have hj1 : (j 1).val < 128 := (j 1).isLt
  have hx : (win2 3).xinj (grid2.coords t) j = ix2 (⟨(j 0).val, hj0⟩ : Fin 5000) (⟨(j 1).val, hj1⟩ : Fin 128) := by
    funext a; match a with | ⟨0, _⟩ => rfl | ⟨1, _⟩ => rfl
  refine (congrArg (k2_pay1 (iblk2 V c 0 t) (iblk2 V c 1 t) (iblk2 V c 2 t)) hx).trans ?_
  refine (congrFun (congrFun (congrFun (congrFun pay2_eq _) _) _) _).trans ((payload_apply _ _ _ _ _).trans ?_)
  unfold fusedAt
  refine Finset.sum_congr rfl fun k _ => ?_
  -- the aggregated array: block row p at point t is array row 5000·t + p, the output block's row
  have h0 : iblk2 V c 0 t (ix2 (⟨(j 0).val, hj0⟩ : Fin 5000) k)
      = V c main_v62 (ix2 ((((cfg2.win 3).blk t).view.emb j) 0) k) := by
    show V c main_v62 (((cfg2.win 0).blk t).view.emb (ix2 (⟨(j 0).val, hj0⟩ : Fin 5000) k)) = _
    refine congrArg _ (funext fun a => Fin.ext ?_)
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega
  -- the bias row: its only block is the whole row
  have h1 : iblk2 V c 1 t (ix2 (0 : Fin 1) k) = b (ix1 k) := by
    refine Eq.trans ?_ (hb k)
    show V c main_v67 (((cfg2.win 1).blk t).view.emb (ix2 (0 : Fin 1) k)) = _
    refine congrArg _ (funext fun a => Fin.ext ?_)
    match a with
    | ⟨0, _⟩ => show win2_1.index t (0 : Fin 2) * 1 + 1 * 0 = 0; omega
    | ⟨1, _⟩ => show win2_1.index t (1 : Fin 2) * 128 + 1 * k.val = k.val; omega
  -- the weights: their only block is the whole matrix, and the output block's column is the array's
  have h2 : iblk2 V c 2 t (ix2 k (⟨(j 1).val, hj1⟩ : Fin 128))
      = V c main_v66 (ix2 k ((((cfg2.win 3).blk t).view.emb j) 1)) := by
    show V c main_v66 (((cfg2.win 2).blk t).view.emb (ix2 k (⟨(j 1).val, hj1⟩ : Fin 128))) = _
    refine congrArg _ (funext fun a => Fin.ext ?_)
    match a with
    | ⟨0, _⟩ => show win2_2.index t (0 : Fin 2) * 128 + 1 * k.val = k.val; omega
    | ⟨1, _⟩ => show win2_2.index t (1 : Fin 2) * 128 + 1 * (j 1).val = win2_3.index t (1 : Fin 2) * 128 + 1 * (j 1).val; omega
  rw [h0, h1, h2]

/-- An index of the output array is in point t's block iff each coordinate is in the block's range on its axis. -/
theorem mem_blk2 (t : Fin cfg2.N) (i : S50000x128.Idx) :
    i ∈ ((cfg2.win 3).blk t).view.set
      ↔ ∀ a : Fin 2, win2_3.index t a * S5000x128.size a ≤ (i a).val
          ∧ (i a).val < win2_3.index t a * S5000x128.size a + S5000x128.size a := by
  show i ∈ ((View.whole main_v68).slice (win2_3.rect t)).set ↔ _
  rw [View.set_slice_whole, Rect.mem_set_unit]
  exact Iff.rfl

/-- Every index of the output array lies in the block of the point that is its row divided by 5000, and every point
    writes its block back. -/
theorem cover2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have ht : (i 0).val / 5000 < cfg2.N := by show (i 0).val / 5000 < 10; omega
  refine ⟨⟨(i 0).val / 5000, ht⟩, flush2_3 _, ?_⟩
  rw [mem_blk2]
  obtain ⟨e30, e31, -⟩ := index_facts2 ⟨(i 0).val / 5000, ht⟩
  intro a
  match a with
  | ⟨0, _⟩ =>
    show win2_3.index _ (0 : Fin 2) * 5000 ≤ (i 0).val ∧ (i 0).val < win2_3.index _ (0 : Fin 2) * 5000 + 5000
    rw [e30]
    show (i 0).val / 5000 * 5000 ≤ (i 0).val ∧ (i 0).val < (i 0).val / 5000 * 5000 + 5000
    omega
  | ⟨1, _⟩ =>
    show win2_3.index _ (1 : Fin 2) * 128 ≤ (i 1).val ∧ (i 1).val < win2_3.index _ (1 : Fin 2) * 128 + 128
    rw [e31]
    omega

/-- Stage 2's output array after the region, index by index. -/
theorem region2_at (c : Dev nD) (b : (⟨S128, .f32⟩ : BufTy).Contents (Elt Ideal))
    (hb : ∀ k : Fin 128, V c main_v67 (ix2 (0 : Fin 1) k) = b (ix1 k)) :
    (dat2 (F := Ideal) V c).arrAt 3 cfg2.N = fusedAt (V c main_v62) b (V c main_v66) :=
  (dat2 V c).arrAt_eq_of_cover 3 _ (fun t _ => flushed2_eq V c t b hb) cover2

/-- STAGE 2. The whole output array after the region is the fused stage of the specification — the activation of the
    aggregated array against the bias, times the weights — of the operand arrays as the region finds them, for any
    bias vector b that the region's bias row buffer holds. -/
theorem region2 (c : Dev nD) (b : (⟨S128, .f32⟩ : BufTy).Contents (Elt Ideal))
    (hb : ∀ k : Fin 128, V c main_v67 (ix2 (0 : Fin 1) k) = b (ix1 k)) :
    (Gen.dat2 (F := Ideal) V c).arrAt 3 cfg2.N = Cert.Spec.fused (F := Ideal) (V c main_v62) b (V c main_v66) :=
  (region2_at V c b hb).trans (fused_eq_fusedAt _ _ _).symm

/-! ## Stage 3: rows [5000·t, 5000·t + 5000) at point t -/

/-- The index maps over the ten points: the row block of the aggregated array and of the output is the point's
    number and their column block is zero; the bias row and the weights are always block (0, 0). -/
theorem index_facts3 : ∀ t : Fin cfg3.N,
      win3_3.index t (0 : Fin 2) = t.val ∧ win3_3.index t (1 : Fin 2) = 0
    ∧ win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0 :=
  (by decide +kernel : ∀ t : Fin grid3.N, _)

/-- What point t writes back is block t of the index form of the stage's operand arrays: entry (p, q) of the body's
    result reads row p of the aggregated array's block t — row 5000·t + p of the array —, the bias row (b by hb) and
    column q of the whole weight matrix, and entry (p, q) of the output's block t is entry (5000·t + p, q) of the array. -/
theorem flushed3_eq (c : Dev nD) (t : Fin cfg3.N) (b : (⟨S128, .f32⟩ : BufTy).Contents (Elt Ideal))
    (hb : ∀ k : Fin 128, V c main_v86 (ix2 (0 : Fin 1) k) = b (ix1 k)) :
    (dat3 (F := Ideal) V c).flushed 3 t
      = ((cfg3.win 3).blk t).view.read (Elt Ideal) (fusedAt (V c main_v81) b (V c main_v85)) := by
  show (cfg3.win 3).cut (grid3.coords t) ((dat3 V c).after 3 t) = _
  rw [after3_3]
  unfold out3_3
  rw [View.canon_unit_zero zero_offsets]
  simp only [View.ld_unit_zero (S := S5000x128) zero_offsets, View.ld_unit_zero (S := S1x128) zero_offsets,
    View.ld_unit_zero (S := S128x128) zero_offsets]
  funext j
  show k3_pay1 (iblk3 V c 0 t) (iblk3 V c 1 t) (iblk3 V c 2 t) ((win3 3).xinj (grid3.coords t) j)
    = fusedAt (V c main_v81) b (V c main_v85) (((cfg3.win 3).blk t).view.emb j)
  obtain ⟨e30, e31, e00, e01, e10, e11, e20, e21⟩ := index_facts3 t
  have hj0 : (j 0).val < 5000 := (j 0).isLt
  have hj1 : (j 1).val < 128 := (j 1).isLt
  have hx : (win3 3).xinj (grid3.coords t) j = ix2 (⟨(j 0).val, hj0⟩ : Fin 5000) (⟨(j 1).val, hj1⟩ : Fin 128) := by
    funext a; match a with | ⟨0, _⟩ => rfl | ⟨1, _⟩ => rfl
  refine (congrArg (k3_pay1 (iblk3 V c 0 t) (iblk3 V c 1 t) (iblk3 V c 2 t)) hx).trans ?_
  refine (congrFun (congrFun (congrFun (congrFun pay3_eq _) _) _) _).trans ((payload_apply _ _ _ _ _).trans ?_)
  unfold fusedAt
  refine Finset.sum_congr rfl fun k _ => ?_
  -- the aggregated array: block row p at point t is array row 5000·t + p, the output block's row
  have h0 : iblk3 V c 0 t (ix2 (⟨(j 0).val, hj0⟩ : Fin 5000) k)
      = V c main_v81 (ix2 ((((cfg3.win 3).blk t).view.emb j) 0) k) := by
    show V c main_v81 (((cfg3.win 0).blk t).view.emb (ix2 (⟨(j 0).val, hj0⟩ : Fin 5000) k)) = _
    refine congrArg _ (funext fun a => Fin.ext ?_)
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 128 + 1 * k.val = k.val; omega
  -- the bias row: its only block is the whole row
  have h1 : iblk3 V c 1 t (ix2 (0 : Fin 1) k) = b (ix1 k) := by
    refine Eq.trans ?_ (hb k)
    show V c main_v86 (((cfg3.win 1).blk t).view.emb (ix2 (0 : Fin 1) k)) = _
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * k.val = k.val; omega
  -- the weights: their only block is the whole matrix, and the output block's column is the array's
  have h2 : iblk3 V c 2 t (ix2 k (⟨(j 1).val, hj1⟩ : Fin 128))
      = V c main_v85 (ix2 k ((((cfg3.win 3).blk t).view.emb j) 1)) := by
    show V c main_v85 (((cfg3.win 2).blk t).view.emb (ix2 k (⟨(j 1).val, hj1⟩ : Fin 128))) = _
    refine congrArg _ (funext fun a => Fin.ext ?_)
    match a with
    | ⟨0, _⟩ => show win3_2.index t (0 : Fin 2) * 128 + 1 * k.val = k.val; omega
    | ⟨1, _⟩ => show win3_2.index t (1 : Fin 2) * 128 + 1 * (j 1).val = win3_3.index t (1 : Fin 2) * 128 + 1 * (j 1).val; omega
  rw [h0, h1, h2]

/-- An index of the output array is in point t's block iff each coordinate is in the block's range on its axis. -/
theorem mem_blk3 (t : Fin cfg3.N) (i : S50000x128.Idx) :
    i ∈ ((cfg3.win 3).blk t).view.set
      ↔ ∀ a : Fin 2, win3_3.index t a * S5000x128.size a ≤ (i a).val
          ∧ (i a).val < win3_3.index t a * S5000x128.size a + S5000x128.size a := by
  show i ∈ ((View.whole main_v87).slice (win3_3.rect t)).set ↔ _
  rw [View.set_slice_whole, Rect.mem_set_unit]
  exact Iff.rfl

/-- Every index of the output array lies in the block of the point that is its row divided by 5000, and every point
    writes its block back. -/
theorem cover3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have ht : (i 0).val / 5000 < cfg3.N := by show (i 0).val / 5000 < 10; omega
  refine ⟨⟨(i 0).val / 5000, ht⟩, flush3_3 _, ?_⟩
  rw [mem_blk3]
  obtain ⟨e30, e31, -⟩ := index_facts3 ⟨(i 0).val / 5000, ht⟩
  intro a
  match a with
  | ⟨0, _⟩ =>
    show win3_3.index _ (0 : Fin 2) * 5000 ≤ (i 0).val ∧ (i 0).val < win3_3.index _ (0 : Fin 2) * 5000 + 5000
    rw [e30]
    show (i 0).val / 5000 * 5000 ≤ (i 0).val ∧ (i 0).val < (i 0).val / 5000 * 5000 + 5000
    omega
  | ⟨1, _⟩ =>
    show win3_3.index _ (1 : Fin 2) * 128 ≤ (i 1).val ∧ (i 1).val < win3_3.index _ (1 : Fin 2) * 128 + 128
    rw [e31]
    omega

/-- Stage 3's output array after the region, index by index. -/
theorem region3_at (c : Dev nD) (b : (⟨S128, .f32⟩ : BufTy).Contents (Elt Ideal))
    (hb : ∀ k : Fin 128, V c main_v86 (ix2 (0 : Fin 1) k) = b (ix1 k)) :
    (dat3 (F := Ideal) V c).arrAt 3 cfg3.N = fusedAt (V c main_v81) b (V c main_v85) :=
  (dat3 V c).arrAt_eq_of_cover 3 _ (fun t _ => flushed3_eq V c t b hb) cover3

/-- STAGE 3. The whole output array after the region is the fused stage of the specification — the activation of the
    aggregated array against the bias, times the weights — of the operand arrays as the region finds them, for any
    bias vector b that the region's bias row buffer holds. -/
theorem region3 (c : Dev nD) (b : (⟨S128, .f32⟩ : BufTy).Contents (Elt Ideal))
    (hb : ∀ k : Fin 128, V c main_v86 (ix2 (0 : Fin 1) k) = b (ix1 k)) :
    (Gen.dat3 (F := Ideal) V c).arrAt 3 cfg3.N = Cert.Spec.fused (F := Ideal) (V c main_v81) b (V c main_v85) :=
  (region3_at V c b hb).trans (fused_eq_fusedAt _ _ _).symm

/-! ## Stage 4: rows [5000·t, 5000·t + 5000) at point t -/

/-- The index maps over the ten points: the row block of the aggregated array and of the output is the point's
    number and their column block is zero; the bias row and the weights are always block (0, 0). -/
theorem index_facts4 : ∀ t : Fin cfg4.N,
      win4_3.index t (0 : Fin 2) = t.val ∧ win4_3.index t (1 : Fin 2) = 0
    ∧ win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0 :=
  (by decide +kernel : ∀ t : Fin grid4.N, _)

/-- What point t writes back is block t of the index form of the stage's operand arrays: entry (p, q) of the body's
    result reads row p of the aggregated array's block t — row 5000·t + p of the array —, the bias row (b by hb) and
    column q of the whole weight matrix, and entry (p, q) of the output's block t is entry (5000·t + p, q) of the array. -/
theorem flushed4_eq (c : Dev nD) (t : Fin cfg4.N) (b : (⟨S128, .f32⟩ : BufTy).Contents (Elt Ideal))
    (hb : ∀ k : Fin 128, V c main_v105 (ix2 (0 : Fin 1) k) = b (ix1 k)) :
    (dat4 (F := Ideal) V c).flushed 3 t
      = ((cfg4.win 3).blk t).view.read (Elt Ideal) (fusedAt (V c main_v100) b (V c main_v104)) := by
  show (cfg4.win 3).cut (grid4.coords t) ((dat4 V c).after 3 t) = _
  rw [after4_3]
  unfold out4_3
  rw [View.canon_unit_zero zero_offsets]
  simp only [View.ld_unit_zero (S := S5000x128) zero_offsets, View.ld_unit_zero (S := S1x128) zero_offsets,
    View.ld_unit_zero (S := S128x128) zero_offsets]
  funext j
  show k4_pay1 (iblk4 V c 0 t) (iblk4 V c 1 t) (iblk4 V c 2 t) ((win4 3).xinj (grid4.coords t) j)
    = fusedAt (V c main_v100) b (V c main_v104) (((cfg4.win 3).blk t).view.emb j)
  obtain ⟨e30, e31, e00, e01, e10, e11, e20, e21⟩ := index_facts4 t
  have hj0 : (j 0).val < 5000 := (j 0).isLt
  have hj1 : (j 1).val < 128 := (j 1).isLt
  have hx : (win4 3).xinj (grid4.coords t) j = ix2 (⟨(j 0).val, hj0⟩ : Fin 5000) (⟨(j 1).val, hj1⟩ : Fin 128) := by
    funext a; match a with | ⟨0, _⟩ => rfl | ⟨1, _⟩ => rfl
  refine (congrArg (k4_pay1 (iblk4 V c 0 t) (iblk4 V c 1 t) (iblk4 V c 2 t)) hx).trans ?_
  refine (congrFun (congrFun (congrFun (congrFun pay4_eq _) _) _) _).trans ((payload_apply _ _ _ _ _).trans ?_)
  unfold fusedAt
  refine Finset.sum_congr rfl fun k _ => ?_
  -- the aggregated array: block row p at point t is array row 5000·t + p, the output block's row
  have h0 : iblk4 V c 0 t (ix2 (⟨(j 0).val, hj0⟩ : Fin 5000) k)
      = V c main_v100 (ix2 ((((cfg4.win 3).blk t).view.emb j) 0) k) := by
    show V c main_v100 (((cfg4.win 0).blk t).view.emb (ix2 (⟨(j 0).val, hj0⟩ : Fin 5000) k)) = _
    refine congrArg _ (funext fun a => Fin.ext ?_)
    match a with
    | ⟨0, _⟩ => show win4_0.index t (0 : Fin 2) * 5000 + 1 * (j 0).val = win4_3.index t (0 : Fin 2) * 5000 + 1 * (j 0).val; omega
    | ⟨1, _⟩ => show win4_0.index t (1 : Fin 2) * 128 + 1 * k.val = k.val; omega
  -- the bias row: its only block is the whole row
  have h1 : iblk4 V c 1 t (ix2 (0 : Fin 1) k) = b (ix1 k) := by
    refine Eq.trans ?_ (hb k)
    show V c main_v105 (((cfg4.win 1).blk t).view.emb (ix2 (0 : Fin 1) k)) = _
    refine congrArg _ (funext fun a => Fin.ext ?_)
    match a with
    | ⟨0, _⟩ => show win4_1.index t (0 : Fin 2) * 1 + 1 * 0 = 0; omega
    | ⟨1, _⟩ => show win4_1.index t (1 : Fin 2) * 128 + 1 * k.val = k.val; omega
  -- the weights: their only block is the whole matrix, and the output block's column is the array's
  have h2 : iblk4 V c 2 t (ix2 k (⟨(j 1).val, hj1⟩ : Fin 128))
      = V c main_v104 (ix2 k ((((cfg4.win 3).blk t).view.emb j) 1)) := by
    show V c main_v104 (((cfg4.win 2).blk t).view.emb (ix2 k (⟨(j 1).val, hj1⟩ : Fin 128))) = _
    refine congrArg _ (funext fun a => Fin.ext ?_)
    match a with
    | ⟨0, _⟩ => show win4_2.index t (0 : Fin 2) * 128 + 1 * k.val = k.val; omega
    | ⟨1, _⟩ => show win4_2.index t (1 : Fin 2) * 128 + 1 * (j 1).val = win4_3.index t (1 : Fin 2) * 128 + 1 * (j 1).val; omega
  rw [h0, h1, h2]

/-- An index of the output array is in point t's block iff each coordinate is in the block's range on its axis. -/
theorem mem_blk4 (t : Fin cfg4.N) (i : S50000x128.Idx) :
    i ∈ ((cfg4.win 3).blk t).view.set
      ↔ ∀ a : Fin 2, win4_3.index t a * S5000x128.size a ≤ (i a).val
          ∧ (i a).val < win4_3.index t a * S5000x128.size a + S5000x128.size a := by
  show i ∈ ((View.whole main_v106).slice (win4_3.rect t)).set ↔ _
  rw [View.set_slice_whole, Rect.mem_set_unit]
  exact Iff.rfl

/-- Every index of the output array lies in the block of the point that is its row divided by 5000, and every point
    writes its block back. -/
theorem cover4 (i : S50000x128.Idx) :
    ∃ t : Fin cfg4.N, (cfg4.win 3).flush t = true ∧ i ∈ ((cfg4.win 3).blk t).view.set := by
  have hi0 : (i 0).val < 50000 := (i 0).isLt
  have hi1 : (i 1).val < 128 := (i 1).isLt
  have ht : (i 0).val / 5000 < cfg4.N := by show (i 0).val / 5000 < 10; omega
  refine ⟨⟨(i 0).val / 5000, ht⟩, flush4_3 _, ?_⟩
  rw [mem_blk4]
  obtain ⟨e30, e31, -⟩ := index_facts4 ⟨(i 0).val / 5000, ht⟩
  intro a
  match a with
  | ⟨0, _⟩ =>
    show win4_3.index _ (0 : Fin 2) * 5000 ≤ (i 0).val ∧ (i 0).val < win4_3.index _ (0 : Fin 2) * 5000 + 5000
    rw [e30]
    show (i 0).val / 5000 * 5000 ≤ (i 0).val ∧ (i 0).val < (i 0).val / 5000 * 5000 + 5000
    omega
  | ⟨1, _⟩ =>
    show win4_3.index _ (1 : Fin 2) * 128 ≤ (i 1).val ∧ (i 1).val < win4_3.index _ (1 : Fin 2) * 128 + 128
    rw [e31]
    omega

/-- Stage 4's output array after the region, index by index. -/
theorem region4_at (c : Dev nD) (b : (⟨S128, .f32⟩ : BufTy).Contents (Elt Ideal))
    (hb : ∀ k : Fin 128, V c main_v105 (ix2 (0 : Fin 1) k) = b (ix1 k)) :
    (dat4 (F := Ideal) V c).arrAt 3 cfg4.N = fusedAt (V c main_v100) b (V c main_v104) :=
  (dat4 V c).arrAt_eq_of_cover 3 _ (fun t _ => flushed4_eq V c t b hb) cover4

/-- STAGE 4. The whole output array after the region is the fused stage of the specification — the activation of the
    aggregated array against the bias, times the weights — of the operand arrays as the region finds them, for any
    bias vector b that the region's bias row buffer holds. -/
theorem region4 (c : Dev nD) (b : (⟨S128, .f32⟩ : BufTy).Contents (Elt Ideal))
    (hb : ∀ k : Fin 128, V c main_v105 (ix2 (0 : Fin 1) k) = b (ix1 k)) :
    (Gen.dat4 (F := Ideal) V c).arrAt 3 cfg4.N = Cert.Spec.fused (F := Ideal) (V c main_v100) b (V c main_v104) :=
  (region4_at V c b hb).trans (fused_eq_fusedAt _ _ _).symm

/-! ## Stage 5: rows [5000·t, 5000·t + 5000) at point t -/

/-- The index maps over the ten points: the row block of the aggregated array and of the output is the point's
    number and their column block is zero; the bias row and the weights are always block (0, 0). -/
theorem index_facts5 : ∀ t : Fin cfg5.N,
      win5_3.index t (0 : Fin 2) = t.val ∧ win5_3.index t (1 : Fin 2) = 0
    ∧ win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0 :=
  (by decide +kernel : ∀ t : Fin grid5.N, _)

/-- What point t writes back is block t of the index form of the stage's operand arrays: entry (p, q) of the body's
    result reads row p of the aggregated array's block t — row 5000·t + p of the array —, the bias row (b by hb) and
    column q of the whole weight matrix, and entry (p, q) of the output's block t is entry (5000·t + p, q) of the array. -/
theorem flushed5_eq (c : Dev nD) (t : Fin cfg5.N) (b : (⟨S128, .f32⟩ : BufTy).Contents (Elt Ideal))
    (hb : ∀ k : Fin 128, V c main_v124 (ix2 (0 : Fin 1) k) = b (ix1 k)) :
    (dat5 (F := Ideal) V c).flushed 3 t
      = ((cfg5.win 3).blk t).view.read (Elt Ideal) (fusedAt (V c main_v119) b (V c main_v123)) := by
  show (cfg5.win 3).cut (grid5.coords t) ((dat5 V c).after 3 t) = _
  rw [after5_3]
  unfold out5_3
  rw [View.canon_unit_zero zero_offsets]
  simp only [View.ld_unit_zero (S := S5000x128) zero_offsets, View.ld_unit_zero (S := S1x128) zero_offsets,
    View.ld_unit_zero (S := S128x128) zero_offsets]
  funext j
  show k5_pay1 (iblk5 V c 0 t) (iblk5 V c 1 t) (iblk5 V c 2 t) ((win5 3).xinj (grid5.coords t) j)
    = fusedAt (V c main_v119) b (V c main_v123) (((cfg5.win 3).blk t).view.emb j)
  obtain ⟨e30, e31, e00, e01, e10, e11, e20, e21⟩ := index_facts5 t
  have hj0 : (j 0).val < 5000 := (j 0).isLt
  have hj1 : (j 1).val < 128 := (j 1).isLt
  have hx : (win5 3).xinj (grid5.coords t) j = ix2 (⟨(j 0).val, hj0⟩ : Fin 5000) (⟨(j 1).val, hj1⟩ : Fin 128) := by
    funext a; match a with | ⟨0, _⟩ => rfl | ⟨1, _⟩ => rfl
  refine (congrArg (k5_pay1 (iblk5 V c 0 t) (iblk5 V c 1 t) (iblk5 V c 2 t)) hx).trans ?_
  refine (congrFun (congrFun (congrFun (congrFun pay5_eq _) _) _) _).trans ((payload_apply _ _ _ _ _).trans ?_)
  unfold fusedAt
  refine Finset.sum_congr rfl fun k _ => ?_
  -- the aggregated array: block row p at point t is array row 5000·t + p, the output block's row
  have h0 : iblk5 V c 0 t (ix2 (⟨(j 0).val, hj0⟩ : Fin 5000) k)
      = V c main_v119 (ix2 ((((cfg5.win 3).blk t).view.emb j) 0) k) := by
    show V c main_v119 (((cfg5.win 0).blk t).view.emb (ix2 (⟨(j 0).val, hj0⟩ : Fin 5000) k)) = _
    refine congrArg _ (funext fun a => Fin.ext ?_)
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 128 + 1 * k.val = k.val; omega
  -- the bias row: its only block is the whole row
  have h1 : iblk5 V c 1 t (ix2 (0 : Fin 1) k) = b (ix1 k) := by
    refine Eq.trans ?_ (hb k)
    show V c main_v124 (((cfg5.win 1).blk t).view.emb (ix2 (0 : Fin 1) k)) = _
    refine congrArg _ (funext fun a => Fin.ext ?_)
    match a with
    | ⟨0, _⟩ => show win5_1.index t (0 : Fin 2) * 1 + 1 * 0 = 0; omega
    | ⟨1, _⟩ => show win5_1.index t (1 : Fin 2) * 128 + 1 * k.val = k.val; omega
  -- the weights: their only block is the whole matrix, and the output block's column is the array's
  have h2 : iblk5 V c 2 t (ix2 k (⟨(j 1).val, hj1⟩ : Fin 128))
      = V c main_v123 (ix2 k ((((cfg5.win 3).blk t).view.emb j) 1)) := by
    show V c main_v123 (((cfg5.win 2).blk t).view.emb (ix2 k (⟨(j 1).val, hj1⟩ : Fin 128))) = _
    refine congrArg _ (funext fun a => Fin.ext ?_)
    match a with
    | ⟨0, _⟩ => show win5_2.index t (0 : Fin 2) * 128 + 1 * k.val = k.val; omega
    | ⟨1, _⟩ => show win5_2.index t (1 : Fin 2) * 128 + 1 * (j 1).val = win5_3.index t (1 : Fin 2) * 128 + 1 * (j 1).val; omega
  rw [h0, h1, h2]

/-- An index of the output array is in point t's block iff each coordinate is in the block's range on its axis. -/
theorem mem_blk5 (t : Fin cfg5.N) (i : S50000x128.Idx) :
    i ∈ ((cfg5.win 3).blk t).view.set
      ↔ ∀ a : Fin 2, win5_3.index t a * S5000x128.size a ≤ (i a).val
          ∧ (i a).val < win5_3.index t a * S5000x128.size a + S5000x128.size a := by
  show i ∈ ((View.whole main_v125).slice (win5_3.rect t)).set ↔ _
  rw [View.set_slice_whole, Rect.mem_set_unit]
  exact Iff.rfl

/-- Every index of the output array lies in the block of the point that is its row divided by 5000, and every point
    writes its block back. -/
theorem cover5 (i : S50000x128.Idx) :
    ∃ t : Fin cfg5.N, (cfg5.win 3).flush t = true ∧ i ∈ ((cfg5.win 3).blk t).view.set := by
  have hi0 : (i 0).val < 50000 := (i 0).isLt
  have hi1 : (i 1).val < 128 := (i 1).isLt
  have ht : (i 0).val / 5000 < cfg5.N := by show (i 0).val / 5000 < 10; omega
  refine ⟨⟨(i 0).val / 5000, ht⟩, flush5_3 _, ?_⟩
  rw [mem_blk5]
  obtain ⟨e30, e31, -⟩ := index_facts5 ⟨(i 0).val / 5000, ht⟩
  intro a
  match a with
  | ⟨0, _⟩ =>
    show win5_3.index _ (0 : Fin 2) * 5000 ≤ (i 0).val ∧ (i 0).val < win5_3.index _ (0 : Fin 2) * 5000 + 5000
    rw [e30]
    show (i 0).val / 5000 * 5000 ≤ (i 0).val ∧ (i 0).val < (i 0).val / 5000 * 5000 + 5000
    omega
  | ⟨1, _⟩ =>
    show win5_3.index _ (1 : Fin 2) * 128 ≤ (i 1).val ∧ (i 1).val < win5_3.index _ (1 : Fin 2) * 128 + 128
    rw [e31]
    omega

/-- Stage 5's output array after the region, index by index. -/
theorem region5_at (c : Dev nD) (b : (⟨S128, .f32⟩ : BufTy).Contents (Elt Ideal))
    (hb : ∀ k : Fin 128, V c main_v124 (ix2 (0 : Fin 1) k) = b (ix1 k)) :
    (dat5 (F := Ideal) V c).arrAt 3 cfg5.N = fusedAt (V c main_v119) b (V c main_v123) :=
  (dat5 V c).arrAt_eq_of_cover 3 _ (fun t _ => flushed5_eq V c t b hb) cover5

/-- STAGE 5. The whole output array after the region is the fused stage of the specification — the activation of the
    aggregated array against the bias, times the weights — of the operand arrays as the region finds them, for any
    bias vector b that the region's bias row buffer holds. -/
theorem region5 (c : Dev nD) (b : (⟨S128, .f32⟩ : BufTy).Contents (Elt Ideal))
    (hb : ∀ k : Fin 128, V c main_v124 (ix2 (0 : Fin 1) k) = b (ix1 k)) :
    (Gen.dat5 (F := Ideal) V c).arrAt 3 cfg5.N = Cert.Spec.fused (F := Ideal) (V c main_v119) b (V c main_v123) :=
  (region5_at V c b hb).trans (fused_eq_fusedAt _ _ _).symm

/-! ## Stage 6: rows [5000·t, 5000·t + 5000) at point t -/

/-- The index maps over the ten points: the row block of the aggregated array and of the output is the point's
    number and their column block is zero; the bias row and the weights are always block (0, 0). -/
theorem index_facts6 : ∀ t : Fin cfg6.N,
      win6_3.index t (0 : Fin 2) = t.val ∧ win6_3.index t (1 : Fin 2) = 0
    ∧ win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0 :=
  (by decide +kernel : ∀ t : Fin grid6.N, _)

/-- What point t writes back is block t of the index form of the stage's operand arrays: entry (p, q) of the body's
    result reads row p of the aggregated array's block t — row 5000·t + p of the array —, the bias row (b by hb) and
    column q of the whole weight matrix, and entry (p, q) of the output's block t is entry (5000·t + p, q) of the array. -/
theorem flushed6_eq (c : Dev nD) (t : Fin cfg6.N) (b : (⟨S128, .f32⟩ : BufTy).Contents (Elt Ideal))
    (hb : ∀ k : Fin 128, V c main_v143 (ix2 (0 : Fin 1) k) = b (ix1 k)) :
    (dat6 (F := Ideal) V c).flushed 3 t
      = ((cfg6.win 3).blk t).view.read (Elt Ideal) (fusedAt (V c main_v138) b (V c main_v142)) := by
  show (cfg6.win 3).cut (grid6.coords t) ((dat6 V c).after 3 t) = _
  rw [after6_3]
  unfold out6_3
  rw [View.canon_unit_zero zero_offsets]
  simp only [View.ld_unit_zero (S := S5000x128) zero_offsets, View.ld_unit_zero (S := S1x128) zero_offsets,
    View.ld_unit_zero (S := S128x128) zero_offsets]
  funext j
  show k6_pay1 (iblk6 V c 0 t) (iblk6 V c 1 t) (iblk6 V c 2 t) ((win6 3).xinj (grid6.coords t) j)
    = fusedAt (V c main_v138) b (V c main_v142) (((cfg6.win 3).blk t).view.emb j)
  obtain ⟨e30, e31, e00, e01, e10, e11, e20, e21⟩ := index_facts6 t
  have hj0 : (j 0).val < 5000 := (j 0).isLt
  have hj1 : (j 1).val < 128 := (j 1).isLt
  have hx : (win6 3).xinj (grid6.coords t) j = ix2 (⟨(j 0).val, hj0⟩ : Fin 5000) (⟨(j 1).val, hj1⟩ : Fin 128) := by
    funext a; match a with | ⟨0, _⟩ => rfl | ⟨1, _⟩ => rfl
  refine (congrArg (k6_pay1 (iblk6 V c 0 t) (iblk6 V c 1 t) (iblk6 V c 2 t)) hx).trans ?_
  refine (congrFun (congrFun (congrFun (congrFun pay6_eq _) _) _) _).trans ((payload_apply _ _ _ _ _).trans ?_)
  unfold fusedAt
  refine Finset.sum_congr rfl fun k _ => ?_
  -- the aggregated array: block row p at point t is array row 5000·t + p, the output block's row
  have h0 : iblk6 V c 0 t (ix2 (⟨(j 0).val, hj0⟩ : Fin 5000) k)
      = V c main_v138 (ix2 ((((cfg6.win 3).blk t).view.emb j) 0) k) := by
    show V c main_v138 (((cfg6.win 0).blk t).view.emb (ix2 (⟨(j 0).val, hj0⟩ : Fin 5000) k)) = _
    refine congrArg _ (funext fun a => Fin.ext ?_)
    match a with
    | ⟨0, _⟩ => show win6_0.index t (0 : Fin 2) * 5000 + 1 * (j 0).val = win6_3.index t (0 : Fin 2) * 5000 + 1 * (j 0).val; omega
    | ⟨1, _⟩ => show win6_0.index t (1 : Fin 2) * 128 + 1 * k.val = k.val; omega
  -- the bias row: its only block is the whole row
  have h1 : iblk6 V c 1 t (ix2 (0 : Fin 1) k) = b (ix1 k) := by
    refine Eq.trans ?_ (hb k)
    show V c main_v143 (((cfg6.win 1).blk t).view.emb (ix2 (0 : Fin 1) k)) = _
    refine congrArg _ (funext fun a => Fin.ext ?_)
    match a with
    | ⟨0, _⟩ => show win6_1.index t (0 : Fin 2) * 1 + 1 * 0 = 0; omega
    | ⟨1, _⟩ => show win6_1.index t (1 : Fin 2) * 128 + 1 * k.val = k.val; omega
  -- the weights: their only block is the whole matrix, and the output block's column is the array's
  have h2 : iblk6 V c 2 t (ix2 k (⟨(j 1).val, hj1⟩ : Fin 128))
      = V c main_v142 (ix2 k ((((cfg6.win 3).blk t).view.emb j) 1)) := by
    show V c main_v142 (((cfg6.win 2).blk t).view.emb (ix2 k (⟨(j 1).val, hj1⟩ : Fin 128))) = _
    refine congrArg _ (funext fun a => Fin.ext ?_)
    match a with
    | ⟨0, _⟩ => show win6_2.index t (0 : Fin 2) * 128 + 1 * k.val = k.val; omega
    | ⟨1, _⟩ => show win6_2.index t (1 : Fin 2) * 128 + 1 * (j 1).val = win6_3.index t (1 : Fin 2) * 128 + 1 * (j 1).val; omega
  rw [h0, h1, h2]

/-- An index of the output array is in point t's block iff each coordinate is in the block's range on its axis. -/
theorem mem_blk6 (t : Fin cfg6.N) (i : S50000x128.Idx) :
    i ∈ ((cfg6.win 3).blk t).view.set
      ↔ ∀ a : Fin 2, win6_3.index t a * S5000x128.size a ≤ (i a).val
          ∧ (i a).val < win6_3.index t a * S5000x128.size a + S5000x128.size a := by
  show i ∈ ((View.whole main_v144).slice (win6_3.rect t)).set ↔ _
  rw [View.set_slice_whole, Rect.mem_set_unit]
  exact Iff.rfl

/-- Every index of the output array lies in the block of the point that is its row divided by 5000, and every point
    writes its block back. -/
theorem cover6 (i : S50000x128.Idx) :
    ∃ t : Fin cfg6.N, (cfg6.win 3).flush t = true ∧ i ∈ ((cfg6.win 3).blk t).view.set := by
  have hi0 : (i 0).val < 50000 := (i 0).isLt
  have hi1 : (i 1).val < 128 := (i 1).isLt
  have ht : (i 0).val / 5000 < cfg6.N := by show (i 0).val / 5000 < 10; omega
  refine ⟨⟨(i 0).val / 5000, ht⟩, flush6_3 _, ?_⟩
  rw [mem_blk6]
  obtain ⟨e30, e31, -⟩ := index_facts6 ⟨(i 0).val / 5000, ht⟩
  intro a
  match a with
  | ⟨0, _⟩ =>
    show win6_3.index _ (0 : Fin 2) * 5000 ≤ (i 0).val ∧ (i 0).val < win6_3.index _ (0 : Fin 2) * 5000 + 5000
    rw [e30]
    show (i 0).val / 5000 * 5000 ≤ (i 0).val ∧ (i 0).val < (i 0).val / 5000 * 5000 + 5000
    omega
  | ⟨1, _⟩ =>
    show win6_3.index _ (1 : Fin 2) * 128 ≤ (i 1).val ∧ (i 1).val < win6_3.index _ (1 : Fin 2) * 128 + 128
    rw [e31]
    omega

/-- Stage 6's output array after the region, index by index. -/
theorem region6_at (c : Dev nD) (b : (⟨S128, .f32⟩ : BufTy).Contents (Elt Ideal))
    (hb : ∀ k : Fin 128, V c main_v143 (ix2 (0 : Fin 1) k) = b (ix1 k)) :
    (dat6 (F := Ideal) V c).arrAt 3 cfg6.N = fusedAt (V c main_v138) b (V c main_v142) :=
  (dat6 V c).arrAt_eq_of_cover 3 _ (fun t _ => flushed6_eq V c t b hb) cover6

/-- STAGE 6. The whole output array after the region is the fused stage of the specification — the activation of the
    aggregated array against the bias, times the weights — of the operand arrays as the region finds them, for any
    bias vector b that the region's bias row buffer holds. -/
theorem region6 (c : Dev nD) (b : (⟨S128, .f32⟩ : BufTy).Contents (Elt Ideal))
    (hb : ∀ k : Fin 128, V c main_v143 (ix2 (0 : Fin 1) k) = b (ix1 k)) :
    (Gen.dat6 (F := Ideal) V c).arrAt 3 cfg6.N = Cert.Spec.fused (F := Ideal) (V c main_v138) b (V c main_v142) :=
  (region6_at V c b hb).trans (fused_eq_fusedAt _ _ _).symm

end Cert.KernelIdeal.RegionValue

end
-- ==== Proof.Walk.lean ====
/-
  The idealized kernel program's result as the network's function of its nine arguments.

  The buffer contents at the nineteen segment boundaries are followed from the launch memory to the return. Before
  the first region the host builds the source list, the target list and the normalized weights; these, and the
  arguments read later, then stay in their buffers through every segment (no stretch writes them, and a region writes
  its output array only). Each region leaves its dense stage of the array the stretch before it propagated
  (RegionEnds.lean, RegionFused.lean), each stretch propagates the region's output (Stretches.lean), and after the
  last stretch the result buffer holds `Layers.out` of the arguments.
-/
import proofs.«116386_j10213432230582_1_alg».proof.Proof.Gen.KernelIdeal.Frame
import proofs.«116386_j10213432230582_1_alg».proof.Proof.Stretches
import proofs.«116386_j10213432230582_1_alg».proof.Proof.RegionEnds
import proofs.«116386_j10213432230582_1_alg».proof.Proof.RegionFused

set_option maxRecDepth 16384

noncomputable section

namespace Cert.KernelIdeal.Walk

open Cert.KernelIdeal Cert.KernelIdeal.Gen Cert.KernelIdeal.Stretches
open Idealize.ShloMosaic Idealize.ShloMosaic.TcCoe Idealize.ShloMosaic.StableHlo Idealize.ShloMosaic.ValueIdx

variable (m : (ℓ : Loc nD τ sig) → Buf (Elt Ideal) ℓ) (ρ : Dev nD → PrngReg) (c : Dev nD)

/-! ## The lists, the normalized weights and the arguments read later stay in their buffers -/

/-- The contents `W` hold the source list, the target list, the normalized weights and the five arguments the later
    stretches read, each in its buffer. -/
structure Live (W : Valuation τ sig (Elt Ideal)) : Prop where
  src : W (Proc.devRef .tc main_v3) = Cert.Layers.srcv (m ((c : Thread nD τ).loc main_arg1))
  dst : W (Proc.devRef .tc main_v6) = Cert.Layers.dstv (m ((c : Thread nD τ).loc main_arg1))
  nrm : W (Proc.devRef .tc main_v31) = Cert.Layers.normv (m ((c : Thread nD τ).loc main_arg1)) (m ((c : Thread nD τ).loc main_arg2))
  a4 : W (Proc.devRef .tc main_arg4) = (m ((c : Thread nD τ).loc main_arg4))
  a5 : W (Proc.devRef .tc main_arg5) = (m ((c : Thread nD τ).loc main_arg5))
  a6 : W (Proc.devRef .tc main_arg6) = (m ((c : Thread nD τ).loc main_arg6))
  a7 : W (Proc.devRef .tc main_arg7) = (m ((c : Thread nD τ).loc main_arg7))
  a8 : W (Proc.devRef .tc main_arg8) = (m ((c : Thread nD τ).loc main_arg8))

/-- Contents that agree with `W` on those eight buffers hold them too. -/
theorem Live.step {W W' : Valuation τ sig (Elt Ideal)}
    (hk : W' (Proc.devRef .tc main_v3) = W (Proc.devRef .tc main_v3)
      ∧ W' (Proc.devRef .tc main_v6) = W (Proc.devRef .tc main_v6)
      ∧ W' (Proc.devRef .tc main_v31) = W (Proc.devRef .tc main_v31)
      ∧ W' (Proc.devRef .tc main_arg4) = W (Proc.devRef .tc main_arg4)
      ∧ W' (Proc.devRef .tc main_arg5) = W (Proc.devRef .tc main_arg5)
      ∧ W' (Proc.devRef .tc main_arg6) = W (Proc.devRef .tc main_arg6)
      ∧ W' (Proc.devRef .tc main_arg7) = W (Proc.devRef .tc main_arg7)
      ∧ W' (Proc.devRef .tc main_arg8) = W (Proc.devRef .tc main_arg8))
    (h : Live m c W) : Live m c W' :=
  ⟨hk.1.trans h.src, hk.2.1.trans h.dst, hk.2.2.1.trans h.nrm, hk.2.2.2.1.trans h.a4, hk.2.2.2.2.1.trans h.a5,
   hk.2.2.2.2.2.1.trans h.a6, hk.2.2.2.2.2.2.1.trans h.a7, hk.2.2.2.2.2.2.2.trans h.a8⟩

/-! ## The walk through the nineteen segments -/

/-- At the first region's entry the lists and the normalized weights are built and the arguments untouched. -/
theorem live3 : Live m c (W3 m ρ c) :=
  ⟨pre_src (W0 m ρ c), pre_dst (W0 m ρ c), pre_norm (W0 m ρ c), (pre_args (W0 m ρ c)).2.2.1, (pre_args (W0 m ρ c)).2.2.2.1,
   (pre_args (W0 m ρ c)).2.2.2.2.1, (pre_args (W0 m ρ c)).2.2.2.2.2.1, (pre_args (W0 m ρ c)).2.2.2.2.2.2⟩
theorem W3_arg0 : W3 m ρ c (Proc.devRef .tc main_arg0) = (m ((c : Thread nD τ).loc main_arg0)) := (pre_args (W0 m ρ c)).1
theorem W3_arg3 : W3 m ρ c (Proc.devRef .tc main_arg3) = (m ((c : Thread nD τ).loc main_arg3)) := (pre_args (W0 m ρ c)).2.1

/-! ### Region 0 and the stretch after it -/

/-- Region 0 writes its output array only. -/
theorem live4 : Live m c (W4 m ρ c) :=
  Live.step m c ⟨W4_of_ne m ρ c main_v3 (by decide), W4_of_ne m ρ c main_v6 (by decide), W4_of_ne m ρ c main_v31 (by decide), W4_of_ne m ρ c main_arg4 (by decide), W4_of_ne m ρ c main_arg5 (by decide), W4_of_ne m ρ c main_arg6 (by decide), W4_of_ne m ρ c main_arg7 (by decide), W4_of_ne m ρ c main_arg8 (by decide)⟩ (live3 m ρ c)
/-- Region 0 leaves the product of the node features with the first weight matrix. -/
theorem out0 : W4 m ρ c (Proc.devRef .tc main_v32) = (Cert.Spec.mm (m ((c : Thread nD τ).loc main_arg0)) (m ((c : Thread nD τ).loc main_arg3))) :=
  (W4_arr m ρ c 2).trans ((Cert.KernelIdeal.RegionEnds.region0 (V3 m ρ) c).trans
    (congrArg₂ Cert.Spec.mm (W3_arg0 m ρ c) (W3_arg3 m ρ c)))
theorem live5 : Live m c (W5 m ρ c) := Live.step m c (s1_keep (W4 m ρ c)) (live4 m ρ c)
/-- The stretch propagates region 0's output. -/
theorem agg1 : W5 m ρ c (Proc.devRef .tc main_v45) = (Cert.Layers.h1 (m ((c : Thread nD τ).loc main_arg0)) (m ((c : Thread nD τ).loc main_arg1)) (m ((c : Thread nD τ).loc main_arg2)) (m ((c : Thread nD τ).loc main_arg3))) :=
  (s1_agg (W4 m ρ c)).trans (by
    rw [(live4 m ρ c).dst, (live4 m ρ c).nrm, (live4 m ρ c).src, out0 m ρ c]; exact (Cert.Layers.h1_eq (m ((c : Thread nD τ).loc main_arg0)) (m ((c : Thread nD τ).loc main_arg1)) (m ((c : Thread nD τ).loc main_arg2)) (m ((c : Thread nD τ).loc main_arg3))).symm)
theorem w1 : W5 m ρ c (Proc.devRef .tc main_v47) = (Cert.Layers.wmid0 (m ((c : Thread nD τ).loc main_arg5))) :=
  (s1_w (W4 m ρ c)).trans (congrArg Cert.Layers.wmid0 (live4 m ρ c).a5)
theorem b1 (k : Fin 128) : W5 m ρ c (Proc.devRef .tc main_v48) (ix2 (0 : Fin 1) k) = (m ((c : Thread nD τ).loc main_arg4)) (ix1 k) :=
  (s1_b (W4 m ρ c) k).trans (congrFun (live4 m ρ c).a4 (ix1 k))

/-! ### Region 1 and the stretch after it -/

/-- Region 1 writes its output array only. -/
theorem live6 : Live m c (W6 m ρ c) :=
  Live.step m c ⟨W6_of_ne m ρ c main_v3 (by decide), W6_of_ne m ρ c main_v6 (by decide), W6_of_ne m ρ c main_v31 (by decide), W6_of_ne m ρ c main_arg4 (by decide), W6_of_ne m ρ c main_arg5 (by decide), W6_of_ne m ρ c main_arg6 (by decide), W6_of_ne m ρ c main_arg7 (by decide), W6_of_ne m ρ c main_arg8 (by decide)⟩ (live5 m ρ c)
/-- Region 1 leaves the activation of the propagated features with the first bias, times its weight matrix. -/
theorem out1 : W6 m ρ c (Proc.devRef .tc main_v49) = (Cert.Spec.fused (Cert.Layers.h1 (m ((c : Thread nD τ).loc main_arg0)) (m ((c : Thread nD τ).loc main_arg1)) (m ((c : Thread nD τ).loc main_arg2)) (m ((c : Thread nD τ).loc main_arg3))) (m ((c : Thread nD τ).loc main_arg4)) (Cert.Layers.wmid0 (m ((c : Thread nD τ).loc main_arg5)))) :=
  (W6_arr m ρ c 3).trans ((Cert.KernelIdeal.RegionValue.region1 (V5 m ρ) c (m ((c : Thread nD τ).loc main_arg4)) (b1 m ρ c)).trans
    (congrArg₂ (fun a w => Cert.Spec.fused a (m ((c : Thread nD τ).loc main_arg4)) w) (agg1 m ρ c) (w1 m ρ c)))
theorem live7 : Live m c (W7 m ρ c) := Live.step m c (s2_keep (W6 m ρ c)) (live6 m ρ c)
/-- The stretch propagates region 1's output. -/
theorem agg2 : W7 m ρ c (Proc.devRef .tc main_v62) = (Cert.Layers.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (s2_agg (W6 m ρ c)).trans (by
    rw [(live6 m ρ c).dst, (live6 m ρ c).nrm, (live6 m ρ c).src, out1 m ρ c]; exact (Cert.Layers.h2_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).symm)
theorem w2 : W7 m ρ c (Proc.devRef .tc main_v66) = (Cert.Layers.wmid1 (m ((c : Thread nD τ).loc main_arg5))) :=
  (s2_w (W6 m ρ c)).trans (congrArg Cert.Layers.wmid1 (live6 m ρ c).a5)
theorem b2 (k : Fin 128) : W7 m ρ c (Proc.devRef .tc main_v67) (ix2 (0 : Fin 1) k) = (Cert.Layers.bmid0 (m ((c : Thread nD τ).loc main_arg6))) (ix1 k) :=
  (s2_b (W6 m ρ c) k).trans (congrFun (congrArg Cert.Layers.bmid0 (live6 m ρ c).a6) (ix1 k))

/-! ### Region 2 and the stretch after it -/

/-- Region 2 writes its output array only. -/
theorem live8 : Live m c (W8 m ρ c) :=
  Live.step m c ⟨W8_of_ne m ρ c main_v3 (by decide), W8_of_ne m ρ c main_v6 (by decide), W8_of_ne m ρ c main_v31 (by decide), W8_of_ne m ρ c main_arg4 (by decide), W8_of_ne m ρ c main_arg5 (by decide), W8_of_ne m ρ c main_arg6 (by decide), W8_of_ne m ρ c main_arg7 (by decide), W8_of_ne m ρ c main_arg8 (by decide)⟩ (live7 m ρ c)
/-- Region 2 leaves the activation of the propagated features with the previous bias, times its weight matrix. -/
theorem out2 : W8 m ρ c (Proc.devRef .tc main_v68) = (Cert.Spec.fused (Cert.Layers.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Cert.Layers.bmid0 (m ((c : Thread nD τ).loc main_arg6))) (Cert.Layers.wmid1 (m ((c : Thread nD τ).loc main_arg5)))) :=
  (W8_arr m ρ c 3).trans ((Cert.KernelIdeal.RegionValue.region2 (V7 m ρ) c (Cert.Layers.bmid0 (m ((c : Thread nD τ).loc main_arg6))) (b2 m ρ c)).trans
    (congrArg₂ (fun a w => Cert.Spec.fused a (Cert.Layers.bmid0 (m ((c : Thread nD τ).loc main_arg6))) w) (agg2 m ρ c) (w2 m ρ c)))
theorem live9 : Live m c (W9 m ρ c) := Live.step m c (s3_keep (W8 m ρ c)) (live8 m ρ c)
/-- The stretch propagates region 2's output. -/
theorem agg3 : W9 m ρ c (Proc.devRef .tc main_v81) = (Cert.Layers.h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :=
  (s3_agg (W8 m ρ c)).trans (by
    rw [(live8 m ρ c).dst, (live8 m ρ c).nrm, (live8 m ρ c).src, out2 m ρ c]; exact (Cert.Layers.h3_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))).symm)
theorem w3 : W9 m ρ c (Proc.devRef .tc main_v85) = (Cert.Layers.wmid2 (m ((c : Thread nD τ).loc main_arg5))) :=
  (s3_w (W8 m ρ c)).trans (congrArg Cert.Layers.wmid2 (live8 m ρ c).a5)
theorem b3 (k : Fin 128) : W9 m ρ c (Proc.devRef .tc main_v86) (ix2 (0 : Fin 1) k) = (Cert.Layers.bmid1 (m ((c : Thread nD τ).loc main_arg6))) (ix1 k) :=
  (s3_b (W8 m ρ c) k).trans (congrFun (congrArg Cert.Layers.bmid1 (live8 m ρ c).a6) (ix1 k))

/-! ### Region 3 and the stretch after it -/

/-- Region 3 writes its output array only. -/
theorem live10 : Live m c (W10 m ρ c) :=
  Live.step m c ⟨W10_of_ne m ρ c main_v3 (by decide), W10_of_ne m ρ c main_v6 (by decide), W10_of_ne m ρ c main_v31 (by decide), W10_of_ne m ρ c main_arg4 (by decide), W10_of_ne m ρ c main_arg5 (by decide), W10_of_ne m ρ c main_arg6 (by decide), W10_of_ne m ρ c main_arg7 (by decide), W10_of_ne m ρ c main_arg8 (by decide)⟩ (live9 m ρ c)
/-- Region 3 leaves the activation of the propagated features with the previous bias, times its weight matrix. -/
theorem out3 : W10 m ρ c (Proc.devRef .tc main_v87) = (Cert.Spec.fused (Cert.Layers.h3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (Cert.Layers.bmid1 (m ((c : Thread nD τ).loc main_arg6))) (Cert.Layers.wmid2 (m ((c : Thread nD τ).loc main_arg5)))) :=
  (W10_arr m ρ c 3).trans ((Cert.KernelIdeal.RegionValue.region3 (V9 m ρ) c (Cert.Layers.bmid1 (m ((c : Thread nD τ).loc main_arg6))) (b3 m ρ c)).trans
    (congrArg₂ (fun a w => Cert.Spec.fused a (Cert.Layers.bmid1 (m ((c : Thread nD τ).loc main_arg6))) w) (agg3 m ρ c) (w3 m ρ c)))
theorem live11 : Live m c (W11 m ρ c) := Live.step m c (s4_keep (W10 m ρ c)) (live10 m ρ c)
/-- The stretch propagates region 3's output. -/
theorem agg4 : W11 m ρ c (Proc.devRef .tc main_v100) = (Cert.Layers.h4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :=
  (s4_agg (W10 m ρ c)).trans (by
    rw [(live10 m ρ c).dst, (live10 m ρ c).nrm, (live10 m ρ c).src, out3 m ρ c]; exact (Cert.Layers.h4_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))).symm)
theorem w4 : W11 m ρ c (Proc.devRef .tc main_v104) = (Cert.Layers.wmid3 (m ((c : Thread nD τ).loc main_arg5))) :=
  (s4_w (W10 m ρ c)).trans (congrArg Cert.Layers.wmid3 (live10 m ρ c).a5)
theorem b4 (k : Fin 128) : W11 m ρ c (Proc.devRef .tc main_v105) (ix2 (0 : Fin 1) k) = (Cert.Layers.bmid2 (m ((c : Thread nD τ).loc main_arg6))) (ix1 k) :=
  (s4_b (W10 m ρ c) k).trans (congrFun (congrArg Cert.Layers.bmid2 (live10 m ρ c).a6) (ix1 k))

/-! ### Region 4 and the stretch after it -/

/-- Region 4 writes its output array only. -/
theorem live12 : Live m c (W12 m ρ c) :=
  Live.step m c ⟨W12_of_ne m ρ c main_v3 (by decide), W12_of_ne m ρ c main_v6 (by decide), W12_of_ne m ρ c main_v31 (by decide), W12_of_ne m ρ c main_arg4 (by decide), W12_of_ne m ρ c main_arg5 (by decide), W12_of_ne m ρ c main_arg6 (by decide), W12_of_ne m ρ c main_arg7 (by decide), W12_of_ne m ρ c main_arg8 (by decide)⟩ (live11 m ρ c)
/-- Region 4 leaves the activation of the propagated features with the previous bias, times its weight matrix. -/
theorem out4 : W12 m ρ c (Proc.devRef .tc main_v106) = (Cert.Spec.fused (Cert.Layers.h4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (Cert.Layers.bmid2 (m ((c : Thread nD τ).loc main_arg6))) (Cert.Layers.wmid3 (m ((c : Thread nD τ).loc main_arg5)))) :=
  (W12_arr m ρ c 3).trans ((Cert.KernelIdeal.RegionValue.region4 (V11 m ρ) c (Cert.Layers.bmid2 (m ((c : Thread nD τ).loc main_arg6))) (b4 m ρ c)).trans
    (congrArg₂ (fun a w => Cert.Spec.fused a (Cert.Layers.bmid2 (m ((c : Thread nD τ).loc main_arg6))) w) (agg4 m ρ c) (w4 m ρ c)))
theorem live13 : Live m c (W13 m ρ c) := Live.step m c (s5_keep (W12 m ρ c)) (live12 m ρ c)
/-- The stretch propagates region 4's output. -/
theorem agg5 : W13 m ρ c (Proc.devRef .tc main_v119) = (Cert.Layers.h5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :=
  (s5_agg (W12 m ρ c)).trans (by
    rw [(live12 m ρ c).dst, (live12 m ρ c).nrm, (live12 m ρ c).src, out4 m ρ c]; exact (Cert.Layers.h5_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))).symm)
theorem w5 : W13 m ρ c (Proc.devRef .tc main_v123) = (Cert.Layers.wmid4 (m ((c : Thread nD τ).loc main_arg5))) :=
  (s5_w (W12 m ρ c)).trans (congrArg Cert.Layers.wmid4 (live12 m ρ c).a5)
theorem b5 (k : Fin 128) : W13 m ρ c (Proc.devRef .tc main_v124) (ix2 (0 : Fin 1) k) = (Cert.Layers.bmid3 (m ((c : Thread nD τ).loc main_arg6))) (ix1 k) :=
  (s5_b (W12 m ρ c) k).trans (congrFun (congrArg Cert.Layers.bmid3 (live12 m ρ c).a6) (ix1 k))

/-! ### Region 5 and the stretch after it -/

/-- Region 5 writes its output array only. -/
theorem live14 : Live m c (W14 m ρ c) :=
  Live.step m c ⟨W14_of_ne m ρ c main_v3 (by decide), W14_of_ne m ρ c main_v6 (by decide), W14_of_ne m ρ c main_v31 (by decide), W14_of_ne m ρ c main_arg4 (by decide), W14_of_ne m ρ c main_arg5 (by decide), W14_of_ne m ρ c main_arg6 (by decide), W14_of_ne m ρ c main_arg7 (by decide), W14_of_ne m ρ c main_arg8 (by decide)⟩ (live13 m ρ c)
/-- Region 5 leaves the activation of the propagated features with the previous bias, times its weight matrix. -/
theorem out5 : W14 m ρ c (Proc.devRef .tc main_v125) = (Cert.Spec.fused (Cert.Layers.h5 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (Cert.Layers.bmid3 (m ((c : Thread nD τ).loc main_arg6))) (Cert.Layers.wmid4 (m ((c : Thread nD τ).loc main_arg5)))) :=
  (W14_arr m ρ c 3).trans ((Cert.KernelIdeal.RegionValue.region5 (V13 m ρ) c (Cert.Layers.bmid3 (m ((c : Thread nD τ).loc main_arg6))) (b5 m ρ c)).trans
    (congrArg₂ (fun a w => Cert.Spec.fused a (Cert.Layers.bmid3 (m ((c : Thread nD τ).loc main_arg6))) w) (agg5 m ρ c) (w5 m ρ c)))
theorem live15 : Live m c (W15 m ρ c) := Live.step m c (s6_keep (W14 m ρ c)) (live14 m ρ c)
/-- The stretch propagates region 5's output. -/
theorem agg6 : W15 m ρ c (Proc.devRef .tc main_v138) = (Cert.Layers.h6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :=
  (s6_agg (W14 m ρ c)).trans (by
    rw [(live14 m ρ c).dst, (live14 m ρ c).nrm, (live14 m ρ c).src, out5 m ρ c]; exact (Cert.Layers.h6_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))).symm)
theorem w6 : W15 m ρ c (Proc.devRef .tc main_v142) = (Cert.Layers.wmid5 (m ((c : Thread nD τ).loc main_arg5))) :=
  (s6_w (W14 m ρ c)).trans (congrArg Cert.Layers.wmid5 (live14 m ρ c).a5)
theorem b6 (k : Fin 128) : W15 m ρ c (Proc.devRef .tc main_v143) (ix2 (0 : Fin 1) k) = (Cert.Layers.bmid4 (m ((c : Thread nD τ).loc main_arg6))) (ix1 k) :=
  (s6_b (W14 m ρ c) k).trans (congrFun (congrArg Cert.Layers.bmid4 (live14 m ρ c).a6) (ix1 k))

/-! ### Region 6 and the stretch after it -/

/-- Region 6 writes its output array only. -/
theorem live16 : Live m c (W16 m ρ c) :=
  Live.step m c ⟨W16_of_ne m ρ c main_v3 (by decide), W16_of_ne m ρ c main_v6 (by decide), W16_of_ne m ρ c main_v31 (by decide), W16_of_ne m ρ c main_arg4 (by decide), W16_of_ne m ρ c main_arg5 (by decide), W16_of_ne m ρ c main_arg6 (by decide), W16_of_ne m ρ c main_arg7 (by decide), W16_of_ne m ρ c main_arg8 (by decide)⟩ (live15 m ρ c)
/-- Region 6 leaves the activation of the propagated features with the previous bias, times its weight matrix. -/
theorem out6 : W16 m ρ c (Proc.devRef .tc main_v144) = (Cert.Spec.fused (Cert.Layers.h6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (Cert.Layers.bmid4 (m ((c : Thread nD τ).loc main_arg6))) (Cert.Layers.wmid5 (m ((c : Thread nD τ).loc main_arg5)))) :=
  (W16_arr m ρ c 3).trans ((Cert.KernelIdeal.RegionValue.region6 (V15 m ρ) c (Cert.Layers.bmid4 (m ((c : Thread nD τ).loc main_arg6))) (b6 m ρ c)).trans
    (congrArg₂ (fun a w => Cert.Spec.fused a (Cert.Layers.bmid4 (m ((c : Thread nD τ).loc main_arg6))) w) (agg6 m ρ c) (w6 m ρ c)))
theorem live17 : Live m c (W17 m ρ c) := Live.step m c (s7_keep (W16 m ρ c)) (live16 m ρ c)
/-- The stretch propagates region 6's output. -/
theorem agg7 : W17 m ρ c (Proc.devRef .tc main_v157) = (Cert.Layers.h7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :=
  (s7_agg (W16 m ρ c)).trans (by
    rw [(live16 m ρ c).dst, (live16 m ρ c).nrm, (live16 m ρ c).src, out6 m ρ c]; exact (Cert.Layers.h7_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))).symm)
theorem w7 : W17 m ρ c (Proc.devRef .tc main_arg7) = (m ((c : Thread nD τ).loc main_arg7)) := (live17 m ρ c).a7
theorem b7 (k : Fin 128) : W17 m ρ c (Proc.devRef .tc main_v160) (ix2 (0 : Fin 1) k) = (Cert.Layers.bmid5 (m ((c : Thread nD τ).loc main_arg6))) (ix1 k) :=
  (s7_b (W16 m ρ c) k).trans (congrFun (congrArg Cert.Layers.bmid5 (live16 m ρ c).a6) (ix1 k))

/-! ### Region 7 and the stretch after it -/

/-- Region 7 writes its output array only. -/
theorem live18 : Live m c (W18 m ρ c) :=
  Live.step m c ⟨W18_of_ne m ρ c main_v3 (by decide), W18_of_ne m ρ c main_v6 (by decide), W18_of_ne m ρ c main_v31 (by decide), W18_of_ne m ρ c main_arg4 (by decide), W18_of_ne m ρ c main_arg5 (by decide), W18_of_ne m ρ c main_arg6 (by decide), (W18_arr m ρ c 2).trans (((dat7 (V17 m ρ) c).arrAt_in 2 rfl _).trans (A_eq7 (V17 m ρ) c 2)), W18_of_ne m ρ c main_arg8 (by decide)⟩ (live17 m ρ c)
/-- Region 7 leaves the activation of the propagated features with the previous bias, times its weight matrix. -/
theorem out7 : W18 m ρ c (Proc.devRef .tc main_v161) = (Cert.Spec.fused2 (Cert.Layers.h7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (Cert.Layers.bmid5 (m ((c : Thread nD τ).loc main_arg6))) (m ((c : Thread nD τ).loc main_arg7))) :=
  (W18_arr m ρ c 3).trans ((Cert.KernelIdeal.RegionEnds.region7 (V17 m ρ) c (Cert.Layers.bmid5 (m ((c : Thread nD τ).loc main_arg6))) (b7 m ρ c)).trans
    (congrArg₂ (fun a w => Cert.Spec.fused2 a (Cert.Layers.bmid5 (m ((c : Thread nD τ).loc main_arg6))) w) (agg7 m ρ c) (w7 m ρ c)))

/-- THE RESULT: after the last stretch the result buffer holds the network's function of the nine arguments. -/
theorem result : W19 m ρ c (Proc.devRef .tc main_v177) = Cert.Layers.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (s8_out (W18 m ρ c)).trans (by
    rw [(live18 m ρ c).dst, (live18 m ρ c).nrm, (live18 m ρ c).src, out7 m ρ c, (live18 m ρ c).a8]; exact (Cert.Layers.out_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))).symm)

end Cert.KernelIdeal.Walk

end
-- ==== Proof.RefValue.lean ====
/-
  The idealized reference program's result as the network's function of its nine arguments.

  The reference runs the same eight layers with host operations only: each dense stage is a `dot_general` of the
  activated features with the layer's weight matrix, and it rebuilds the source list, the target list and the
  normalized weights in every layer from the same two arguments. Its result term is therefore `Layers.out` of the
  arguments by unfolding the named pieces: the two terms are the same tree of host operations.
-/
import proofs.«116386_j10213432230582_1_alg».proof.Proof.RefRunP
import proofs.«116386_j10213432230582_1_alg».proof.Proof.Layers

noncomputable section

namespace Cert.ReferenceIdeal.RefValue

open Cert.ReferenceIdeal Idealize.ShloMosaic Idealize.ShloMosaic.TcCoe Idealize.SL.Sem

variable {F : FTy → Type} [FloatOps F]

set_option maxRecDepth 65536 in
set_option maxHeartbeats 4000000 in
/-- The reference's result is the network's function of the arguments' launch contents. -/
theorem res_eq (m : (ℓ : Loc nD τ sig) → Buf (Elt F) ℓ) (c : Dev nD) :
    Cert.ReferenceIdeal.ValueP.res_main_v359 m c
      = Cert.Layers.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Cert.ReferenceIdeal.ValueP.res_main_v359
  rfl

end Cert.ReferenceIdeal.RefValue

end
-- ==== Proof.lean ====
/-
  The proof of `Cert.Claim`: an 8-layer graph convolution network whose dense stages run as eight Pallas regions,
  against its plain jnp reference.

  Both programs build, from the edge-index array and the edge attributes, the source list, the target list and the
  normalized weight `dis[src] · w · dis[dst]` of each of the 850000 entries (800000 edges and a self loop per node),
  and both run eight layers: a dense stage — the product of the node features with the layer's weight matrix, from
  the second layer on applied to `max (a + b, 0)` of the previous layer's propagated features and bias — followed by
  the propagation over the graph (gather the rows at the sources, scale by the normalized weights, sum at the
  targets); the last bias is added at the end. The kernel computes each dense stage block by block (ten blocks of
  5000 rows, the product a sum over the 128 shared coordinates into a zero accumulator) and builds the three lists
  once; the reference computes each dense stage by one `dot_general` and rebuilds the lists in every layer. Over the
  extended reals a block of the product is the block of the whole product, entry by entry the same finite sum, so
  both results are one function of the nine arguments, `Layers.out`; no law that needs finiteness is used, and the
  precondition is never opened.

  The frames of the two kernel programs are the generated frame certificates, the reference's frame is its run with
  the result dropped, and the ideal pass rewrote nothing, so `preserves` is trivial.
-/
import proofs.«116386_j10213432230582_1_alg».proof.Defs
import proofs.«116386_j10213432230582_1_alg».proof.Proof.Gen.Kernel
import proofs.«116386_j10213432230582_1_alg».proof.Proof.Gen.Kernel.Skeleton
import proofs.«116386_j10213432230582_1_alg».proof.Proof.Gen.Kernel.Launch
import proofs.«116386_j10213432230582_1_alg».proof.Proof.Gen.Kernel.Points
import proofs.«116386_j10213432230582_1_alg».proof.Proof.Gen.Kernel.Frame
import proofs.«116386_j10213432230582_1_alg».proof.Proof.Gen.KernelIdeal
import proofs.«116386_j10213432230582_1_alg».proof.Proof.Gen.KernelIdeal.Skeleton
import proofs.«116386_j10213432230582_1_alg».proof.Proof.Gen.KernelIdeal.Launch
import proofs.«116386_j10213432230582_1_alg».proof.Proof.Gen.KernelIdeal.Points
import proofs.«116386_j10213432230582_1_alg».proof.Proof.Gen.KernelIdeal.Frame
import proofs.«116386_j10213432230582_1_alg».proof.Proof.Gen.ReferenceIdeal
import proofs.«116386_j10213432230582_1_alg».proof.Proof.Gen.Pre_finite_inputs
import proofs.«116386_j10213432230582_1_alg».proof.Proof.KernelRun
import proofs.«116386_j10213432230582_1_alg».proof.Proof.Walk
import proofs.«116386_j10213432230582_1_alg».proof.Proof.RefRunP
import proofs.«116386_j10213432230582_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories that agree on the arguments both idealized programs end with the network's function of the
    arguments in their result buffers: the kernel by following its buffer contents through its nineteen segments,
    the reference by unfolding its result term. -/
theorem algebraic : Cert.algebraic_KernelIdeal_ReferenceIdeal := by
  intro m ρ m' ρ' _ hagree
  refine ⟨fun c => Cert.Layers.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Walk.result m ρ c), (h c).2⟩)
      (Cert.KernelIdeal.RunAll.run_result (F := Ideal) m ρ)
  · refine (θ_run Cert.ReferenceIdeal.defs _ _).mono (fun r h c => ⟨?_, (h c).2⟩)
      (Cert.ReferenceIdeal.ValueP.run (F := Ideal) m' ρ')
    rw [(h c).1, Cert.ReferenceIdeal.RefValue.res_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
